-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x5 : Shape := ⟨2, ![500000, 5]⟩
abbrev S10000x2 : Shape := ⟨2, ![10000, 2]⟩
abbrev S500000x16 : Shape := ⟨2, ![500000, 16]⟩
abbrev S10000x16 : Shape := ⟨2, ![10000, 16]⟩
abbrev S16x5 : Shape := ⟨2, ![16, 5]⟩
abbrev S16 : Shape := ⟨1, ![16]⟩
abbrev S16x2 : Shape := ⟨2, ![16, 2]⟩
abbrev S32x32 : Shape := ⟨2, ![32, 32]⟩
abbrev S32 : Shape := ⟨1, ![32]⟩
abbrev S16x32 : Shape := ⟨2, ![16, 32]⟩
abbrev S500000 : Shape := ⟨1, ![500000]⟩
abbrev S10000 : Shape := ⟨1, ![10000]⟩
abbrev S2000000 : Shape := ⟨1, ![2000000]⟩
abbrev S_ : Shape := ⟨0, ![]⟩

class Facts : Prop where
  bcast_S_S500000x5 : S_.BroadcastsInDim S500000x5 (![] : Fin 0 → Fin S500000x5.rank)
  reducesTo_S500000x5_S_d0_1 : S500000x5.ReducesTo [0, 1] S_
  h_S_ : 0 < S_.numel
  bcast_S_S10000x2 : S_.BroadcastsInDim S10000x2 (![] : Fin 0 → Fin S10000x2.rank)
  reducesTo_S10000x2_S_d0_1 : S10000x2.ReducesTo [0, 1] S_
  bcast_S_S500000x16 : S_.BroadcastsInDim S500000x16 (![] : Fin 0 → Fin S500000x16.rank)
  reducesTo_S500000x16_S_d0_1 : S500000x16.ReducesTo [0, 1] S_
  bcast_S_S10000x16 : S_.BroadcastsInDim S10000x16 (![] : Fin 0 → Fin S10000x16.rank)
  reducesTo_S10000x16_S_d0_1 : S10000x16.ReducesTo [0, 1] S_
  bcast_S_S16x5 : S_.BroadcastsInDim S16x5 (![] : Fin 0 → Fin S16x5.rank)
  reducesTo_S16x5_S_d0_1 : S16x5.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_

variable [Facts]

def fn_part5 {F : FTy → Type} [FloatOps F] (main_arg18 : FVec F S16 .f32) (main_arg19 : FVec F S16x32 .f32) (main_v83 : IVec S_ 1) (main_v84 : FVec F S16x32 .f32) (main_cst_32 : FVec F S_ .f32) : IVec S_ 1 :=
  let main_v85 : FVec F S16x32 .f32 := broadcastInDim S16x32 ![] bcast_S_S16x32 main_cst_32
  let main_v86 : IVec S16x32 1 := cmpf .olt main_v84 main_v85
  let main_c_33 : IVec S_ 1 := constantI S_ 1 1#1
  let main_v87 : IVec S_ 1 := (fun x v => Host.reduce IntOp.andi x v reducesTo_S16x32_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x32 .f32 := Host.absf main_arg19
  let main_cst_36 : FVec F S_ .f32 := constant S_ .f32 0x7F800000#32
  let main_v95 : FVec F S16x32 .f32 := broadcastInDim S16x32 ![] bcast_S_S16x32 main_cst_36
  let main_v96 : IVec S16x32 1 := cmpf .olt main_v94 main_v95
  let main_c_37 : IVec S_ 1 := constantI S_ 1 1#1
  let main_v97 : IVec S_ 1 := (fun x v => Host.reduce IntOp.andi x v reducesTo_S16x32_S_d0_1 h_S_) main_v96 main_c_37
  let main_v98 : IVec S_ 1 := andi main_v93 main_v97
  main_v98

def fn_part4 {F : FTy → Type} [FloatOps F] (main_arg14 : FVec F S16x32 .f32) (main_arg15 : FVec F S16 .f32) (main_arg16 : FVec F S16x32 .f32) (main_arg17 : FVec F S16x32 .f32) (main_arg18 : FVec F S16 .f32) (main_arg19 : FVec F S16x32 .f32) (main_v63 : IVec S_ 1) (main_v67 : IVec S_ 1) : IVec S_ 1 :=
  let main_v68 : IVec S_ 1 := andi main_v63 main_v67
  let main_v69 : FVec F S16x32 .f32 := Host.absf main_arg14
  let main_cst_26 : FVec F S_ .f32 := constant S_ .f32 0x7F800000#32
  let main_v70 : FVec F S16x32 .f32 := broadcastInDim S16x32 ![] bcast_S_S16x32 main_cst_26
  let main_v71 : IVec S16x32 1 := cmpf .olt main_v69 main_v70
  let main_c_27 : IVec S_ 1 := constantI S_ 1 1#1
  let main_v72 : IVec S_ 1 := (fun x v => Host.reduce IntOp.andi x v reducesTo_S16x32_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x32 .f32 := Host.absf main_arg16
  let main_cst_30 : FVec F S_ .f32 := constant S_ .f32 0x7F800000#32
  let main_v80 : FVec F S16x32 .f32 := broadcastInDim S16x32 ![] bcast_S_S16x32 main_cst_30
  let main_v81 : IVec S16x32 1 := cmpf .olt main_v79 main_v80
  let main_c_31 : IVec S_ 1 := constantI S_ 1 1#1
  let main_v82 : IVec S_ 1 := (fun x v => Host.reduce IntOp.andi x v reducesTo_S16x32_S_d0_1 h_S_) main_v81 main_c_31
  let main_v83 : IVec S_ 1 := andi main_v78 main_v82
  let main_v84 : FVec F S16x32 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S32x32 .f32) (main_arg12 : FVec F S32 .f32) (main_arg13 : FVec F S32x32 .f32) (main_arg14 : FVec F S16x32 .f32) (main_arg15 : FVec F S16 .f32) (main_arg16 : FVec F S16x32 .f32) (main_arg17 : FVec F S16x32 .f32) (main_arg18 : FVec F S16 .f32) (main_arg19 : FVec F S16x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg13
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg14 main_arg15 main_arg16 main_arg17 main_arg18 main_arg19 main_v63 main_v67

def fn_part2 {F : FTy → Type} [FloatOps F] (main_arg7 : FVec F S16 .f32) (main_arg8 : FVec F S32x32 .f32) (main_arg9 : FVec F S32 .f32) (main_arg10 : FVec F S32x32 .f32) (main_arg11 : FVec F S32x32 .f32) (main_arg12 : FVec F S32 .f32) (main_arg13 : FVec F S32x32 .f32) (main_arg14 : FVec F S16x32 .f32) (main_arg15 : FVec F S16 .f32) (main_arg16 : FVec F S16x32 .f32) (main_arg17 : FVec F S16x32 .f32) (main_arg18 : FVec F S16 .f32) (main_arg19 : FVec F S16x32 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S16x5 .f32) (main_arg5 : FVec F S16 .f32) (main_arg6 : FVec F S16x2 .f32) (main_arg7 : FVec F S16 .f32) (main_arg8 : FVec F S32x32 .f32) (main_arg9 : FVec F S32 .f32) (main_arg10 : FVec F S32x32 .f32) (main_arg11 : FVec F S32x32 .f32) (main_arg12 : FVec F S32 .f32) (main_arg13 : FVec F S32x32 .f32) (main_arg14 : FVec F S16x32 .f32) (main_arg15 : FVec F S16 .f32) (main_arg16 : FVec F S16x32 .f32) (main_arg17 : FVec F S16x32 .f32) (main_arg18 : FVec F S16 .f32) (main_arg19 : FVec F S16x32 .f32) (main_v13 : IVec S_ 1) (main_v16 : IVec S10000x16 1) : IVec S_ 1 :=
  let main_c_5 : IVec S_ 1 := constantI S_ 1 1#1
  let main_v17 : IVec S_ 1 := (fun x v => Host.reduce IntOp.andi x v reducesTo_S10000x16_S_d0_1 h_S_) main_v16 main_c_5
  let main_v18 : IVec S_ 1 := andi main_v13 main_v17
  let main_v19 : FVec F S16x5 .f32 := Host.absf main_arg4
  let main_cst_6 : FVec F S_ .f32 := constant S_ .f32 0x7F800000#32
  let main_v20 : FVec F S16x5 .f32 := broadcastInDim S16x5 ![] bcast_S_S16x5 main_cst_6
  let main_v21 : IVec S16x5 1 := cmpf .olt main_v19 main_v20
  let main_c_7 : IVec S_ 1 := constantI S_ 1 1#1
  let main_v22 : IVec S_ 1 := (fun x v => Host.reduce IntOp.andi x v reducesTo_S16x5_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x2 .f32 := Host.absf main_arg6
  let main_cst_10 : FVec F S_ .f32 := constant S_ .f32 0x7F800000#32
  let main_v30 : FVec F S16x2 .f32 := broadcastInDim S16x2 ![] bcast_S_S16x2 main_cst_10
  let main_v31 : IVec S16x2 1 := cmpf .olt main_v29 main_v30
  let main_c_11 : IVec S_ 1 := constantI S_ 1 1#1
  let main_v32 : IVec S_ 1 := (fun x v => Host.reduce IntOp.andi x v reducesTo_S16x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S500000x5 .f32) (main_arg1 : FVec F S10000x2 .f32) (main_arg2 : FVec F S500000x16 .f32) (main_arg3 : FVec F S10000x16 .f32) (main_arg4 : FVec F S16x5 .f32) (main_arg5 : FVec F S16 .f32) (main_arg6 : FVec F S16x2 .f32) (main_arg7 : FVec F S16 .f32) (main_arg8 : FVec F S32x32 .f32) (main_arg9 : FVec F S32 .f32) (main_arg10 : FVec F S32x32 .f32) (main_arg11 : FVec F S32x32 .f32) (main_arg12 : FVec F S32 .f32) (main_arg13 : FVec F S32x32 .f32) (main_arg14 : FVec F S16x32 .f32) (main_arg15 : FVec F S16 .f32) (main_arg16 : FVec F S16x32 .f32) (main_arg17 : FVec F S16x32 .f32) (main_arg18 : FVec F S16 .f32) (main_arg19 : FVec F S16x32 .f32) (main_arg20 : IVec S500000 32) (main_arg21 : IVec S10000 32) (main_arg22 : IVec S2000000 32) (main_arg23 : IVec S2000000 32) (main_arg24 : IVec S500000 32) (main_arg25 : IVec S500000 32) : IVec S_ 1 :=
  let main_v0 : FVec F S500000x5 .f32 := Host.absf main_arg0
  let main_cst : FVec F S_ .f32 := constant S_ .f32 0x7F800000#32
  let main_v1 : FVec F S500000x5 .f32 := broadcastInDim S500000x5 ![] bcast_S_S500000x5 main_cst
  let main_v2 : IVec S500000x5 1 := cmpf .olt main_v0 main_v1
  let main_c : IVec S_ 1 := constantI S_ 1 1#1
  let main_v3 : IVec S_ 1 := (fun x v => Host.reduce IntOp.andi x v reducesTo_S500000x5_S_d0_1 h_S_) main_v2 main_c
  let main_v4 : FVec F S10000x2 .f32 := Host.absf main_arg1
  let main_cst_0 : FVec F S_ .f32 := constant S_ .f32 0x7F800000#32
  let main_v5 : FVec F S10000x2 .f32 := broadcastInDim S10000x2 ![] bcast_S_S10000x2 main_cst_0
  let main_v6 : IVec S10000x2 1 := cmpf .olt main_v4 main_v5
  let main_c_1 : IVec S_ 1 := constantI S_ 1 1#1
  let main_v7 : IVec S_ 1 := (fun x v => Host.reduce IntOp.andi x v reducesTo_S10000x2_S_d0_1 h_S_) main_v6 main_c_1
  let main_v8 : IVec S_ 1 := andi main_v3 main_v7
  let main_v9 : FVec F S500000x16 .f32 := Host.absf main_arg2
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S10000x16 .f32 := Host.absf main_arg3
  let main_cst_4 : FVec F S_ .f32 := constant S_ .f32 0x7F800000#32
  let main_v15 : FVec F S10000x16 .f32 := broadcastInDim S10000x16 ![] bcast_S_S10000x16 main_cst_4
  let main_v16 : IVec S10000x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S500000x5 : Shape := ⟨2, ![500000, 5]⟩
abbrev S10000x2 : Shape := ⟨2, ![10000, 2]⟩
abbrev S500000x16 : Shape := ⟨2, ![500000, 16]⟩
abbrev S10000x16 : Shape := ⟨2, ![10000, 16]⟩
abbrev S16x5 : Shape := ⟨2, ![16, 5]⟩
abbrev S16 : Shape := ⟨1, ![16]⟩
abbrev S16x2 : Shape := ⟨2, ![16, 2]⟩
abbrev S32x32 : Shape := ⟨2, ![32, 32]⟩
abbrev S32 : Shape := ⟨1, ![32]⟩
abbrev S16x32 : Shape := ⟨2, ![16, 32]⟩
abbrev S500000 : Shape := ⟨1, ![500000]⟩
abbrev S10000 : Shape := ⟨1, ![10000]⟩
abbrev S2000000 : Shape := ⟨1, ![2000000]⟩
abbrev S_ : Shape := ⟨0, ![]⟩
abbrev S500000x1 : Shape := ⟨2, ![500000, 1]⟩
abbrev S10000x1 : Shape := ⟨2, ![10000, 1]⟩
abbrev S5x16 : Shape := ⟨2, ![5, 16]⟩
abbrev S1x16 : Shape := ⟨2, ![1, 16]⟩
abbrev S500000x32 : Shape := ⟨2, ![500000, 32]⟩
abbrev S4000x5 : Shape := ⟨2, ![4000, 5]⟩
abbrev S4000x16 : Shape := ⟨2, ![4000, 16]⟩
abbrev S4000x32 : Shape := ⟨2, ![4000, 32]⟩
abbrev S2x16 : Shape := ⟨2, ![2, 16]⟩
abbrev S10000x32 : Shape := ⟨2, ![10000, 32]⟩
abbrev S2000x2 : Shape := ⟨2, ![2000, 2]⟩
abbrev S2000x16 : Shape := ⟨2, ![2000, 16]⟩
abbrev S2000x32 : Shape := ⟨2, ![2000, 32]⟩
abbrev S2000000x1 : Shape := ⟨2, ![2000000, 1]⟩
abbrev S2000000x32 : Shape := ⟨2, ![2000000, 32]⟩
abbrev S1x32 : Shape := ⟨2, ![1, 32]⟩
abbrev S2000x1 : Shape := ⟨2, ![2000, 1]⟩
abbrev S4000x1 : Shape := ⟨2, ![4000, 1]⟩
abbrev S32x16 : Shape := ⟨2, ![32, 16]⟩
abbrev S4000 : Shape := ⟨1, ![4000]⟩

abbrev nBuf : Space → Nat
  | .hbm => 166
  | .vmem => 66
  | .smem => 0
  | _ => 0

abbrev hbmTy0_0 (i : Nat) : BufTy := match i % 128 with
  | 0 => ⟨S500000x5, .f32⟩
  | 1 => ⟨S10000x2, .f32⟩
  | 2 => ⟨S500000x16, .f32⟩
  | 3 => ⟨S10000x16, .f32⟩
  | 4 => ⟨S16x5, .f32⟩
  | 5 => ⟨S16, .f32⟩
  | 6 => ⟨S16x2, .f32⟩
  | 7 => ⟨S16, .f32⟩
  | 8 => ⟨S32x32, .f32⟩
  | 9 => ⟨S32, .f32⟩
  | 10 => ⟨S32x32, .f32⟩
  | 11 => ⟨S32x32, .f32⟩
  | 12 => ⟨S32, .f32⟩
  | 13 => ⟨S32x32, .f32⟩
  | 14 => ⟨S16x32, .f32⟩
  | 15 => ⟨S16, .f32⟩
  | 16 => ⟨S16x32, .f32⟩
  | 17 => ⟨S16x32, .f32⟩
  | 18 => ⟨S16, .f32⟩
  | 19 => ⟨S16x32, .f32⟩
  | 20 => ⟨S500000, .i32⟩
  | 21 => ⟨S10000, .i32⟩
  | 22 => ⟨S2000000, .i32⟩
  | 23 => ⟨S2000000, .i32⟩
  | 24 => ⟨S500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x16, .f32⟩
  | 35 => ⟨S_, .i32⟩
  | 36 => ⟨S10000, .i32⟩
  | 37 => ⟨S10000, .i1⟩
  | 38 => ⟨S_, .i32⟩
  | 39 => ⟨S10000, .i32⟩
  | 40 => ⟨S10000, .i32⟩
  | 41 => ⟨S10000, .i32⟩
  | 42 => ⟨S10000x1, .i32⟩
  | 43 => ⟨S10000x16, .f32⟩
  | 44 => ⟨S5x16, .f32⟩
  | 45 => ⟨S1x16, .f32⟩
  | 46 => ⟨S500000x32, .f32⟩
  | 47 => ⟨S2x16, .f32⟩
  | 48 => ⟨S1x16, .f32⟩
  | 49 => ⟨S10000x32, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x32, .f32⟩
  | 59 => ⟨S_, .f32⟩
  | 60 => ⟨S10000x32, .f32⟩
  | 61 => ⟨S2000000x1, .i32⟩
  | 62 => ⟨S10000x32, .f32⟩
  | 63 => ⟨S_, .f32⟩
  | 64 => ⟨S2000000, .f32⟩
  | 65 => ⟨S_, .f32⟩
  | 66 => ⟨S10000, .f32⟩
  | 67 => ⟨S2000000x1, .i32⟩
  | 68 => ⟨S10000, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x32, .f32⟩
  | 78 => ⟨S_, .f32⟩
  | 79 => ⟨S500000x32, .f32⟩
  | 80 => ⟨S2000000x1, .i32⟩
  | 81 => ⟨S500000x32, .f32⟩
  | 82 => ⟨S_, .f32⟩
  | 83 => ⟨S2000000, .f32⟩
  | 84 => ⟨S_, .f32⟩
  | 85 => ⟨S500000, .f32⟩
  | 86 => ⟨S2000000x1, .i32⟩
  | 87 => ⟨S500000, .f32⟩
  | 88 => ⟨S32x32, .f32⟩
  | 89 => ⟨S32x32, .f32⟩
  | 90 => ⟨S1x32, .f32⟩
  | 91 => ⟨S10000x1, .f32⟩
  | 92 => ⟨S10000x32, .f32⟩
  | 93 => ⟨S32x32, .f32⟩
  | 94 => ⟨S32x32, .f32⟩
  | 95 => ⟨S1x32, .f32⟩
  | 96 => ⟨S500000x1, .f32⟩
  | 97 => ⟨S500000x32, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x32, .f32⟩
  | 107 => ⟨S_, .f32⟩
  | 108 => ⟨S10000x32, .f32⟩
  | 109 => ⟨S2000000x1, .i32⟩
  | 110 => ⟨S10000x32, .f32⟩
  | 111 => ⟨S_, .f32⟩
  | 112 => ⟨S2000000, .f32⟩
  | 113 => ⟨S_, .f32⟩
  | 114 => ⟨S10000, .f32⟩
  | 115 => ⟨S2000000x1, .i32⟩
  | 116 => ⟨S10000, .f32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S2000000x1, .i32⟩
  | 125 => ⟨S2000000x32, .f32⟩
  | 126 => ⟨S_, .f32⟩
  | 127 => ⟨S500000x32, .f32⟩
  | _ => ⟨S500000x5, .f32⟩

abbrev hbmTy0_1 (i : Nat) : BufTy := match i % 128 with
  | 0 => ⟨S2000000x1, .i32⟩
  | 1 => ⟨S500000x32, .f32⟩
  | 2 => ⟨S_, .f32⟩
  | 3 => ⟨S2000000, .f32⟩
  | 4 => ⟨S_, .f32⟩
  | 5 => ⟨S500000, .f32⟩
  | 6 => ⟨S2000000x1, .i32⟩
  | 7 => ⟨S500000, .f32⟩
  | 8 => ⟨S32x16, .f32⟩
  | 9 => ⟨S32x16, .f32⟩
  | 10 => ⟨S1x16, .f32⟩
  | 11 => ⟨S10000x1, .f32⟩
  | 12 => ⟨S10000x16, .f32⟩
  | 13 => ⟨S32x16, .f32⟩
  | 14 => ⟨S32x16, .f32⟩
  | 15 => ⟨S1x16, .f32⟩
  | 16 => ⟨S500000x1, .f32⟩
  | 17 => ⟨S500000x16, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x16, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x16, .f32⟩
  | 36 => ⟨S500000x1, .f32⟩
  | 37 => ⟨S500000, .f32⟩
  | _ => ⟨S500000x5, .f32⟩

abbrev hbmTy (i : Nat) : BufTy := match i / 128 with
  | 0 => hbmTy0_0 i
  | 1 => hbmTy0_1 i
  | _ => ⟨S500000x5, .f32⟩

abbrev bufTy : (tb : Table) → Fin (tcTables nBuf tb) → BufTy
  | .hbm, ⟨i, _⟩ => hbmTy i
  | .local _ .vmem, ⟨0, _⟩ => ⟨S4000x5, .f32⟩
  | .local _ .vmem, ⟨1, _⟩ => ⟨S4000x5, .f32⟩
  | .local _ .vmem, ⟨2, _⟩ => ⟨S4000x16, .f32⟩
  | .local _ .vmem, ⟨3, _⟩ => ⟨S4000x16, .f32⟩
  | .local _ .vmem, ⟨4, _⟩ => ⟨S5x16, .f32⟩
  | .local _ .vmem, ⟨5, _⟩ => ⟨S1x16, .f32⟩
  | .local _ .vmem, ⟨6, _⟩ => ⟨S4000x32, .f32⟩
  | .local _ .vmem, ⟨7, _⟩ => ⟨S4000x32, .f32⟩
  | .local _ .vmem, ⟨8, _⟩ => ⟨S2000x2, .f32⟩
  | .local _ .vmem, ⟨9, _⟩ => ⟨S2000x2, .f32⟩
  | .local _ .vmem, ⟨10, _⟩ => ⟨S2000x16, .f32⟩
  | .local _ .vmem, ⟨11, _⟩ => ⟨S2000x16, .f32⟩
  | .local _ .vmem, ⟨12, _⟩ => ⟨S2x16, .f32⟩
  | .local _ .vmem, ⟨13, _⟩ => ⟨S1x16, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x1, .f32⟩
  | .local _ .vmem, ⟨19, _⟩ => ⟨S2000x1, .f32⟩
  | .local _ .vmem, ⟨20, _⟩ => ⟨S2000x32, .f32⟩
  | .local _ .vmem, ⟨21, _⟩ => ⟨S2000x32, .f32⟩
  | .local _ .vmem, ⟨22, _⟩ => ⟨S32x32, .f32⟩
  | .local _ .vmem, ⟨23, _⟩ => ⟨S1x32, .f32⟩
  | .local _ .vmem, ⟨24, _⟩ => ⟨S32x32, .f32⟩
  | .local _ .vmem, ⟨25, _⟩ => ⟨S2000x32, .f32⟩
  | .local _ .vmem, ⟨26, _⟩ => ⟨S2000x32, .f32⟩
  | .local _ .vmem, ⟨27, _⟩ => ⟨S4000x32, .f32⟩
  | .local _ .vmem, ⟨28, _⟩ => ⟨S4000x32, .f32⟩
  | .local _ .vmem, ⟨29, _⟩ => ⟨S4000x1, .f32⟩
  | .local _ .vmem, ⟨30, _⟩ => ⟨S4000x1, .f32⟩
  | .local _ .vmem, ⟨31, _⟩ => ⟨S4000x32, .f32⟩
  | .local _ .vmem, ⟨32, _⟩ => ⟨S4000x32, .f32⟩
  | .local _ .vmem, ⟨33, _⟩ => ⟨S32x32, .f32⟩
  | .local _ .vmem, ⟨34, _⟩ => ⟨S1x32, .f32⟩
  | .local _ .vmem, ⟨35, _⟩ => ⟨S32x32, .f32⟩
  | .local _ .vmem, ⟨36, _⟩ => ⟨S4000x32, .f32⟩
  | .local _ .vmem, ⟨37, _⟩ => ⟨S4000x32, .f32⟩
  | .local _ .vmem, ⟨38, _⟩ => ⟨S2000x32, .f32⟩
  | .local _ .vmem, ⟨39, _⟩ => ⟨S2000x32, .f32⟩
  | .local _ .vmem, ⟨40, _⟩ => ⟨S2000x1, .f32⟩
  | .local _ .vmem, ⟨41, _⟩ => ⟨S2000x1, .f32⟩
  | .local _ .vmem, ⟨42, _⟩ => ⟨S2000x32, .f32⟩
  | .local _ .vmem, ⟨43, _⟩ => ⟨S2000x32, .f32⟩
  | .local _ .vmem, ⟨44, _⟩ => ⟨S32x16, .f32⟩
  | .local _ .vmem, ⟨45, _⟩ => ⟨S1x16, .f32⟩
  | .local _ .vmem, ⟨46, _⟩ => ⟨S32x16, .f32⟩
  | .local _ .vmem, ⟨47, _⟩ => ⟨S2000x16, .f32⟩
  | .local _ .vmem, ⟨48, _⟩ => ⟨S2000x16, .f32⟩
  | .local _ .vmem, ⟨49, _⟩ => ⟨S4000x32, .f32⟩
  | .local _ .vmem, ⟨50, _⟩ => ⟨S4000x32, .f32⟩
  | .local _ .vmem, ⟨51, _⟩ => ⟨S4000x1, .f32⟩
  | .local _ .vmem, ⟨52, _⟩ => ⟨S4000x1, .f32⟩
  | .local _ .vmem, ⟨53, _⟩ => ⟨S4000x32, .f32⟩
  | .local _ .vmem, ⟨54, _⟩ => ⟨S4000x32, .f32⟩
  | .local _ .vmem, ⟨55, _⟩ => ⟨S32x16, .f32⟩
  | .local _ .vmem, ⟨56, _⟩ => ⟨S1x16, .f32⟩
  | .local _ .vmem, ⟨57, _⟩ => ⟨S32x16, .f32⟩
  | .local _ .vmem, ⟨58, _⟩ => ⟨S4000x16, .f32⟩
  | .local _ .vmem, ⟨59, _⟩ => ⟨S4000x16, .f32⟩
  | .local _ .vmem, ⟨60, _⟩ => ⟨S4000x16, .f32⟩
  | .local _ .vmem, ⟨61, _⟩ => ⟨S4000x16, .f32⟩
  | .local _ .vmem, ⟨62, _⟩ => ⟨S4000x16, .f32⟩
  | .local _ .vmem, ⟨63, _⟩ => ⟨S4000x16, .f32⟩
  | .local _ .vmem, ⟨64, _⟩ => ⟨S4000x1, .f32⟩
  | .local _ .vmem, ⟨65, _⟩ => ⟨S4000x1, .f32⟩
  | _, _ => ⟨S500000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_c_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_10 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_12 : Ref sig .tc := ⟨.hbm, 98, rfl⟩
abbrev main_v58 : Ref sig .tc := ⟨.hbm, 99, rfl⟩
abbrev main_v59 : Ref sig .tc := ⟨.hbm, 100, rfl⟩
abbrev main_c_13 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_14 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_cst_16 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_17 : Ref sig .tc := ⟨.hbm, 117, rfl⟩
abbrev main_v72 : Ref sig .tc := ⟨.hbm, 118, rfl⟩
abbrev main_v73 : Ref sig .tc := ⟨.hbm, 119, rfl⟩
abbrev main_c_18 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_19 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_20 : Ref sig .tc := ⟨.hbm, 130, rfl⟩
abbrev main_v82 : Ref sig .tc := ⟨.hbm, 131, rfl⟩
abbrev main_cst_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_22 : Ref sig .tc := ⟨.hbm, 146, rfl⟩
abbrev main_v96 : Ref sig .tc := ⟨.hbm, 147, rfl⟩
abbrev main_v97 : Ref sig .tc := ⟨.hbm, 148, rfl⟩
abbrev main_c_23 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_24 : Ref sig .tc := ⟨.hbm, 155, rfl⟩
abbrev main_v103 : Ref sig .tc := ⟨.hbm, 156, rfl⟩
abbrev main_v104 : Ref sig .tc := ⟨.hbm, 157, rfl⟩
abbrev main_c_25 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x16 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S32x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x16 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S10000 : S_.BroadcastsInDim S10000 (![] : Fin 0 → Fin S10000.rank)
  bcast_S10000_S10000x1_0 : S10000.BroadcastsInDim S10000x1 (![0] : Fin 1 → Fin S10000x1.rank)
  transposes_S16x5_S5x16_1_0 : S16x5.Transposes [1, 0] S5x16
  shapeCasts_S16_S1x16 : S16.ShapeCasts S1x16
  inb_S4000x5_S4000x5_0_0 : ∀ a, (![0, 0] : Fin 2 → Nat) a + S4000x5.size a ≤ S4000x5.size a
  h_S4000x5 : 0 < S4000x5.numel
  bitsLt_bf16_f32 : FTy.bits .bf16 < FTy.bits .f32
  inb_S5x16_S5x16_0_0 : ∀ a, (![0, 0] : Fin 2 → Nat) a + S5x16.size a ≤ S5x16.size a
  h_S5x16 : 0 < S5x16.numel
  shapeCasts_S5x16_S5x16 : S5x16.ShapeCasts S5x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x32_S4000x16_0_0 : ∀ a, (![0, 0] : Fin 2 → Nat) a + S4000x16.size a ≤ S4000x32.size a
  inb_S4000x32_S4000x16_0_16 : ∀ a, (![0, 16] : Fin 2 → Nat) a + S4000x16.size a ≤ S4000x32.size a
  transposes_S16x2_S2x16_1_0 : S16x2.Transposes [1, 0] S2x16
  inb_S2000x2_S2000x2_0_0 : ∀ a, (![0, 0] : Fin 2 → Nat) a + S2000x2.size a ≤ S2000x2.size a
  h_S2000x2 : 0 < S2000x2.numel
  inb_S2x16_S2x16_0_0 : ∀ a, (![0, 0] : Fin 2 → Nat) a + S2x16.size a ≤ S2x16.size a
  h_S2x16 : 0 < S2x16.numel
  shapeCasts_S2x16_S2x16 : S2x16.ShapeCasts S2x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x32_S2000x16_0_0 : ∀ a, (![0, 0] : Fin 2 → Nat) a + S2000x16.size a ≤ S2000x32.size a
  inb_S2000x32_S2000x16_0_16 : ∀ a, (![0, 16] : Fin 2 → Nat) a + S2000x16.size a ≤ S2000x32.size a
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S10000x32 : S_.BroadcastsInDim S10000x32 (![] : Fin 0 → Fin S10000x32.rank)
  bcast_S_S500000x32 : S_.BroadcastsInDim S500000x32 (![] : Fin 0 → Fin S500000x32.rank)
  transposes_S32x32_S32x32_1_0 : S32x32.Transposes [1, 0] S32x32
  shapeCasts_S32_S1x32 : S32.ShapeCasts S1x32
  shapeCasts_S10000_S10000x1 : S10000.ShapeCasts S10000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S2000x1_S2000x32 : S2000x1.Broadcasts S2000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  shapeCasts_S500000_S500000x1 : S500000.ShapeCasts S500000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  broadcasts_S1x32_S4000x32 : S1x32.Broadcasts S4000x32
  transposes_S16x32_S32x16_1_0 : S16x32.Transposes [1, 0] S32x16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  reduces_S4000x16_S4000 : S4000x16.Reduces [1] S4000
  shapeCasts_S4000_S4000x1 : S4000.ShapeCasts S4000x1
  shapeCasts_S500000x1_S500000 : S500000x1.ShapeCasts S500000
  gather_S500000x16_S500000x1_S500000x16_1_0_n_n_0_1_116_wf : GatherDims.WF S500000x16 S500000x1 S500000x16 [1] [0] [] [0] [] 1 ![1, 16]
  gather_S10000x16_S10000x1_S10000x16_1_0_n_n_0_1_116_wf : GatherDims.WF S10000x16 S10000x1 S10000x16 [1] [0] [] [0] [] 1 ![1, 16]
  dot_S4000x5_S5x16_S4000x16_1_0_0_1_n_n_wf : DotDims.WF S4000x5 S5x16 S4000x16 [1] [0] [0] [1] [] []
  dot_S2000x2_S2x16_S2000x16_1_0_0_1_n_n_wf : DotDims.WF S2000x2 S2x16 S2000x16 [1] [0] [0] [1] [] []
  gather_S500000x32_S2000000x1_S2000000x32_1_0_n_n_0_1_132_wf : GatherDims.WF S500000x32 S2000000x1 S2000000x32 [1] [0] [] [0] [] 1 ![1, 32]
  scatter_S10000x32_S2000000x1_S2000000x32_1_0_0_1_wf : ScatterDims.WF S10000x32 S2000000x1 S2000000x32 [1] [0] [0] 1
  scatter_S10000_S2000000x1_S2000000_n_0_0_1_wf : ScatterDims.WF S10000 S2000000x1 S2000000 [] [0] [0] 1
  gather_S10000x32_S2000000x1_S2000000x32_1_0_n_n_0_1_132_wf : GatherDims.WF S10000x32 S2000000x1 S2000000x32 [1] [0] [] [0] [] 1 ![1, 32]
  scatter_S500000x32_S2000000x1_S2000000x32_1_0_0_1_wf : ScatterDims.WF S500000x32 S2000000x1 S2000000x32 [1] [0] [0] 1
  scatter_S500000_S2000000x1_S2000000_n_0_0_1_wf : ScatterDims.WF S500000 S2000000x1 S2000000 [] [0] [0] 1
  dot_S2000x32_S32x32_S2000x32_1_0_0_1_n_n_wf : DotDims.WF S2000x32 S32x32 S2000x32 [1] [0] [0] [1] [] []
  dot_S4000x32_S32x32_S4000x32_1_0_0_1_n_n_wf : DotDims.WF S4000x32 S32x32 S4000x32 [1] [0] [0] [1] [] []
  dot_S2000x32_S32x16_S2000x16_1_0_0_1_n_n_wf : DotDims.WF S2000x32 S32x16 S2000x16 [1] [0] [0] [1] [] []
  dot_S4000x32_S32x16_S4000x16_1_0_0_1_n_n_wf : DotDims.WF S4000x32 S32x16 S4000x16 [1] [0] [0] [1] [] []
  gather_S10000x16_S500000x1_S500000x16_1_0_n_n_0_1_116_wf : GatherDims.WF S10000x16 S500000x1 S500000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x5.size a ≤ S500000x5.size a
  hwx0_0 : ∀ i : grid0.Coords, EltTy.bits .f32 = 32 ∨ (Rect.block (s := S500000x5) S4000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S500000x16.size a
  hwx0_1 : ∀ i : grid0.Coords, EltTy.bits .f32 = 32 ∨ (Rect.block (s := S500000x16) S4000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x16.size a ≤ S5x16.size a
  hwx0_2 : ∀ i : grid0.Coords, EltTy.bits .f32 = 32 ∨ (Rect.block (s := S5x16) S5x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x32.size a ≤ S500000x32.size a
  hwx0_4 : ∀ i : grid0.Coords, EltTy.bits .f32 = 32 ∨ (Rect.block (s := S500000x32) S4000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2.size a ≤ S10000x2.size a
  hwx1_0 : ∀ i : grid1.Coords, EltTy.bits .f32 = 32 ∨ (Rect.block (s := S10000x2) S2000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S10000x16.size a
  hwx1_1 : ∀ i : grid1.Coords, EltTy.bits .f32 = 32 ∨ (Rect.block (s := S10000x16) S2000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x16.size a ≤ S2x16.size a
  hwx1_2 : ∀ i : grid1.Coords, EltTy.bits .f32 = 32 ∨ (Rect.block (s := S2x16) S2x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S10000x32.size a
  hwx1_4 : ∀ i : grid1.Coords, EltTy.bits .f32 = 32 ∨ (Rect.block (s := S10000x32) S2000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S10000x32.size a
  hwx2_0 : ∀ i : grid2.Coords, EltTy.bits .f32 = 32 ∨ (Rect.block (s := S10000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S10000x1.size a
  hwx2_1 : ∀ i : grid2.Coords, EltTy.bits .f32 = 32 ∨ (Rect.block (s := S10000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S10000x32.size a
  hwx2_2 : ∀ i : grid2.Coords, EltTy.bits .f32 = 32 ∨ (Rect.block (s := S10000x32) S2000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S10000x32.size a
  hwx2_6 : ∀ i : grid2.Coords, EltTy.bits .f32 = 32 ∨ (Rect.block (s := S10000x32) S2000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S500000x32.size a
  hwx3_0 : ∀ i : grid3.Coords, EltTy.bits .f32 = 32 ∨ (Rect.block (s := S500000x32) S4000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S500000x1.size a
  hwx3_1 : ∀ i : grid3.Coords, EltTy.bits .f32 = 32 ∨ (Rect.block (s := S500000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x32.size a ≤ S500000x32.size a
  hwx3_2 : ∀ i : grid3.Coords, EltTy.bits .f32 = 32 ∨ (Rect.block (s := S500000x32) S4000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x32.size a ≤ S32x32.size a
  hwx3_5 : ∀ i : grid3.Coords, EltTy.bits .f32 = 32 ∨ (Rect.block (s := S32x32) S32x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x32.size a ≤ S500000x32.size a
  hwx3_6 : ∀ i : grid3.Coords, EltTy.bits .f32 = 32 ∨ (Rect.block (s := S500000x32) S4000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S10000x32.size a
  hwx4_0 : ∀ i : grid4.Coords, EltTy.bits .f32 = 32 ∨ (Rect.block (s := S10000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S10000x1.size a
  hwx4_1 : ∀ i : grid4.Coords, EltTy.bits .f32 = 32 ∨ (Rect.block (s := S10000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S10000x32.size a
  hwx4_2 : ∀ i : grid4.Coords, EltTy.bits .f32 = 32 ∨ (Rect.block (s := S10000x32) S2000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x16.size a ≤ S32x16.size a
  hwx4_3 : ∀ i : grid4.Coords, EltTy.bits .f32 = 32 ∨ (Rect.block (s := S32x16) S32x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x16.size a ≤ S32x16.size a
  hwx4_5 : ∀ i : grid4.Coords, EltTy.bits .f32 = 32 ∨ (Rect.block (s := S32x16) S32x16.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x16.size a ≤ S10000x16.size a
  hwx4_6 : ∀ i : grid4.Coords, EltTy.bits .f32 = 32 ∨ (Rect.block (s := S10000x16) S2000x16.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x32.size a ≤ S500000x32.size a
  hwx5_0 : ∀ i : grid5.Coords, EltTy.bits .f32 = 32 ∨ (Rect.block (s := S500000x32) S4000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S500000x1.size a
  hwx5_1 : ∀ i : grid5.Coords, EltTy.bits .f32 = 32 ∨ (Rect.block (s := S500000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x32.size a ≤ S500000x32.size a
  hwx5_2 : ∀ i : grid5.Coords, EltTy.bits .f32 = 32 ∨ (Rect.block (s := S500000x32) S4000x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x16.size a ≤ S32x16.size a
  hwx5_3 : ∀ i : grid5.Coords, EltTy.bits .f32 = 32 ∨ (Rect.block (s := S32x16) S32x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x16.size a ≤ S32x16.size a
  hwx5_5 : ∀ i : grid5.Coords, EltTy.bits .f32 = 32 ∨ (Rect.block (s := S32x16) S32x16.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x16.size a ≤ S500000x16.size a
  hwx5_6 : ∀ i : grid5.Coords, EltTy.bits .f32 = 32 ∨ (Rect.block (s := S500000x16) S4000x16.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x16.size a ≤ S500000x16.size a
  hwx6_0 : ∀ i : grid6.Coords, EltTy.bits .f32 = 32 ∨ (Rect.block (s := S500000x16) S4000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x16.size a ≤ S500000x16.size a
  hwx6_1 : ∀ i : grid6.Coords, EltTy.bits .f32 = 32 ∨ (Rect.block (s := S500000x16) S4000x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S500000x1.size a
  hwx6_2 : ∀ i : grid6.Coords, EltTy.bits .f32 = 32 ∨ (Rect.block (s := S500000x1) S4000x1.size (cc6_transform_2 i) (hinb6_2 i)).WholeWords (EltTy.packing .f32)

variable [Facts₀]

def gather_S500000x16_S500000x1_S500000x16_1_0_n_n_0_1_116 : GatherDims S500000x16 S500000x1 S500000x16 where
  offsetDims := [1]
  collapsedSliceDims := [0]
  operandBatchingDims := []
  startIndicesBatchingDims := []
  startIndexMap := [0]
  indexVectorDim := 1
  sliceSizes := ![1, 16]
  wf := gather_S500000x16_S500000x1_S500000x16_1_0_n_n_0_1_116_wf
def gather_S10000x16_S10000x1_S10000x16_1_0_n_n_0_1_116 : GatherDims S10000x16 S10000x1 S10000x16 where
  offsetDims := [1]
  collapsedSliceDims := [0]
  operandBatchingDims := []
  startIndicesBatchingDims := []
  startIndexMap := [0]
  indexVectorDim := 1
  sliceSizes := ![1, 16]
  wf := gather_S10000x16_S10000x1_S10000x16_1_0_n_n_0_1_116_wf
def dot_S4000x5_S5x16_S4000x16_1_0_0_1_n_n : DotDims S4000x5 S5x16 S4000x16 where
  lhsContracting := [1]
  rhsContracting := [0]
  lhsNonContracting := [0]
  rhsNonContracting := [1]
  lhsBatch := []
  rhsBatch := []
  wf := dot_S4000x5_S5x16_S4000x16_1_0_0_1_n_n_wf
def dot_S2000x2_S2x16_S2000x16_1_0_0_1_n_n : DotDims S2000x2 S2x16 S2000x16 where
  lhsContracting := [1]
  rhsContracting := [0]
  lhsNonContracting := [0]
  rhsNonContracting := [1]
  lhsBatch := []
  rhsBatch := []
  wf := dot_S2000x2_S2x16_S2000x16_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S10000x32_S2000000x1_S2000000x32_1_0_0_1 : ScatterDims S10000x32 S2000000x1 S2000000x32 where
  updateWindowDims := [1]
  insertedWindowDims := [0]
  scatterDimsToOperandDims := [0]
  indexVectorDim := 1
  wf := scatter_S10000x32_S2000000x1_S2000000x32_1_0_0_1_wf
def scatter_S10000_S2000000x1_S2000000_n_0_0_1 : ScatterDims S10000 S2000000x1 S2000000 where
  updateWindowDims := []
  insertedWindowDims := [0]
  scatterDimsToOperandDims := [0]
  indexVectorDim := 1
  wf := scatter_S10000_S2000000x1_S2000000_n_0_0_1_wf
def gather_S10000x32_S2000000x1_S2000000x32_1_0_n_n_0_1_132 : GatherDims S10000x32 S2000000x1 S2000000x32 where
  offsetDims := [1]
  collapsedSliceDims := [0]
  operandBatchingDims := []
  startIndicesBatchingDims := []
  startIndexMap := [0]
  indexVectorDim := 1
  sliceSizes := ![1, 32]
  wf := gather_S10000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S10000x16_S500000x1_S500000x16_1_0_n_n_0_1_116 : GatherDims S10000x16 S500000x1 S500000x16 where
  offsetDims := [1]
  collapsedSliceDims := [0]
  operandBatchingDims := []
  startIndicesBatchingDims := []
  startIndexMap := [0]
  indexVectorDim := 1
  sliceSizes := ![1, 16]
  wf := gather_S10000x16_S500000x1_S500000x16_1_0_n_n_0_1_116_wf

abbrev win0_0 : Pipeline.Window sig grid0 :=
  Pipeline.Window.ofSpec (Memref.whole main_arg0) S4000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S2000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S4000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S32x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S4000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S2000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v86) S32x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S32x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S2000x16.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v81) S4000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57) S4000x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v91) S32x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S32x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v95) S4000x16.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v102) S4000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S4000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v110) S4000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S500000x5 : Shape := ⟨2, ![500000, 5]⟩
abbrev S10000x2 : Shape := ⟨2, ![10000, 2]⟩
abbrev S500000x16 : Shape := ⟨2, ![500000, 16]⟩
abbrev S10000x16 : Shape := ⟨2, ![10000, 16]⟩
abbrev S16x5 : Shape := ⟨2, ![16, 5]⟩
abbrev S16 : Shape := ⟨1, ![16]⟩
abbrev S16x2 : Shape := ⟨2, ![16, 2]⟩
abbrev S32x32 : Shape := ⟨2, ![32, 32]⟩
abbrev S32 : Shape := ⟨1, ![32]⟩
abbrev S16x32 : Shape := ⟨2, ![16, 32]⟩
abbrev S500000 : Shape := ⟨1, ![500000]⟩
abbrev S10000 : Shape := ⟨1, ![10000]⟩
abbrev S2000000 : Shape := ⟨1, ![2000000]⟩
abbrev S_ : Shape := ⟨0, ![]⟩
abbrev S500000x1 : Shape := ⟨2, ![500000, 1]⟩
abbrev S5x16 : Shape := ⟨2, ![5, 16]⟩
abbrev S1x16 : Shape := ⟨2, ![1, 16]⟩
abbrev S500000x32 : Shape := ⟨2, ![500000, 32]⟩
abbrev S10000x1 : Shape := ⟨2, ![10000, 1]⟩
abbrev S2x16 : Shape := ⟨2, ![2, 16]⟩
abbrev S10000x32 : Shape := ⟨2, ![10000, 32]⟩
abbrev S2000000x1 : Shape := ⟨2, ![2000000, 1]⟩
abbrev S2000000x32 : Shape := ⟨2, ![2000000, 32]⟩
abbrev S1x32 : Shape := ⟨2, ![1, 32]⟩
abbrev S32x16 : Shape := ⟨2, ![32, 16]⟩

abbrev nBuf : Space → Nat
  | .hbm => 215
  | .vmem => 0
  | .smem => 0
  | _ => 0

abbrev hbmTy0_0 (i : Nat) : BufTy := match i % 128 with
  | 0 => ⟨S500000x5, .f32⟩
  | 1 => ⟨S10000x2, .f32⟩
  | 2 => ⟨S500000x16, .f32⟩
  | 3 => ⟨S10000x16, .f32⟩
  | 4 => ⟨S16x5, .f32⟩
  | 5 => ⟨S16, .f32⟩
  | 6 => ⟨S16x2, .f32⟩
  | 7 => ⟨S16, .f32⟩
  | 8 => ⟨S32x32, .f32⟩
  | 9 => ⟨S32, .f32⟩
  | 10 => ⟨S32x32, .f32⟩
  | 11 => ⟨S32x32, .f32⟩
  | 12 => ⟨S32, .f32⟩
  | 13 => ⟨S32x32, .f32⟩
  | 14 => ⟨S16x32, .f32⟩
  | 15 => ⟨S16, .f32⟩
  | 16 => ⟨S16x32, .f32⟩
  | 17 => ⟨S16x32, .f32⟩
  | 18 => ⟨S16, .f32⟩
  | 19 => ⟨S16x32, .f32⟩
  | 20 => ⟨S500000, .i32⟩
  | 21 => ⟨S10000, .i32⟩
  | 22 => ⟨S2000000, .i32⟩
  | 23 => ⟨S2000000, .i32⟩
  | 24 => ⟨S500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x16, .f32⟩
  | 35 => ⟨S5x16, .f32⟩
  | 36 => ⟨S500000x16, .f32⟩
  | 37 => ⟨S1x16, .f32⟩
  | 38 => ⟨S500000x16, .f32⟩
  | 39 => ⟨S500000x16, .f32⟩
  | 40 => ⟨S500000x32, .f32⟩
  | 41 => ⟨S_, .i32⟩
  | 42 => ⟨S10000, .i32⟩
  | 43 => ⟨S10000, .i1⟩
  | 44 => ⟨S_, .i32⟩
  | 45 => ⟨S10000, .i32⟩
  | 46 => ⟨S10000, .i32⟩
  | 47 => ⟨S10000, .i32⟩
  | 48 => ⟨S10000x1, .i32⟩
  | 49 => ⟨S10000x16, .f32⟩
  | 50 => ⟨S2x16, .f32⟩
  | 51 => ⟨S10000x16, .f32⟩
  | 52 => ⟨S1x16, .f32⟩
  | 53 => ⟨S10000x16, .f32⟩
  | 54 => ⟨S10000x16, .f32⟩
  | 55 => ⟨S10000x32, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x32, .f32⟩
  | 65 => ⟨S_, .f32⟩
  | 66 => ⟨S10000x32, .f32⟩
  | 67 => ⟨S2000000x1, .i32⟩
  | 68 => ⟨S10000x32, .f32⟩
  | 69 => ⟨S_, .f32⟩
  | 70 => ⟨S2000000, .f32⟩
  | 71 => ⟨S_, .f32⟩
  | 72 => ⟨S10000, .f32⟩
  | 73 => ⟨S2000000x1, .i32⟩
  | 74 => ⟨S10000, .f32⟩
  | 75 => ⟨S_, .f32⟩
  | 76 => ⟨S10000, .f32⟩
  | 77 => ⟨S10000, .f32⟩
  | 78 => ⟨S10000x1, .f32⟩
  | 79 => ⟨S10000x32, .f32⟩
  | 80 => ⟨S10000x32, .f32⟩
  | 81 => ⟨S32x32, .f32⟩
  | 82 => ⟨S10000x32, .f32⟩
  | 83 => ⟨S1x32, .f32⟩
  | 84 => ⟨S10000x32, .f32⟩
  | 85 => ⟨S10000x32, .f32⟩
  | 86 => ⟨S32x32, .f32⟩
  | 87 => ⟨S10000x32, .f32⟩
  | 88 => ⟨S10000x32, .f32⟩
  | 89 => ⟨S_, .f32⟩
  | 90 => ⟨S10000x32, .f32⟩
  | 91 => ⟨S10000x32, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000x32, .f32⟩
  | 101 => ⟨S_, .f32⟩
  | 102 => ⟨S500000x32, .f32⟩
  | 103 => ⟨S2000000x1, .i32⟩
  | 104 => ⟨S500000x32, .f32⟩
  | 105 => ⟨S_, .f32⟩
  | 106 => ⟨S2000000, .f32⟩
  | 107 => ⟨S_, .f32⟩
  | 108 => ⟨S500000, .f32⟩
  | 109 => ⟨S2000000x1, .i32⟩
  | 110 => ⟨S500000, .f32⟩
  | 111 => ⟨S_, .f32⟩
  | 112 => ⟨S500000, .f32⟩
  | 113 => ⟨S500000, .f32⟩
  | 114 => ⟨S500000x1, .f32⟩
  | 115 => ⟨S500000x32, .f32⟩
  | 116 => ⟨S500000x32, .f32⟩
  | 117 => ⟨S32x32, .f32⟩
  | 118 => ⟨S500000x32, .f32⟩
  | 119 => ⟨S1x32, .f32⟩
  | 120 => ⟨S500000x32, .f32⟩
  | 121 => ⟨S500000x32, .f32⟩
  | 122 => ⟨S32x32, .f32⟩
  | 123 => ⟨S500000x32, .f32⟩
  | 124 => ⟨S500000x32, .f32⟩
  | 125 => ⟨S_, .f32⟩
  | 126 => ⟨S500000x32, .f32⟩
  | 127 => ⟨S500000x32, .f32⟩
  | _ => ⟨S500000x5, .f32⟩

abbrev hbmTy0_1 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S2000000x32, .f32⟩
  | 9 => ⟨S_, .f32⟩
  | 10 => ⟨S10000x32, .f32⟩
  | 11 => ⟨S2000000x1, .i32⟩
  | 12 => ⟨S10000x32, .f32⟩
  | 13 => ⟨S_, .f32⟩
  | 14 => ⟨S2000000, .f32⟩
  | 15 => ⟨S_, .f32⟩
  | 16 => ⟨S10000, .f32⟩
  | 17 => ⟨S2000000x1, .i32⟩
  | 18 => ⟨S10000, .f32⟩
  | 19 => ⟨S_, .f32⟩
  | 20 => ⟨S10000, .f32⟩
  | 21 => ⟨S10000, .f32⟩
  | 22 => ⟨S10000x1, .f32⟩
  | 23 => ⟨S10000x32, .f32⟩
  | 24 => ⟨S10000x32, .f32⟩
  | 25 => ⟨S32x16, .f32⟩
  | 26 => ⟨S10000x16, .f32⟩
  | 27 => ⟨S1x16, .f32⟩
  | 28 => ⟨S10000x16, .f32⟩
  | 29 => ⟨S10000x16, .f32⟩
  | 30 => ⟨S32x16, .f32⟩
  | 31 => ⟨S10000x16, .f32⟩
  | 32 => ⟨S10000x16, .f32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000x32, .f32⟩
  | 42 => ⟨S_, .f32⟩
  | 43 => ⟨S500000x32, .f32⟩
  | 44 => ⟨S2000000x1, .i32⟩
  | 45 => ⟨S500000x32, .f32⟩
  | 46 => ⟨S_, .f32⟩
  | 47 => ⟨S2000000, .f32⟩
  | 48 => ⟨S_, .f32⟩
  | 49 => ⟨S500000, .f32⟩
  | 50 => ⟨S2000000x1, .i32⟩
  | 51 => ⟨S500000, .f32⟩
  | 52 => ⟨S_, .f32⟩
  | 53 => ⟨S500000, .f32⟩
  | 54 => ⟨S500000, .f32⟩
  | 55 => ⟨S500000x1, .f32⟩
  | 56 => ⟨S500000x32, .f32⟩
  | 57 => ⟨S500000x32, .f32⟩
  | 58 => ⟨S32x16, .f32⟩
  | 59 => ⟨S500000x16, .f32⟩
  | 60 => ⟨S1x16, .f32⟩
  | 61 => ⟨S500000x16, .f32⟩
  | 62 => ⟨S500000x16, .f32⟩
  | 63 => ⟨S32x16, .f32⟩
  | 64 => ⟨S500000x16, .f32⟩
  | 65 => ⟨S500000x16, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x16, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x16, .f32⟩
  | 84 => ⟨S500000x16, .f32⟩
  | 85 => ⟨S_, .f32⟩
  | 86 => ⟨S500000, .f32⟩
  | _ => ⟨S500000x5, .f32⟩

abbrev hbmTy (i : Nat) : BufTy := match i / 128 with
  | 0 => hbmTy0_0 i
  | 1 => hbmTy0_1 i
  | _ => ⟨S500000x5, .f32⟩

abbrev bufTy : (tb : Table) → Fin (tcTables nBuf tb) → BufTy
  | .hbm, ⟨i, _⟩ => hbmTy i
  | _, _ => ⟨S500000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_3 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_5 : Ref sig .tc := ⟨.hbm, 69, rfl⟩
abbrev main_v36 : Ref sig .tc := ⟨.hbm, 70, rfl⟩
abbrev main_cst_6 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call0_cst : Ref sig .tc := ⟨.hbm, 89, rfl⟩
abbrev main_call0_v0 : Ref sig .tc := ⟨.hbm, 90, rfl⟩
abbrev main_v53 : Ref sig .tc := ⟨.hbm, 91, rfl⟩
abbrev main_c_8 : Ref sig .tc := ⟨.hbm, 92, rfl⟩
abbrev main_v54 : Ref sig .tc := ⟨.hbm, 93, rfl⟩
abbrev main_v55 : Ref sig .tc := ⟨.hbm, 94, rfl⟩
abbrev main_c_9 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_10 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_cst_12 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_13 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call1_cst : Ref sig .tc := ⟨.hbm, 125, rfl⟩
abbrev main_call1_v0 : Ref sig .tc := ⟨.hbm, 126, rfl⟩
abbrev main_v81 : Ref sig .tc := ⟨.hbm, 127, rfl⟩
abbrev main_c_14 : Ref sig .tc := ⟨.hbm, 128, rfl⟩
abbrev main_v82 : Ref sig .tc := ⟨.hbm, 129, rfl⟩
abbrev main_v83 : Ref sig .tc := ⟨.hbm, 130, rfl⟩
abbrev main_c_15 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_16 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_17 : Ref sig .tc := ⟨.hbm, 141, rfl⟩
abbrev main_v92 : Ref sig .tc := ⟨.hbm, 142, rfl⟩
abbrev main_cst_18 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_19 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_20 : Ref sig .tc := ⟨.hbm, 161, rfl⟩
abbrev main_v109 : Ref sig .tc := ⟨.hbm, 162, rfl⟩
abbrev main_v110 : Ref sig .tc := ⟨.hbm, 163, rfl⟩
abbrev main_c_21 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_22 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_23 : Ref sig .tc := ⟨.hbm, 174, rfl⟩
abbrev main_v119 : Ref sig .tc := ⟨.hbm, 175, rfl⟩
abbrev main_cst_24 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_25 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_c_26 : Ref sig .tc := ⟨.hbm, 194, rfl⟩
abbrev main_v136 : Ref sig .tc := ⟨.hbm, 195, rfl⟩
abbrev main_v137 : Ref sig .tc := ⟨.hbm, 196, rfl⟩
abbrev main_c_27 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_c_28 : Ref sig .tc := ⟨.hbm, 203, rfl⟩
abbrev main_v143 : Ref sig .tc := ⟨.hbm, 204, rfl⟩
abbrev main_v144 : Ref sig .tc := ⟨.hbm, 205, rfl⟩
abbrev main_c_29 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_30 : Ref sig .tc := ⟨.hbm, 213, rfl⟩
abbrev main_v151 : Ref sig .tc := ⟨.hbm, 214, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S16x5_S5x16_1_0 : S16x5.Transposes [1, 0] S5x16
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  concatenates_S500000x16_S500000x16_S500000x32_d1 : Shape.Concatenates [S500000x16, S500000x16] S500000x32 1
  bcast_S_S10000 : S_.BroadcastsInDim S10000 (![] : Fin 0 → Fin S10000.rank)
  bcast_S10000_S10000x1_0 : S10000.BroadcastsInDim S10000x1 (![0] : Fin 1 → Fin S10000x1.rank)
  transposes_S16x2_S2x16_1_0 : S16x2.Transposes [1, 0] S2x16
  bcast_S1x16_S10000x16_0_1 : S1x16.BroadcastsInDim S10000x16 (![0, 1] : Fin 2 → Fin S10000x16.rank)
  concatenates_S10000x16_S10000x16_S10000x32_d1 : Shape.Concatenates [S10000x16, S10000x16] S10000x32 1
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S10000x32 : S_.BroadcastsInDim S10000x32 (![] : Fin 0 → Fin S10000x32.rank)
  bcast_S10000x1_S10000x32_0_1 : S10000x1.BroadcastsInDim S10000x32 (![0, 1] : Fin 2 → Fin S10000x32.rank)
  transposes_S32x32_S32x32_1_0 : S32x32.Transposes [1, 0] S32x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S500000x32 : S_.BroadcastsInDim S500000x32 (![] : Fin 0 → Fin S500000x32.rank)
  bcast_S500000x1_S500000x32_0_1 : S500000x1.BroadcastsInDim S500000x32 (![0, 1] : Fin 2 → Fin S500000x32.rank)
  bcast_S1x32_S500000x32_0_1 : S1x32.BroadcastsInDim S500000x32 (![0, 1] : Fin 2 → Fin S500000x32.rank)
  transposes_S16x32_S32x16_1_0 : S16x32.Transposes [1, 0] S32x16
  reducesTo_S500000x16_S500000_d1 : S500000x16.ReducesTo [1] S500000
  h_S_ : 0 < S_.numel
  gather_S500000x16_S500000x1_S500000x16_1_0_n_n_0_1_116_wf : GatherDims.WF S500000x16 S500000x1 S500000x16 [1] [0] [] [0] [] 1 ![1, 16]
  dot_S500000x5_S5x16_S500000x16_1_0_0_1_n_n_wf : DotDims.WF S500000x5 S5x16 S500000x16 [1] [0] [0] [1] [] []
  gather_S10000x16_S10000x1_S10000x16_1_0_n_n_0_1_116_wf : GatherDims.WF S10000x16 S10000x1 S10000x16 [1] [0] [] [0] [] 1 ![1, 16]
  dot_S10000x2_S2x16_S10000x16_1_0_0_1_n_n_wf : DotDims.WF S10000x2 S2x16 S10000x16 [1] [0] [0] [1] [] []
  gather_S500000x32_S2000000x1_S2000000x32_1_0_n_n_0_1_132_wf : GatherDims.WF S500000x32 S2000000x1 S2000000x32 [1] [0] [] [0] [] 1 ![1, 32]
  scatter_S10000x32_S2000000x1_S2000000x32_1_0_0_1_wf : ScatterDims.WF S10000x32 S2000000x1 S2000000x32 [1] [0] [0] 1
  scatter_S10000_S2000000x1_S2000000_n_0_0_1_wf : ScatterDims.WF S10000 S2000000x1 S2000000 [] [0] [0] 1
  dot_S10000x32_S32x32_S10000x32_1_0_0_1_n_n_wf : DotDims.WF S10000x32 S32x32 S10000x32 [1] [0] [0] [1] [] []
  gather_S10000x32_S2000000x1_S2000000x32_1_0_n_n_0_1_132_wf : GatherDims.WF S10000x32 S2000000x1 S2000000x32 [1] [0] [] [0] [] 1 ![1, 32]
  scatter_S500000x32_S2000000x1_S2000000x32_1_0_0_1_wf : ScatterDims.WF S500000x32 S2000000x1 S2000000x32 [1] [0] [0] 1
  scatter_S500000_S2000000x1_S2000000_n_0_0_1_wf : ScatterDims.WF S500000 S2000000x1 S2000000 [] [0] [0] 1
  dot_S500000x32_S32x32_S500000x32_1_0_0_1_n_n_wf : DotDims.WF S500000x32 S32x32 S500000x32 [1] [0] [0] [1] [] []
  dot_S10000x32_S32x16_S10000x16_1_0_0_1_n_n_wf : DotDims.WF S10000x32 S32x16 S10000x16 [1] [0] [0] [1] [] []
  dot_S500000x32_S32x16_S500000x16_1_0_0_1_n_n_wf : DotDims.WF S500000x32 S32x16 S500000x16 [1] [0] [0] [1] [] []
  gather_S10000x16_S500000x1_S500000x16_1_0_n_n_0_1_116_wf : GatherDims.WF S10000x16 S500000x1 S500000x16 [1] [0] [] [0] [] 1 ![1, 16]

variable [Facts₀]

def gather_S500000x16_S500000x1_S500000x16_1_0_n_n_0_1_116 : GatherDims S500000x16 S500000x1 S500000x16 where
  offsetDims := [1]
  collapsedSliceDims := [0]
  operandBatchingDims := []
  startIndicesBatchingDims := []
  startIndexMap := [0]
  indexVectorDim := 1
  sliceSizes := ![1, 16]
  wf := gather_S500000x16_S500000x1_S500000x16_1_0_n_n_0_1_116_wf
def dot_S500000x5_S5x16_S500000x16_1_0_0_1_n_n : DotDims S500000x5 S5x16 S500000x16 where
  lhsContracting := [1]
  rhsContracting := [0]
  lhsNonContracting := [0]
  rhsNonContracting := [1]
  lhsBatch := []
  rhsBatch := []
  wf := dot_S500000x5_S5x16_S500000x16_1_0_0_1_n_n_wf
def gather_S10000x16_S10000x1_S10000x16_1_0_n_n_0_1_116 : GatherDims S10000x16 S10000x1 S10000x16 where
  offsetDims := [1]
  collapsedSliceDims := [0]
  operandBatchingDims := []
  startIndicesBatchingDims := []
  startIndexMap := [0]
  indexVectorDim := 1
  sliceSizes := ![1, 16]
  wf := gather_S10000x16_S10000x1_S10000x16_1_0_n_n_0_1_116_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S10000x32_S2000000x1_S2000000x32_1_0_0_1 : ScatterDims S10000x32 S2000000x1 S2000000x32 where
  updateWindowDims := [1]
  insertedWindowDims := [0]
  scatterDimsToOperandDims := [0]
  indexVectorDim := 1
  wf := scatter_S10000x32_S2000000x1_S2000000x32_1_0_0_1_wf
def scatter_S10000_S2000000x1_S2000000_n_0_0_1 : ScatterDims S10000 S2000000x1 S2000000 where
  updateWindowDims := []
  insertedWindowDims := [0]
  scatterDimsToOperandDims := [0]
  indexVectorDim := 1
  wf := scatter_S10000_S2000000x1_S2000000_n_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S10000x32_S2000000x1_S2000000x32_1_0_n_n_0_1_132 : GatherDims S10000x32 S2000000x1 S2000000x32 where
  offsetDims := [1]
  collapsedSliceDims := [0]
  operandBatchingDims := []
  startIndicesBatchingDims := []
  startIndexMap := [0]
  indexVectorDim := 1
  sliceSizes := ![1, 32]
  wf := gather_S10000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S500000x32_S32x16_S500000x16_1_0_0_1_n_n : DotDims S500000x32 S32x16 S500000x16 where
  lhsContracting := [1]
  rhsContracting := [0]
  lhsNonContracting := [0]
  rhsNonContracting := [1]
  lhsBatch := []
  rhsBatch := []
  wf := dot_S500000x32_S32x16_S500000x16_1_0_0_1_n_n_wf
def gather_S10000x16_S500000x1_S500000x16_1_0_n_n_0_1_116 : GatherDims S10000x16 S500000x1 S500000x16 where
  offsetDims := [1]
  collapsedSliceDims := [0]
  operandBatchingDims := []
  startIndicesBatchingDims := []
  startIndexMap := [0]
  indexVectorDim := 1
  sliceSizes := ![1, 16]
  wf := gather_S10000x16_S500000x1_S500000x16_1_0_n_n_0_1_116_wf

class Facts : Prop extends Facts₀ where

variable [Facts]
-- ==== Proof.Stages.lean ====
/-
  The seven dense stages of the two-layer bipartite GraphSAGE forward pass, each as ONE whole-array function of the arrays
  it reads, written with the host's own operations.

  * feature fusion: the looked-up embedding rows side by side with the projected features, `[e | x · Wᵀ + b]`;
  * the SAGE combine step: `(agg / max(cnt, 1)) · Wlᵀ + bl + x · Wrᵀ`, followed for the first layer by `max(·, 0)`;
  * the decoder: the row-wise inner product `∑_d a(r, d) · b(r, d)`.

  Each comes in a user-sized (500000 rows) and a course-sized (10000 rows) instance. The bias and the neighbour count
  enter as VECTORS: laying them out as a row or a column is part of the stage.
-/
import proofs.«109484_j27015344292445_2_alg».proof.Proof.Gen.ReferenceIdeal
import Idealize.ShloMosaic.PureOps.Ideal

noncomputable section

namespace Cert.Stage

open Cert.ReferenceIdeal Cert.ReferenceIdeal.Gen Idealize.ShloMosaic

/-- Feature fusion over the users: `[e | x · wT + b]`. -/
def fuseU (x : FVec Ideal S500000x5 .f32) (e : FVec Ideal S500000x16 .f32) (wT : FVec Ideal S5x16 .f32) (b : FVec Ideal S16 .f32) :
    FVec Ideal S500000x32 .f32 :=
  concatenate S500000x32 1 [⟨S500000x16, e⟩, ⟨S500000x16, addf (Host.dotGeneral (F := Ideal) dot_S500000x5_S5x16_S500000x16_1_0_0_1_n_n none x wT)
    (broadcastInDim S500000x16 ![0, 1] bcast_S1x16_S500000x16_0_1 (broadcastInDim S1x16 ![1] bcast_S16_S1x16_1 b))⟩]
    concatenates_S500000x16_S500000x16_S500000x32_d1

/-- Feature fusion over the courses: `[e | x · wT + b]`. -/
def fuseC (x : FVec Ideal S10000x2 .f32) (e : FVec Ideal S10000x16 .f32) (wT : FVec Ideal S2x16 .f32) (b : FVec Ideal S16 .f32) :
    FVec Ideal S10000x32 .f32 :=
  concatenate S10000x32 1 [⟨S10000x16, e⟩, ⟨S10000x16, addf (Host.dotGeneral (F := Ideal) dot_S10000x2_S2x16_S10000x16_1_0_0_1_n_n none x wT)
    (broadcastInDim S10000x16 ![0, 1] bcast_S1x16_S10000x16_0_1 (broadcastInDim S1x16 ![1] bcast_S16_S1x16_1 b))⟩]
    concatenates_S10000x16_S10000x16_S10000x32_d1

/-- The combine step before the activation, courses, 32 → 32. -/
def sageC32 (agg : FVec Ideal S10000x32 .f32) (cnt : FVec Ideal S10000 .f32) (x : FVec Ideal S10000x32 .f32)
    (wlT : FVec Ideal S32x32 .f32) (b : FVec Ideal S32 .f32) (wrT : FVec Ideal S32x32 .f32) : FVec Ideal S10000x32 .f32 :=
  addf (addf (Host.dotGeneral (F := Ideal) dot_S10000x32_S32x32_S10000x32_1_0_0_1_n_n none
      (Host.divf (F := Ideal) agg (broadcastInDim S10000x32 ![0, 1] bcast_S10000x1_S10000x32_0_1 (broadcastInDim S10000x1 ![0] bcast_S10000_S10000x1_0
        (maximumf cnt (broadcastInDim S10000 ![] bcast_S_S10000 (constant (F := Ideal) S_ .f32 0x3F800000#32)))))) wlT)
    (broadcastInDim S10000x32 ![0, 1] bcast_S1x32_S10000x32_0_1 (broadcastInDim S1x32 ![1] bcast_S32_S1x32_1 b)))
    (Host.dotGeneral (F := Ideal) dot_S10000x32_S32x32_S10000x32_1_0_0_1_n_n none x wrT)

/-- The first layer's combine step over the courses: the activation `max(·, 0)` after it. -/
def sageReluC (agg : FVec Ideal S10000x32 .f32) (cnt : FVec Ideal S10000 .f32) (x : FVec Ideal S10000x32 .f32)
    (wlT : FVec Ideal S32x32 .f32) (b : FVec Ideal S32 .f32) (wrT : FVec Ideal S32x32 .f32) : FVec Ideal S10000x32 .f32 :=
  maximumf (sageC32 agg cnt x wlT b wrT) (broadcastInDim S10000x32 ![] bcast_S_S10000x32 (constant (F := Ideal) S_ .f32 0x00000000#32))

/-- The combine step before the activation, users, 32 → 32. -/
def sageU32 (agg : FVec Ideal S500000x32 .f32) (cnt : FVec Ideal S500000 .f32) (x : FVec Ideal S500000x32 .f32)
    (wlT : FVec Ideal S32x32 .f32) (b : FVec Ideal S32 .f32) (wrT : FVec Ideal S32x32 .f32) : FVec Ideal S500000x32 .f32 :=
  addf (addf (Host.dotGeneral (F := Ideal) dot_S500000x32_S32x32_S500000x32_1_0_0_1_n_n none
      (Host.divf (F := Ideal) agg (broadcastInDim S500000x32 ![0, 1] bcast_S500000x1_S500000x32_0_1 (broadcastInDim S500000x1 ![0] bcast_S500000_S500000x1_0
        (maximumf cnt (broadcastInDim S500000 ![] bcast_S_S500000 (constant (F := Ideal) S_ .f32 0x3F800000#32)))))) wlT)
    (broadcastInDim S500000x32 ![0, 1] bcast_S1x32_S500000x32_0_1 (broadcastInDim S1x32 ![1] bcast_S32_S1x32_1 b)))
    (Host.dotGeneral (F := Ideal) dot_S500000x32_S32x32_S500000x32_1_0_0_1_n_n none x wrT)

/-- The first layer's combine step over the users: the activation `max(·, 0)` after it. -/
def sageReluU (agg : FVec Ideal S500000x32 .f32) (cnt : FVec Ideal S500000 .f32) (x : FVec Ideal S500000x32 .f32)
    (wlT : FVec Ideal S32x32 .f32) (b : FVec Ideal S32 .f32) (wrT : FVec Ideal S32x32 .f32) : FVec Ideal S500000x32 .f32 :=
  maximumf (sageU32 agg cnt x wlT b wrT) (broadcastInDim S500000x32 ![] bcast_S_S500000x32 (constant (F := Ideal) S_ .f32 0x00000000#32))

/-- The second layer's combine step over the courses, 32 → 16, no activation. -/
def sageC16 (agg : FVec Ideal S10000x32 .f32) (cnt : FVec Ideal S10000 .f32) (x : FVec Ideal S10000x32 .f32)
    (wlT : FVec Ideal S32x16 .f32) (b : FVec Ideal S16 .f32) (wrT : FVec Ideal S32x16 .f32) : FVec Ideal S10000x16 .f32 :=
  addf (addf (Host.dotGeneral (F := Ideal) dot_S10000x32_S32x16_S10000x16_1_0_0_1_n_n none
      (Host.divf (F := Ideal) agg (broadcastInDim S10000x32 ![0, 1] bcast_S10000x1_S10000x32_0_1 (broadcastInDim S10000x1 ![0] bcast_S10000_S10000x1_0
        (maximumf cnt (broadcastInDim S10000 ![] bcast_S_S10000 (constant (F := Ideal) S_ .f32 0x3F800000#32)))))) wlT)
    (broadcastInDim S10000x16 ![0, 1] bcast_S1x16_S10000x16_0_1 (broadcastInDim S1x16 ![1] bcast_S16_S1x16_1 b)))
    (Host.dotGeneral (F := Ideal) dot_S10000x32_S32x16_S10000x16_1_0_0_1_n_n none x wrT)

/-- The second layer's combine step over the users, 32 → 16, no activation. -/
def sageU16 (agg : FVec Ideal S500000x32 .f32) (cnt : FVec Ideal S500000 .f32) (x : FVec Ideal S500000x32 .f32)
    (wlT : FVec Ideal S32x16 .f32) (b : FVec Ideal S16 .f32) (wrT : FVec Ideal S32x16 .f32) : FVec Ideal S500000x16 .f32 :=
  addf (addf (Host.dotGeneral (F := Ideal) dot_S500000x32_S32x16_S500000x16_1_0_0_1_n_n none
      (Host.divf (F := Ideal) agg (broadcastInDim S500000x32 ![0, 1] bcast_S500000x1_S500000x32_0_1 (broadcastInDim S500000x1 ![0] bcast_S500000_S500000x1_0
        (maximumf cnt (broadcastInDim S500000 ![] bcast_S_S500000 (constant (F := Ideal) S_ .f32 0x3F800000#32)))))) wlT)
    (broadcastInDim S500000x16 ![0, 1] bcast_S1x16_S500000x16_0_1 (broadcastInDim S1x16 ![1] bcast_S16_S1x16_1 b)))
    (Host.dotGeneral (F := Ideal) dot_S500000x32_S32x16_S500000x16_1_0_0_1_n_n none x wrT)

/-- The decoder: the row-wise inner product of two `[500000, 16]` arrays. -/
def decode (a b : FVec Ideal S500000x16 .f32) : FVec Ideal S500000 .f32 :=
  Host.reduceAdd (F := Ideal) (mulf a b) (constant (F := Ideal) S_ .f32 0x00000000#32) reducesTo_S500000x16_S500000_d1 h_S_

end Cert.Stage

end
-- ==== Proof.Interface.lean ====
/-
  What each of the seven kernel regions leaves in its output array, as a statement: whatever the buffers hold when the
  region is entered (`V`), after the region its output array is the stage's whole-array function of the arrays the region
  reads. A bias row `[1, d]` or a count column `[N, 1]` that the host laid out from a vector enters through that vector.
-/
import proofs.«109484_j27015344292445_2_alg».proof.Proof.Gen.KernelIdeal.Frame
import proofs.«109484_j27015344292445_2_alg».proof.Proof.Stages

noncomputable section

namespace Cert.KernelIdeal.Region

open Cert.KernelIdeal Cert.KernelIdeal.Gen Idealize.ShloMosaic Idealize.ShloMosaic.TcCoe Idealize.SL.Sem

/-- Region 0 (users' feature fusion): `[e | x · Wᵀ + b]`. -/
def Arr0 : Prop := ∀ (V : (c : Dev nD) → (b : Ref sig .tc) → Buf (Elt Ideal) ((c : Thread nD τ).loc b)) (c : Dev nD) (b : FVec Ideal S16 .f32),
  V c main_v15 = shapeCast S1x16 b shapeCasts_S16_S1x16 →
  (dat0 (F := Ideal) V c).arrAt 4 cfg0.N = Cert.Stage.fuseU (V c main_arg0) (V c main_v6) (V c main_v14) b

/-- Region 1 (courses' feature fusion). -/
def Arr1 : Prop := ∀ (V : (c : Dev nD) → (b : Ref sig .tc) → Buf (Elt Ideal) ((c : Thread nD τ).loc b)) (c : Dev nD) (b : FVec Ideal S16 .f32),
  V c main_v18 = shapeCast S1x16 b shapeCasts_S16_S1x16 →
  (dat1 (F := Ideal) V c).arrAt 4 cfg1.N = Cert.Stage.fuseC (V c main_arg1) (V c main_v13) (V c main_v17) b

/-- Region 2 (first layer, courses). -/
def Arr2 : Prop := ∀ (V : (c : Dev nD) → (b : Ref sig .tc) → Buf (Elt Ideal) ((c : Thread nD τ).loc b)) (c : Dev nD) (cnt : FVec Ideal S10000 .f32) (b : FVec Ideal S32 .f32),
  V c main_v51 = shapeCast S10000x1 cnt shapeCasts_S10000_S10000x1 →
  V c main_v50 = shapeCast S1x32 b shapeCasts_S32_S1x32 →
  (dat2 (F := Ideal) V c).arrAt 6 cfg2.N = Cert.Stage.sageReluC (V c main_v29) cnt (V c main_v19) (V c main_v48) b (V c main_v49)

/-- Region 3 (first layer, users). -/
def Arr3 : Prop := ∀ (V : (c : Dev nD) → (b : Ref sig .tc) → Buf (Elt Ideal) ((c : Thread nD τ).loc b)) (c : Dev nD) (cnt : FVec Ideal S500000 .f32) (b : FVec Ideal S32 .f32),
  V c main_v56 = shapeCast S500000x1 cnt shapeCasts_S500000_S500000x1 →
  V c main_v55 = shapeCast S1x32 b shapeCasts_S32_S1x32 →
  (dat3 (F := Ideal) V c).arrAt 6 cfg3.N = Cert.Stage.sageReluU (V c main_v43) cnt (V c main_v16) (V c main_v53) b (V c main_v54)

/-- Region 4 (second layer, courses). -/
def Arr4 : Prop := ∀ (V : (c : Dev nD) → (b : Ref sig .tc) → Buf (Elt Ideal) ((c : Thread nD τ).loc b)) (c : Dev nD) (cnt : FVec Ideal S10000 .f32) (b : FVec Ideal S16 .f32),
  V c main_v89 = shapeCast S10000x1 cnt shapeCasts_S10000_S10000x1 →
  V c main_v88 = shapeCast S1x16 b shapeCasts_S16_S1x16 →
  (dat4 (F := Ideal) V c).arrAt 6 cfg4.N = Cert.Stage.sageC16 (V c main_v67) cnt (V c main_v52) (V c main_v86) b (V c main_v87)

/-- Region 5 (second layer, users). -/
def Arr5 : Prop := ∀ (V : (c : Dev nD) → (b : Ref sig .tc) → Buf (Elt Ideal) ((c : Thread nD τ).loc b)) (c : Dev nD) (cnt : FVec Ideal S500000 .f32) (b : FVec Ideal S16 .f32),
  V c main_v94 = shapeCast S500000x1 cnt shapeCasts_S500000_S500000x1 →
  V c main_v93 = shapeCast S1x16 b shapeCasts_S16_S1x16 →
  (dat5 (F := Ideal) V c).arrAt 6 cfg5.N = Cert.Stage.sageU16 (V c main_v81) cnt (V c main_v57) (V c main_v91) b (V c main_v92)

/-- Region 6 (the decoder): the row-wise inner products, kept as a column. -/
def Arr6 : Prop := ∀ (V : (c : Dev nD) → (b : Ref sig .tc) → Buf (Elt Ideal) ((c : Thread nD τ).loc b)) (c : Dev nD),
  (dat6 (F := Ideal) V c).arrAt 2 cfg6.N
    = shapeCast S500000x1 (Cert.Stage.decode (V c main_v102) (V c main_v109)) shapeCasts_S500000_S500000x1

end Cert.KernelIdeal.Region

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibBiasRows.lean ====
/-
  A bias vector laid along every row, in the host's two steps.

  jnp adds a bias `b : [n]` to a matrix `[m, n]` by first broadcasting it to the one-row matrix `[1, n]` along axis 1 and then
  broadcasting that row down the `m` rows. Read at `(p, c)` the result is `b c`, whatever the row `p`.
-/
import Idealize.ShloMosaic.Lib.Pipeline.Value
import Idealize.ShloMosaic.Lib.ValueIdx
import Idealize.ShloMosaic.Lib.KernelVsHost

namespace Cert.Lib.BiasRows

open Idealize.ShloMosaic Idealize.ShloMosaic.ValueIdx

variable {α : Type}

/-- A vector `[n]` broadcast along axis 1 to the one-row matrix `[1, n]`, read at `(0, c)`, is the vector at `c`. -/
theorem oneRow_apply {n : ℕ} (h1 : (⟨1, ![n]⟩ : Shape).BroadcastsInDim ⟨2, ![1, n]⟩ ![1])
    (b : (⟨1, ![n]⟩ : Shape).Idx → α) (c : Fin n) :
    broadcastInDim ⟨2, ![1, n]⟩ ![1] h1 b (ix2 (0 : Fin 1) c) = b (ix1 c) := by
  refine broadcastInDim_apply ![1] h1 b (ix2 (0 : Fin 1) c) (ix1 c) ?_
  intro a
  match a with
  | ⟨0, _⟩ =>
    show c.val = if n = 1 then 0 else c.val
    split_ifs with hn
    · have := c.isLt; omega
    · rfl

/-- The two-step broadcast of a bias `[n]` to `[m, n]`, read at `(p, c)`, is the bias at `c`. -/
theorem biasRows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (p : Fin m) (c : Fin n) :
    broadcastInDim ⟨2, ![m, n]⟩ ![0, 1] h2 (broadcastInDim ⟨2, ![1, n]⟩ ![1] h1 b) (ix2 p c) = b (ix1 c) :=
  (broadcastInDim_oneRow_apply h2 _ p c).trans (oneRow_apply h1 b c)

/-- The kernel's spelling of the same: the vector cast to one row and that row broadcast down the rows. -/
theorem castRows_apply {m n : ℕ} (h1 : (⟨1, ![n]⟩ : Shape).ShapeCasts ⟨2, ![1, n]⟩)
    (hb : (⟨2, ![1, n]⟩ : Shape).Broadcasts ⟨2, ![m, n]⟩)
    (b : (⟨1, ![n]⟩ : Shape).Idx → α) (p : Fin m) (c : Fin n) :
    broadcastTo ⟨2, ![m, n]⟩ (shapeCast ⟨2, ![1, n]⟩ b h1) hb (ix2 p c) = b (ix1 c) := by
  have e1 := broadcastTo_apply (shapeCast ⟨2, ![1, n]⟩ b h1) hb (ix2 p c) (ix2 (0 : Fin 1) c) (by
    intro a
    match a with
    | ⟨0, _⟩ => rfl
    | ⟨1, _⟩ =>
      show c.val = if n = 1 then 0 else c.val
      split_ifs with hn
      · have := c.isLt; omega
      · rfl)
  have e2 := shapeCast_apply b h1 (ix2 (0 : Fin 1) c) (ix1 c) (by
    rw [Shape.rowMajor_val_two, Shape.rowMajor_val_one]; show c.val = 0 * n + c.val; omega)
  exact e1.trans e2

end Cert.Lib.BiasRows
-- ==== Proof.LibConcatCols.lean ====
/-
  A concatenation of two matrices with the same number of rows, side by side, read at an entry.

  `[n, a]` and `[n, b]` concatenated along axis `1` give `[n, a + b]`: entry `(p, j)` is the first matrix's entry `(p, j)`
  when `j < a`, and the second matrix's entry `(p, j − a)` otherwise.
-/
import Idealize.ShloMosaic.PureOps.ShapeOps
import Idealize.ShloMosaic.Lib.ValueIdx
import Idealize.ShloMosaic.Lib.Pipeline.Value

namespace Cert.Lib.ConcatCols

open Idealize.ShloMosaic Idealize.ShloMosaic.ValueIdx

/-- Left of the seam: entry `(p, j)` with `j < a` is the first matrix's entry `(p, j)`. -/
theorem concat_cols_apply_left {α : Type} {n a b c : Nat} (A : (⟨2, ![n, a]⟩ : Shape).Idx → α)
    (B : (⟨2, ![n, b]⟩ : Shape).Idx → α)
    (h : Shape.Concatenates [(⟨2, ![n, a]⟩ : Shape), ⟨2, ![n, b]⟩] ⟨2, ![n, c]⟩ (1 : Fin 2))
    (p : Fin n) (j : Fin c) (hj : j.val < a) :
    concatenate ⟨2, ![n, c]⟩ (1 : Fin 2) [⟨⟨2, ![n, a]⟩, A⟩, ⟨⟨2, ![n, b]⟩, B⟩] h (ix2 p j)
      = A (ix2 p ⟨j.val, hj⟩) := by
  refine concatenate_pair_apply_left (t := ⟨2, ![n, c]⟩) (s₁ := ⟨2, ![n, a]⟩) (s₂ := ⟨2, ![n, b]⟩) (1 : Fin 2) A B h
    (ix2 p j) rfl (ix2 p ⟨j.val, hj⟩) ?_
  intro d
  match d with
  | ⟨0, _⟩ => rfl
  | ⟨1, _⟩ => rfl

/-- Right of the seam: entry `(p, j)` with `a ≤ j` is the second matrix's entry `(p, j − a)`. -/
theorem concat_cols_apply_right {α : Type} {n a b c : Nat} (A : (⟨2, ![n, a]⟩ : Shape).Idx → α)
    (B : (⟨2, ![n, b]⟩ : Shape).Idx → α)
    (h : Shape.Concatenates [(⟨2, ![n, a]⟩ : Shape), ⟨2, ![n, b]⟩] ⟨2, ![n, c]⟩ (1 : Fin 2))
    (p : Fin n) (j : Fin c) (hj : ¬ j.val < a) (hjb : j.val - a < b) :
    concatenate ⟨2, ![n, c]⟩ (1 : Fin 2) [⟨⟨2, ![n, a]⟩, A⟩, ⟨⟨2, ![n, b]⟩, B⟩] h (ix2 p j)
      = B (ix2 p ⟨j.val - a, hjb⟩) := by
  refine concatenate_pair_apply_right (t := ⟨2, ![n, c]⟩) (s₁ := ⟨2, ![n, a]⟩) (s₂ := ⟨2, ![n, b]⟩) (1 : Fin 2) A B h
    (ix2 p j) rfl rfl (ix2 p ⟨j.val - a, hjb⟩) ?_ ?_
  · intro d hd
    match d, hd with
    | ⟨0, _⟩, _ => rfl
    | ⟨1, _⟩, hd => exact absurd rfl hd
  · show j.val - a + a = j.val
    omega

/-- The width of the concatenation is the sum of the two widths. -/
theorem width_eq {n a b c : Nat}
    (h : Shape.Concatenates [(⟨2, ![n, a]⟩ : Shape), ⟨2, ![n, b]⟩] ⟨2, ![n, c]⟩ (1 : Fin 2)) : a + b = c := by
  have e := h.2.2
  simpa using e

/-- A CONCATENATION SIDE BY SIDE AT AN ENTRY: entry `(p, j)` is the first matrix's entry `(p, j)` when `j < a`, and the
    second matrix's entry `(p, j − a)` otherwise. -/
theorem concat_cols_apply {α : Type} {n a b c : Nat} (A : (⟨2, ![n, a]⟩ : Shape).Idx → α)
    (B : (⟨2, ![n, b]⟩ : Shape).Idx → α)
    (h : Shape.Concatenates [(⟨2, ![n, a]⟩ : Shape), ⟨2, ![n, b]⟩] ⟨2, ![n, c]⟩ (1 : Fin 2))
    (p : Fin n) (j : Fin c) :
    concatenate ⟨2, ![n, c]⟩ (1 : Fin 2) [⟨⟨2, ![n, a]⟩, A⟩, ⟨⟨2, ![n, b]⟩, B⟩] h (ix2 p j)
      = if hj : j.val < a then A (ix2 p ⟨j.val, hj⟩)
        else B (ix2 p ⟨j.val - a, by have := width_eq h; have := j.isLt; omega⟩) := by
  by_cases hj : j.val < a
  · rw [dif_pos hj]; exact concat_cols_apply_left A B h p j hj
  · rw [dif_neg hj]; exact concat_cols_apply_right A B h p j hj _

end Cert.Lib.ConcatCols
-- ==== Proof.LibRows.lean ====
/-
  A vector laid out as a row or as a column by a broadcast in dimensions, and a column spread over the columns of a
  matrix, read at coordinates.

  A vector `[n]` broadcast in dimension 1 to `[1, n]` is the row whose entry `(z, q)` is the vector's entry `q`;
  broadcast in dimension 0 to `[m, 1]` it is the column whose entry `(p, z)` is the vector's entry `p`; and a column
  `[m, 1]` broadcast in dimensions (0, 1) to `[m, n]` has at `(p, q)` the column's entry `p`. An operand axis of
  extent one always reads coordinate 0, so each case with a variable extent splits on "the extent is one", where the
  coordinate is 0 anyway.
-/
import Idealize.ShloMosaic.Lib.Pipeline.Value
import Idealize.ShloMosaic.Lib.ValueIdx

namespace Cert.Lib.Rows

open Idealize.ShloMosaic Idealize.ShloMosaic.ValueIdx

variable {α : Type}

/-- A vector `[n]` broadcast in dimension 1 to the row `[1, n]` reads, at `(z, q)`, the vector at `q`. -/
theorem broadcastInDim_n_1n_apply {n : ℕ} (h : (⟨1, ![n]⟩ : Shape).BroadcastsInDim ⟨2, ![1, n]⟩ ![1])
    (x : (⟨1, ![n]⟩ : Shape).Idx → α) (z : Fin 1) (q : Fin n) :
    broadcastInDim ⟨2, ![1, n]⟩ ![1] h x (ix2 z q) = x (ix1 q) := by
  refine broadcastInDim_apply ![1] h x (ix2 z q) (ix1 q) fun a => ?_
  match a with
  | ⟨0, _⟩ =>
    show q.val = if n = 1 then 0 else q.val
    split
    · have := q.isLt; omega
    · rfl

/-- A vector `[m]` broadcast in dimension 0 to the column `[m, 1]` reads, at `(p, z)`, the vector at `p`. -/
theorem broadcastInDim_m_m1_apply {m : ℕ} (h : (⟨1, ![m]⟩ : Shape).BroadcastsInDim ⟨2, ![m, 1]⟩ ![0])
    (x : (⟨1, ![m]⟩ : Shape).Idx → α) (p : Fin m) (z : Fin 1) :
    broadcastInDim ⟨2, ![m, 1]⟩ ![0] h x (ix2 p z) = x (ix1 p) := by
  refine broadcastInDim_apply ![0] h x (ix2 p z) (ix1 p) fun a => ?_
  match a with
  | ⟨0, _⟩ =>
    show p.val = if m = 1 then 0 else p.val
    split
    · have := p.isLt; omega
    · rfl

/-- A column `[m, 1]` broadcast in dimensions (0, 1) to `[m, n]` reads, at `(p, q)`, the column's entry `p`. -/
theorem broadcastInDim_m1_mn_apply {m n : ℕ} (h : (⟨2, ![m, 1]⟩ : Shape).BroadcastsInDim ⟨2, ![m, n]⟩ ![0, 1])
    (x : (⟨2, ![m, 1]⟩ : Shape).Idx → α) (p : Fin m) (q : Fin n) :
    broadcastInDim ⟨2, ![m, n]⟩ ![0, 1] h x (ix2 p q) = x (ix2 p (0 : Fin 1)) := by
  refine broadcastInDim_apply ![0, 1] h x (ix2 p q) (ix2 p (0 : Fin 1)) fun a => ?_
  match a with
  | ⟨0, _⟩ =>
    show p.val = if m = 1 then 0 else p.val
    split
    · have := p.isLt; omega
    · rfl
  | ⟨1, _⟩ => rfl

end Cert.Lib.Rows
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.SageLib.lean ====
/-
  Index lemmas shared by the four SAGE combine steps, generic in the array sizes.

  The combine step is `(agg / max(cnt, 1)) · Wlᵀ + b + x · Wrᵀ`. Here are its non-pointwise pieces read at coordinates:
  the host's matrix product as a sum over the contracted coordinate; the divisor `max(cnt, 1)` spread over a row, in the
  host's spelling (the count VECTOR, clamped, laid out as a column and broadcast along the rows' entries) and in the
  kernel's (the count COLUMN block, clamped against a splat, broadcast along the rows' entries); and a splat constant
  broadcast to any shape.
-/
import Idealize.ShloMosaic.PureOps.Ideal.Laws
import Idealize.ShloMosaic.Lib.ValueIdx
import Idealize.ShloMosaic.Lib.IdealHost
import Idealize.ShloMosaic.Lib.Pipeline.Value
import proofs.«109484_j27015344292445_2_alg».proof.Proof.LibRows
import proofs.«109484_j27015344292445_2_alg».proof.Proof.LibColumns

namespace Cert.Lib.Sage

open Idealize.ShloMosaic Idealize.ShloMosaic.ValueIdx

/-- The host's product of an `[M, K]` and a `[K, N]` matrix at `(p, c)`: the sum over `k` of `l (p, k) · r (k, c)`. The
    dimension record enters through the four coordinate facts of its operand indices. -/
theorem hostDot_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    Host.dotGeneral (F := Ideal) D prec l r (ix2 p c) = ∑ k : Fin K, l (ix2 p k) * r (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-- A splat constant broadcast to any shape reads the constant's value everywhere. -/
theorem splat_apply {s t : Shape} (dims : Fin s.rank → Fin t.rank) (h : s.BroadcastsInDim t dims) (w : BitVec FTy.f32.bits)
    (j : t.Idx) : broadcastInDim t dims h (constant (F := Ideal) s .f32 w) j = Ideal.ofBits .f32 w := rfl

/-- The host's divisor: the count vector `[m]` clamped below by a constant, laid out as the column `[m, 1]` and spread over
    the `n` entries of each row. At `(p, k)` it is `max (cnt p) w`. -/
theorem hostDenom_apply {m n : ℕ} (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1])
    (cnt : FVec Ideal ⟨1, ![m]⟩ .f32) (w : BitVec FTy.f32.bits) (p : Fin m) (k : Fin n) :
    broadcastInDim ⟨2, ![m, n]⟩ ![0, 1] h2 (broadcastInDim ⟨2, ![m, 1]⟩ ![0] h1
      (maximumf cnt (broadcastInDim ⟨1, ![m]⟩ ![] h0 (constant (F := Ideal) ⟨0, ![]⟩ .f32 w)))) (ix2 p k)
      = max (cnt (ix1 p)) (Ideal.ofBits .f32 w) :=
  (Cert.Lib.Rows.broadcastInDim_m1_mn_apply h2 _ p k).trans (Cert.Lib.Rows.broadcastInDim_m_m1_apply h1 _ p (0 : Fin 1))

/-- The kernel's divisor: the count column block `[m, 1]` clamped below by a splat and spread over the `n` entries of each
    row. At `(p, k)` it is `max (col (p, 0)) w`. -/
theorem kernelDenom_apply {m n : ℕ} (hc : (⟨2, ![m, 1]⟩ : Shape).ShapeCasts ⟨2, ![m, 1]⟩)
    (hb : (⟨2, ![m, 1]⟩ : Shape).Broadcasts ⟨2, ![m, n]⟩)
    (col : FVec Ideal ⟨2, ![m, 1]⟩ .f32) (w : Ideal .f32) (p : Fin m) (k : Fin n) :
    broadcastTo ⟨2, ![m, n]⟩ (maximumf (shapeCast ⟨2, ![m, 1]⟩ col hc) (broadcast ⟨2, ![m, 1]⟩ w)) hb (ix2 p k)
      = max (col (ix2 p (0 : Fin 1))) w := by
  refine (Cert.Lib.Columns.broadcastTo_a1_ab_apply _ hb p k).trans ?_
  rw [shapeCast_self]
  rfl

/-- A row `[1, n]` broadcast down `m` rows reads, at `(p, c)`, the row's entry `c`. -/
theorem broadcastTo_1n_mn_apply {m n : ℕ} {α : Type} (v : (⟨2, ![1, n]⟩ : Shape).Idx → α)
    (h : (⟨2, ![1, n]⟩ : Shape).Broadcasts ⟨2, ![m, n]⟩) (p : Fin m) (c : Fin n) :
    broadcastTo ⟨2, ![m, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

/-- A vector `[n]` cast to the row `[1, n]` reads, at `(z, q)`, the vector at `q`: both indices have row-major position `q`. -/
theorem shapeCast_n_1n_apply {n : ℕ} {α : Type} (x : (⟨1, ![n]⟩ : Shape).Idx → α)
    (h : (⟨1, ![n]⟩ : Shape).ShapeCasts ⟨2, ![1, n]⟩) (z : Fin 1) (q : Fin n) :
    shapeCast ⟨2, ![1, n]⟩ x h (ix2 z q) = x (ix1 q) :=
  shapeCast_apply x h _ _ (by
    have hz : z.val = 0 := by omega
    rw [Shape.rowMajor_val_two, Shape.rowMajor_val_one]
    show q.val = z.val * n + q.val
    rw [hz, Nat.zero_mul, Nat.zero_add])

end Cert.Lib.Sage
-- ==== Proof.Fuse0.lean ====
/-
  Feature fusion over the users, as ONE whole-array function of the arrays it reads.

  The step's output array after its 125 grid points is `[e | x · Wᵀ + b]`, the host's own composition of operations:
  columns 0…15 of a row are the row of the looked-up embeddings, columns 16…31 the projected features plus the bias.
  Every point's block holds rows `4000 t … 4000 t + 3999` of that array; the body writes the block's two halves
  by two stores, and the 125 blocks tile the 500000 rows.
-/
import proofs.«109484_j27015344292445_2_alg».proof.Proof.Gen.KernelIdeal.Frame
import proofs.«109484_j27015344292445_2_alg».proof.Proof.Stages
import proofs.«109484_j27015344292445_2_alg».proof.Proof.LibPlainDot
import proofs.«109484_j27015344292445_2_alg».proof.Proof.LibBiasRows
import proofs.«109484_j27015344292445_2_alg».proof.Proof.LibConcatCols
import proofs.«109484_j27015344292445_2_alg».proof.Proof.SageLib
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

namespace Fuse0

theorem hz : (![0, 0] : Fin 2 → Nat) = fun _ => 0 := funext fun a => by fin_cases a <;> rfl

/-! ## The two dimension records' operand indices

Both products contract the left operand's second axis with the right operand's first: at output index `i` and
contraction position `q` the left operand is read at `(i 0, q)` and the right one at `(q, i 1)`. -/

/-- The kernel's record. -/
abbrev DK : DotDims S4000x5 S5x16 S4000x16 := dot_S4000x5_S5x16_S4000x16_1_0_0_1_n_n
/-- The host's record. -/
abbrev DH : DotDims Cert.ReferenceIdeal.S500000x5 Cert.ReferenceIdeal.S5x16 Cert.ReferenceIdeal.S500000x16 :=
  Cert.ReferenceIdeal.dot_S500000x5_S5x16_S500000x16_1_0_0_1_n_n

theorem dk_l0 (i : S4000x16.Idx) (q : DK.contr.Idx) : (DK.lhsIdx i q (0 : Fin 2)).val = (i (0 : Fin 2)).val := by
  unfold DotDims.lhsIdx
  rw [dif_neg (show ¬(0 : Fin S4000x5.rank) ∈ DK.lhsBatch by decide), dif_pos (show (0 : Fin S4000x5.rank) ∈ DK.lhsNonContracting by decide)]
  rfl
theorem dk_l1 (i : S4000x16.Idx) (q : DK.contr.Idx) : (DK.lhsIdx i q (1 : Fin 2)).val = (q ⟨0, by decide⟩).val :=
  DK.lhsIdx_val_of_single rfl i q
theorem dk_r0 (i : S4000x16.Idx) (q : DK.contr.Idx) : (DK.rhsIdx i q (0 : Fin 2)).val = (q ⟨0, by decide⟩).val :=
  DK.rhsIdx_val_of_single rfl i q
theorem dk_r1 (i : S4000x16.Idx) (q : DK.contr.Idx) : (DK.rhsIdx i q (1 : Fin 2)).val = (i (1 : Fin 2)).val := by
  unfold DotDims.rhsIdx
  rw [dif_neg (show ¬(1 : Fin S5x16.rank) ∈ DK.rhsBatch by decide), dif_pos (show (1 : Fin S5x16.rank) ∈ DK.rhsNonContracting by decide)]
  rfl

theorem dh_l0 (i : Cert.ReferenceIdeal.S500000x16.Idx) (q : DH.contr.Idx) : (DH.lhsIdx i q (0 : Fin 2)).val = (i (0 : Fin 2)).val := by
  unfold DotDims.lhsIdx
  rw [dif_neg (show ¬(0 : Fin Cert.ReferenceIdeal.S500000x5.rank) ∈ DH.lhsBatch by decide), dif_pos (show (0 : Fin Cert.ReferenceIdeal.S500000x5.rank) ∈ DH.lhsNonContracting by decide)]
  rfl
theorem dh_l1 (i : Cert.ReferenceIdeal.S500000x16.Idx) (q : DH.contr.Idx) : (DH.lhsIdx i q (1 : Fin 2)).val = (q ⟨0, by decide⟩).val :=
  DH.lhsIdx_val_of_single rfl i q
theorem dh_r0 (i : Cert.ReferenceIdeal.S500000x16.Idx) (q : DH.contr.Idx) : (DH.rhsIdx i q (0 : Fin 2)).val = (q ⟨0, by decide⟩).val :=
  DH.rhsIdx_val_of_single rfl i q
theorem dh_r1 (i : Cert.ReferenceIdeal.S500000x16.Idx) (q : DH.contr.Idx) : (DH.rhsIdx i q (1 : Fin 2)).val = (i (1 : Fin 2)).val := by
  unfold DotDims.rhsIdx
  rw [dif_neg (show ¬(1 : Fin Cert.ReferenceIdeal.S5x16.rank) ∈ DH.rhsBatch by decide), dif_pos (show (1 : Fin Cert.ReferenceIdeal.S5x16.rank) ∈ DH.rhsNonContracting by decide)]
  rfl

/-! ## The body's two payloads and the host's composition, each at an index -/

/-- One projected entry: row `p` of the features against column `q` of the weights, plus entry `q` of the bias. -/
def entry (x w : Fin 5 → EReal) (b : EReal) : EReal := (∑ k : Fin 5, x k * w k) + b

/-- The projection payload at `(p, q)` of its half block. -/
theorem pay1_apply (v0 : Vec Ideal S4000x5 .f32) (v2 : Vec Ideal S5x16 .f32) (v6 : Vec Ideal S1x16 .f32) (p : Fin 4000) (q : Fin 16) :
    k0_pay1 (F := Ideal) v0 v2 v6 (ix2 p q)
      = entry (fun k => v0 (ix2 p k)) (fun k => v2 (ix2 k q)) (v6 (ix2 (0 : Fin 1) q)) := by
  unfold k0_pay1 entry
  dsimp only
  rw [addf_apply]
  refine congrArg₂ (· + ·) ?_ ?_
  · refine (Cert.Lib.PlainDot.matmul_zero_ix2 (M := 4000) (K := 5) (N := 16) DK rfl rfl dk_l0 dk_l1 dk_r0 dk_r1 none _ _ p q).trans ?_
    refine Finset.sum_congr rfl fun k _ => ?_
    refine congrArg₂ (· * ·) rfl ?_
    show shapeCast S5x16 v2 shapeCasts_S5x16_S5x16 (ix2 k q) = _
    rw [shapeCast_self]
  · refine (Cert.Lib.Sage.broadcastTo_1n_mn_apply _ _ p q).trans ?_
    rw [shapeCast_self]

/-- The copy payload is the embedding block itself. -/
theorem pay2_eq (v10 : Vec Ideal S4000x16 .f32) : k0_pay2 (F := Ideal) v10 = v10 := by
  unfold k0_pay2
  exact shapeCast_self _ _

/-- Left of the seam the host's composition reads the embedding. -/
theorem stage_left (x : FVec Ideal S500000x5 .f32) (e : FVec Ideal S500000x16 .f32) (wT : FVec Ideal S5x16 .f32) (b : FVec Ideal S16 .f32)
    (r : Fin 500000) (j : Fin 32) (q : Fin 16) (hj : j.val = q.val) :
    Cert.Stage.fuseU x e wT b (ix2 r j) = e (ix2 r q) := by
  have hlt : j.val < 16 := by have := q.isLt; omega
  have hq : (⟨j.val, hlt⟩ : Fin 16) = q := Fin.ext hj
  unfold Cert.Stage.fuseU
  refine (Cert.Lib.ConcatCols.concat_cols_apply_left (n := 500000) (a := 16) (b := 16) (c := 32) _ _ _ r j hlt).trans ?_
  rw [hq]

/-- Right of the seam it reads the projection: row `r` of the features against column `j − 16` of the weights, plus the bias. -/
theorem stage_right (x : FVec Ideal S500000x5 .f32) (e : FVec Ideal S500000x16 .f32) (wT : FVec Ideal S5x16 .f32) (b : FVec Ideal S16 .f32)
    (r : Fin 500000) (j : Fin 32) (q : Fin 16) (hj : j.val = 16 + q.val) :
    Cert.Stage.fuseU x e wT b (ix2 r j)
      = entry (fun k => x (ix2 r k)) (fun k => wT (ix2 k q)) (b (ix1 q)) := by
  have hge : ¬ j.val < 16 := by omega
  have hjb : j.val - 16 < 16 := by have := q.isLt; omega
  have hq : (⟨j.val - 16, hjb⟩ : Fin 16) = q := Fin.ext (by show j.val - 16 = q.val; omega)
  unfold Cert.Stage.fuseU entry
  refine (Cert.Lib.ConcatCols.concat_cols_apply_right (n := 500000) (a := 16) (b := 16) (c := 32) _ _ _ r j hge hjb).trans ?_
  rw [hq, addf_apply]
  refine congrArg₂ (· + ·) ?_ ?_
  · exact Cert.Lib.Sage.hostDot_ix2 (M := 500000) (K := 5) (N := 16) DH rfl rfl dh_l0 dh_l1 dh_r0 dh_r1 none _ _ r q
  · exact Cert.Lib.BiasRows.biasRows_apply _ _ b r q

/-! ## From blocks to the array -/

section Blocks

variable (V : (c : Dev nD) → (b : Ref sig .tc) → Buf (Elt Ideal) ((c : Thread nD τ).loc b))

/-- The printed index maps over the grid: the three row-blocked windows move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The features' block at point `t` holds rows `4000 t …` of the array. -/
theorem blk0 (c : Dev nD) (t : Fin cfg0.N) (p : Fin 4000) (k : Fin 5) (r : Fin 500000) (hr : r.val = t.val * 4000 + p.val) :
    (iblk0 V c 0 t : Vec Ideal S4000x5 .f32) (ix2 p k) = (V c main_arg0 : S500000x5.Idx → EReal) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 5 + 1 * k.val = k.val; omega

/-- The embeddings' block at point `t` holds rows `4000 t …` of the array. -/
theorem blk1 (c : Dev nD) (t : Fin cfg0.N) (p : Fin 4000) (k : Fin 16) (r : Fin 500000) (hr : r.val = t.val * 4000 + p.val) :
    (iblk0 V c 1 t : Vec Ideal S4000x16 .f32) (ix2 p k) = (V c main_v6 : S500000x16.Idx → EReal) (ix2 r k) := by
  obtain ⟨-, -, e0, e1, -⟩ := idx_facts t
  unfold iblk0
  rw [View.read_apply]
  show V c main_v6 _ = V c main_v6 _
  refine congrArg (V c main_v6) (funext fun a => Fin.ext ?_)
  match a with
  | ⟨0, _⟩ => show win0_1.index t (0 : Fin 2) * 4000 + 1 * p.val = r.val; omega
  | ⟨1, _⟩ => show win0_1.index t (1 : Fin 2) * 16 + 1 * k.val = k.val; omega

/-- The weights' block at every point is the whole matrix. -/
theorem blk2 (c : Dev nD) (t : Fin cfg0.N) (k : Fin 5) (q : Fin 16) :
    (iblk0 V c 2 t : Vec Ideal S5x16 .f32) (ix2 k q) = (V c main_v14 : S5x16.Idx → EReal) (ix2 k q) := by
  obtain ⟨-, -, -, -, e0, e1, -⟩ := idx_facts t
  unfold iblk0
  rw [View.read_apply]
  show V c main_v14 _ = V c main_v14 _
  refine congrArg (V c main_v14) (funext fun a => Fin.ext ?_)
  match a with
  | ⟨0, _⟩ => show win0_2.index t (0 : Fin 2) * 5 + 1 * k.val = k.val; omega
  | ⟨1, _⟩ => show win0_2.index t (1 : Fin 2) * 16 + 1 * q.val = q.val; omega

/-- The bias row's block at every point is the whole row. -/
theorem blk3 (c : Dev nD) (t : Fin cfg0.N) (k : Fin 1) (q : Fin 16) :
    (iblk0 V c 3 t : Vec Ideal S1x16 .f32) (ix2 k q) = (V c main_v15 : S1x16.Idx → EReal) (ix2 k q) := by
  obtain ⟨-, -, -, -, -, -, e0, e1, -⟩ := idx_facts t
  unfold iblk0
  rw [View.read_apply]
  show V c main_v15 _ = V c main_v15 _
  refine congrArg (V c main_v15) (funext fun a => Fin.ext ?_)
  match a with
  | ⟨0, _⟩ => show win0_3.index t (0 : Fin 2) * 1 + 1 * k.val = k.val; omega
  | ⟨1, _⟩ => show win0_3.index t (1 : Fin 2) * 16 + 1 * q.val = q.val; omega

/-- WHAT POINT `t` WRITES BACK is block `t` of the host's composition of the arrays as the region finds them. The body's two
    stores are the two halves of that block: the store at columns 16…31 holds the projection of the block's rows, the
    store at columns 0…15 the embeddings' block; each payload entry is the composition's entry at the place its
    rectangle puts it, and the two rectangles cover the block. -/
theorem flushed_eq (c : Dev nD) (b : FVec Ideal S16 .f32)
    (hb : V c main_v15 = shapeCast S1x16 b shapeCasts_S16_S1x16) (t : Fin cfg0.N) :
    (dat0 (F := Ideal) V c).flushed 4 t = ((cfg0.win 4).blk t).view.read (Elt Ideal)
      (Cert.Stage.fuseU (V c main_arg0) (V c main_v6) (V c main_v14) b) := by
  show (cfg0.win 4).cut (grid0.coords t) ((dat0 V c).after 4 t) = _
  rw [after0_4]
  unfold out0_4
  simp only [View.ld_unit_zero (S := S4000x5) hz, View.ld_unit_zero (S := S5x16) hz, View.ld_unit_zero (S := S1x16) hz, View.ld_unit_zero (S := S4000x16) hz]
  obtain ⟨-, -, -, -, -, -, -, -, e40, e41⟩ := idx_facts t
  have hN : cfg0.N = 125 := N_0
  funext y
  rw [View.read_apply]
  refine View.canon_apply_of_pieces (Val := Elt Ideal) (S := S4000x32) (e := .f32)
    (fun y => Cert.Stage.fuseU (V c main_arg0) (V c main_v6) (V c main_v14) b (((cfg0.win 4).blk t).view.emb y)) _ ?_ y (cover0_4 _ _ y)
  intro pc hpc x
  rcases List.mem_cons.mp hpc with rfl | hpc
  · obtain ⟨p, q, rfl⟩ : ∃ (p : Fin 4000) (q : Fin 16), x = ix2 p q := ⟨x 0, x 1, eq_ix2 x⟩
    have hr : t.val * 4000 + p.val < 500000 := by have := t.isLt; have := p.isLt; omega
    have hq : 16 + q.val < 32 := by have := q.isLt; omega
    have hemb : ((cfg0.win 4).blk t).view.emb (r0_5.emb (ix2 p q))
        = ix2 (⟨t.val * 4000 + p.val, hr⟩ : Fin 500000) (⟨16 + q.val, hq⟩ : Fin 32) := funext fun a => Fin.ext (by
      match a with
      | ⟨0, _⟩ => show win0_4.index t (0 : Fin 2) * 4000 + 1 * (0 + 1 * p.val) = t.val * 4000 + p.val; omega
      | ⟨1, _⟩ => show win0_4.index t (1 : Fin 2) * 32 + 1 * (16 + 1 * q.val) = 16 + q.val; omega)
    show k0_pay1 (F := Ideal) _ _ _ (ix2 p q) = Cert.Stage.fuseU _ _ _ b (((cfg0.win 4).blk t).view.emb (r0_5.emb (ix2 p q)))
    rw [hemb]
    refine (pay1_apply _ _ _ p q).trans (Eq.trans ?_ (stage_right _ _ _ _ ⟨_, hr⟩ ⟨_, hq⟩ q rfl).symm)
    have h0 : (fun k : Fin 5 => (iblk0 V c 0 t : Vec Ideal S4000x5 .f32) (ix2 p k))
        = fun k => (V c main_arg0 : S500000x5.Idx → EReal) (ix2 (⟨t.val * 4000 + p.val, hr⟩ : Fin 500000) k) :=
      funext fun k => blk0 V c t p k _ rfl
    have h2 : (fun k : Fin 5 => (iblk0 V c 2 t : Vec Ideal S5x16 .f32) (ix2 k q)) = fun k => (V c main_v14 : S5x16.Idx → EReal) (ix2 k q) :=
      funext fun k => blk2 V c t k q
    have h3 : (iblk0 V c 3 t : Vec Ideal S1x16 .f32) (ix2 (0 : Fin 1) q) = b (ix1 q) :=
      (blk3 V c t 0 q).trans ((congrFun hb _).trans (Cert.Lib.Sage.shapeCast_n_1n_apply b _ 0 q))
    exact congr (congr (congrArg entry h0) h2) h3
  · rcases List.mem_cons.mp hpc with rfl | hpc
    · obtain ⟨p, q, rfl⟩ : ∃ (p : Fin 4000) (q : Fin 16), x = ix2 p q := ⟨x 0, x 1, eq_ix2 x⟩
      have hr : t.val * 4000 + p.val < 500000 := by have := t.isLt; have := p.isLt; omega
      have hq : q.val < 32 := by have := q.isLt; omega
      have hemb : ((cfg0.win 4).blk t).view.emb (r0_4.emb (ix2 p q))
          = ix2 (⟨t.val * 4000 + p.val, hr⟩ : Fin 500000) (⟨q.val, hq⟩ : Fin 32) := funext fun a => Fin.ext (by
        match a with
        | ⟨0, _⟩ => show win0_4.index t (0 : Fin 2) * 4000 + 1 * (0 + 1 * p.val) = t.val * 4000 + p.val; omega
        | ⟨1, _⟩ => show win0_4.index t (1 : Fin 2) * 32 + 1 * (0 + 1 * q.val) = q.val; omega)
      have e1 : k0_pay2 (F := Ideal) (iblk0 V c 1 t) (ix2 p q) = (iblk0 V c 1 t : Vec Ideal S4000x16 .f32) (ix2 p q) :=
        congrFun (pay2_eq _) _
      refine e1.trans ((blk1 V c t p q (⟨t.val * 4000 + p.val, hr⟩ : Fin 500000) rfl).trans ?_)
      refine Eq.trans (stage_left (V c main_arg0) (V c main_v6) (V c main_v14) b ⟨_, hr⟩ ⟨_, hq⟩ q rfl).symm ?_
      exact congrArg (Cert.Stage.fuseU (V c main_arg0) (V c main_v6) (V c main_v14) b) hemb.symm
    · exact absurd hpc List.not_mem_nil

end Blocks

end Fuse0

section Result

variable (V : (c : Dev nD) → (b : Ref sig .tc) → Buf (Elt Ideal) ((c : Thread nD τ).loc b))

/-- THE ARRAY after the region: the host's composition of the arrays the region reads. Row `r` lies in the block of point
    `r / 4000`, so the 125 blocks tile the 500000 rows. -/
theorem arr0 (c : Dev nD) (b : FVec Ideal S16 .f32)
    (hb : V c main_v15 = shapeCast S1x16 b shapeCasts_S16_S1x16) :
    (dat0 (F := Ideal) V c).arrAt 4 cfg0.N
      = Cert.Stage.fuseU (V c main_arg0) (V c main_v6) (V c main_v14) b :=
  (dat0 (F := Ideal) V c).arrAt_eq_of_cover 4 _ (fun t _ => Fuse0.flushed_eq V c b hb t) fun i => by
    have hi0 : (i 0).val < 500000 := (i 0).isLt
    have hi1 : (i 1).val < 32 := (i 1).isLt
    have ht : (i 0).val / 4000 < cfg0.N := by rw [show cfg0.N = 125 from N_0]; omega
    obtain ⟨-, -, -, -, -, -, -, -, e40, e41⟩ := Fuse0.idx_facts (⟨(i 0).val / 4000, ht⟩ : Fin cfg0.N)
    refine ⟨⟨(i 0).val / 4000, ht⟩, flush0_4 _, ?_⟩
    show i ∈ ((View.whole main_v16).slice (win0_4.rect ⟨(i 0).val / 4000, ht⟩)).set
    rw [View.set_slice_whole, Rect.mem_set_unit]
    intro a
    match a with
    | ⟨0, _⟩ =>
      show win0_4.index ⟨(i 0).val / 4000, ht⟩ (0 : Fin 2) * 4000 ≤ (i 0).val
        ∧ (i 0).val < win0_4.index ⟨(i 0).val / 4000, ht⟩ (0 : Fin 2) * 4000 + 4000
      rw [e40]; show (i 0).val / 4000 * 4000 ≤ (i 0).val ∧ (i 0).val < (i 0).val / 4000 * 4000 + 4000; omega
    | ⟨1, _⟩ =>
      show win0_4.index ⟨(i 0).val / 4000, ht⟩ (1 : Fin 2) * 32 ≤ (i 1).val
        ∧ (i 1).val < win0_4.index ⟨(i 0).val / 4000, ht⟩ (1 : Fin 2) * 32 + 32
      rw [e41]; omega

end Result

end Cert.KernelIdeal.Region

end
-- ==== Proof.Fuse1.lean ====
/-
  Feature fusion over the courses, as ONE whole-array function of the arrays it reads.

  The step's output array after its 5 grid points is `[e | x · Wᵀ + b]`, the host's own composition of operations:
  columns 0…15 of a row are the row of the looked-up embeddings, columns 16…31 the projected features plus the bias.
  Every point's block holds rows `2000 t … 2000 t + 1999` of that array; the body writes the block's two halves
  by two stores, and the 5 blocks tile the 10000 rows.
-/
import proofs.«109484_j27015344292445_2_alg».proof.Proof.Gen.KernelIdeal.Frame
import proofs.«109484_j27015344292445_2_alg».proof.Proof.Stages
import proofs.«109484_j27015344292445_2_alg».proof.Proof.LibPlainDot
import proofs.«109484_j27015344292445_2_alg».proof.Proof.LibBiasRows
import proofs.«109484_j27015344292445_2_alg».proof.Proof.LibConcatCols
import proofs.«109484_j27015344292445_2_alg».proof.Proof.SageLib
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

namespace Fuse1

theorem hz : (![0, 0] : Fin 2 → Nat) = fun _ => 0 := funext fun a => by fin_cases a <;> rfl

/-! ## The two dimension records' operand indices

Both products contract the left operand's second axis with the right operand's first: at output index `i` and
contraction position `q` the left operand is read at `(i 0, q)` and the right one at `(q, i 1)`. -/

/-- The kernel's record. -/
abbrev DK : DotDims S2000x2 S2x16 S2000x16 := dot_S2000x2_S2x16_S2000x16_1_0_0_1_n_n
/-- The host's record. -/
abbrev DH : DotDims Cert.ReferenceIdeal.S10000x2 Cert.ReferenceIdeal.S2x16 Cert.ReferenceIdeal.S10000x16 :=
  Cert.ReferenceIdeal.dot_S10000x2_S2x16_S10000x16_1_0_0_1_n_n

theorem dk_l0 (i : S2000x16.Idx) (q : DK.contr.Idx) : (DK.lhsIdx i q (0 : Fin 2)).val = (i (0 : Fin 2)).val := by
  unfold DotDims.lhsIdx
  rw [dif_neg (show ¬(0 : Fin S2000x2.rank) ∈ DK.lhsBatch by decide), dif_pos (show (0 : Fin S2000x2.rank) ∈ DK.lhsNonContracting by decide)]
  rfl
theorem dk_l1 (i : S2000x16.Idx) (q : DK.contr.Idx) : (DK.lhsIdx i q (1 : Fin 2)).val = (q ⟨0, by decide⟩).val :=
  DK.lhsIdx_val_of_single rfl i q
theorem dk_r0 (i : S2000x16.Idx) (q : DK.contr.Idx) : (DK.rhsIdx i q (0 : Fin 2)).val = (q ⟨0, by decide⟩).val :=
  DK.rhsIdx_val_of_single rfl i q
theorem dk_r1 (i : S2000x16.Idx) (q : DK.contr.Idx) : (DK.rhsIdx i q (1 : Fin 2)).val = (i (1 : Fin 2)).val := by
  unfold DotDims.rhsIdx
  rw [dif_neg (show ¬(1 : Fin S2x16.rank) ∈ DK.rhsBatch by decide), dif_pos (show (1 : Fin S2x16.rank) ∈ DK.rhsNonContracting by decide)]
  rfl

theorem dh_l0 (i : Cert.ReferenceIdeal.S10000x16.Idx) (q : DH.contr.Idx) : (DH.lhsIdx i q (0 : Fin 2)).val = (i (0 : Fin 2)).val := by
  unfold DotDims.lhsIdx
  rw [dif_neg (show ¬(0 : Fin Cert.ReferenceIdeal.S10000x2.rank) ∈ DH.lhsBatch by decide), dif_pos (show (0 : Fin Cert.ReferenceIdeal.S10000x2.rank) ∈ DH.lhsNonContracting by decide)]
  rfl
theorem dh_l1 (i : Cert.ReferenceIdeal.S10000x16.Idx) (q : DH.contr.Idx) : (DH.lhsIdx i q (1 : Fin 2)).val = (q ⟨0, by decide⟩).val :=
  DH.lhsIdx_val_of_single rfl i q
theorem dh_r0 (i : Cert.ReferenceIdeal.S10000x16.Idx) (q : DH.contr.Idx) : (DH.rhsIdx i q (0 : Fin 2)).val = (q ⟨0, by decide⟩).val :=
  DH.rhsIdx_val_of_single rfl i q
theorem dh_r1 (i : Cert.ReferenceIdeal.S10000x16.Idx) (q : DH.contr.Idx) : (DH.rhsIdx i q (1 : Fin 2)).val = (i (1 : Fin 2)).val := by
  unfold DotDims.rhsIdx
  rw [dif_neg (show ¬(1 : Fin Cert.ReferenceIdeal.S2x16.rank) ∈ DH.rhsBatch by decide), dif_pos (show (1 : Fin Cert.ReferenceIdeal.S2x16.rank) ∈ DH.rhsNonContracting by decide)]
  rfl

/-! ## The body's two payloads and the host's composition, each at an index -/

/-- One projected entry: row `p` of the features against column `q` of the weights, plus entry `q` of the bias. -/
def entry (x w : Fin 2 → EReal) (b : EReal) : EReal := (∑ k : Fin 2, x k * w k) + b

/-- The projection payload at `(p, q)` of its half block. -/
theorem pay1_apply (v0 : Vec Ideal S2000x2 .f32) (v2 : Vec Ideal S2x16 .f32) (v6 : Vec Ideal S1x16 .f32) (p : Fin 2000) (q : Fin 16) :
    k1_pay1 (F := Ideal) v0 v2 v6 (ix2 p q)
      = entry (fun k => v0 (ix2 p k)) (fun k => v2 (ix2 k q)) (v6 (ix2 (0 : Fin 1) q)) := by
  unfold k1_pay1 entry
  dsimp only
  rw [addf_apply]
  refine congrArg₂ (· + ·) ?_ ?_
  · refine (Cert.Lib.PlainDot.matmul_zero_ix2 (M := 2000) (K := 2) (N := 16) DK rfl rfl dk_l0 dk_l1 dk_r0 dk_r1 none _ _ p q).trans ?_
    refine Finset.sum_congr rfl fun k _ => ?_
    refine congrArg₂ (· * ·) rfl ?_
    show shapeCast S2x16 v2 shapeCasts_S2x16_S2x16 (ix2 k q) = _
    rw [shapeCast_self]
  · refine (Cert.Lib.Sage.broadcastTo_1n_mn_apply _ _ p q).trans ?_
    rw [shapeCast_self]

/-- The copy payload is the embedding block itself. -/
theorem pay2_eq (v10 : Vec Ideal S2000x16 .f32) : k1_pay2 (F := Ideal) v10 = v10 := by
  unfold k1_pay2
  exact shapeCast_self _ _

/-- Left of the seam the host's composition reads the embedding. -/
theorem stage_left (x : FVec Ideal S10000x2 .f32) (e : FVec Ideal S10000x16 .f32) (wT : FVec Ideal S2x16 .f32) (b : FVec Ideal S16 .f32)
    (r : Fin 10000) (j : Fin 32) (q : Fin 16) (hj : j.val = q.val) :
    Cert.Stage.fuseC x e wT b (ix2 r j) = e (ix2 r q) := by
  have hlt : j.val < 16 := by have := q.isLt; omega
  have hq : (⟨j.val, hlt⟩ : Fin 16) = q := Fin.ext hj
  unfold Cert.Stage.fuseC
  refine (Cert.Lib.ConcatCols.concat_cols_apply_left (n := 10000) (a := 16) (b := 16) (c := 32) _ _ _ r j hlt).trans ?_
  rw [hq]

/-- Right of the seam it reads the projection: row `r` of the features against column `j − 16` of the weights, plus the bias. -/
theorem stage_right (x : FVec Ideal S10000x2 .f32) (e : FVec Ideal S10000x16 .f32) (wT : FVec Ideal S2x16 .f32) (b : FVec Ideal S16 .f32)
    (r : Fin 10000) (j : Fin 32) (q : Fin 16) (hj : j.val = 16 + q.val) :
    Cert.Stage.fuseC x e wT b (ix2 r j)
      = entry (fun k => x (ix2 r k)) (fun k => wT (ix2 k q)) (b (ix1 q)) := by
  have hge : ¬ j.val < 16 := by omega
  have hjb : j.val - 16 < 16 := by have := q.isLt; omega
  have hq : (⟨j.val - 16, hjb⟩ : Fin 16) = q := Fin.ext (by show j.val - 16 = q.val; omega)
  unfold Cert.Stage.fuseC entry
  refine (Cert.Lib.ConcatCols.concat_cols_apply_right (n := 10000) (a := 16) (b := 16) (c := 32) _ _ _ r j hge hjb).trans ?_
  rw [hq, addf_apply]
  refine congrArg₂ (· + ·) ?_ ?_
  · exact Cert.Lib.Sage.hostDot_ix2 (M := 10000) (K := 2) (N := 16) DH rfl rfl dh_l0 dh_l1 dh_r0 dh_r1 none _ _ r q
  · exact Cert.Lib.BiasRows.biasRows_apply _ _ b r q

/-! ## From blocks to the array -/

section Blocks

variable (V : (c : Dev nD) → (b : Ref sig .tc) → Buf (Elt Ideal) ((c : Thread nD τ).loc b))

/-- The printed index maps over the grid: the three row-blocked windows move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The features' block at point `t` holds rows `2000 t …` of the array. -/
theorem blk0 (c : Dev nD) (t : Fin cfg1.N) (p : Fin 2000) (k : Fin 2) (r : Fin 10000) (hr : r.val = t.val * 2000 + p.val) :
    (iblk1 V c 0 t : Vec Ideal S2000x2 .f32) (ix2 p k) = (V c main_arg1 : S10000x2.Idx → EReal) (ix2 r k) := by
  obtain ⟨e0, e1, -⟩ := idx_facts t
  unfold iblk1
  rw [View.read_apply]
  show V c main_arg1 _ = V c main_arg1 _
  refine congrArg (V c main_arg1) (funext fun a => Fin.ext ?_)
  match a with
  | ⟨0, _⟩ => show win1_0.index t (0 : Fin 2) * 2000 + 1 * p.val = r.val; omega
  | ⟨1, _⟩ => show win1_0.index t (1 : Fin 2) * 2 + 1 * k.val = k.val; omega

/-- The embeddings' block at point `t` holds rows `2000 t …` of the array. -/
theorem blk1 (c : Dev nD) (t : Fin cfg1.N) (p : Fin 2000) (k : Fin 16) (r : Fin 10000) (hr : r.val = t.val * 2000 + p.val) :
    (iblk1 V c 1 t : Vec Ideal S2000x16 .f32) (ix2 p k) = (V c main_v13 : S10000x16.Idx → EReal) (ix2 r k) := by
  obtain ⟨-, -, e0, e1, -⟩ := idx_facts t
  unfold iblk1
  rw [View.read_apply]
  show V c main_v13 _ = V c main_v13 _
  refine congrArg (V c main_v13) (funext fun a => Fin.ext ?_)
  match a with
  | ⟨0, _⟩ => show win1_1.index t (0 : Fin 2) * 2000 + 1 * p.val = r.val; omega
  | ⟨1, _⟩ => show win1_1.index t (1 : Fin 2) * 16 + 1 * k.val = k.val; omega

/-- The weights' block at every point is the whole matrix. -/
theorem blk2 (c : Dev nD) (t : Fin cfg1.N) (k : Fin 2) (q : Fin 16) :
    (iblk1 V c 2 t : Vec Ideal S2x16 .f32) (ix2 k q) = (V c main_v17 : S2x16.Idx → EReal) (ix2 k q) := by
  obtain ⟨-, -, -, -, e0, e1, -⟩ := idx_facts t
  unfold iblk1
  rw [View.read_apply]
  show V c main_v17 _ = V c main_v17 _
  refine congrArg (V c main_v17) (funext fun a => Fin.ext ?_)
  match a with
  | ⟨0, _⟩ => show win1_2.index t (0 : Fin 2) * 2 + 1 * k.val = k.val; omega
  | ⟨1, _⟩ => show win1_2.index t (1 : Fin 2) * 16 + 1 * q.val = q.val; omega

/-- The bias row's block at every point is the whole row. -/
theorem blk3 (c : Dev nD) (t : Fin cfg1.N) (k : Fin 1) (q : Fin 16) :
    (iblk1 V c 3 t : Vec Ideal S1x16 .f32) (ix2 k q) = (V c main_v18 : S1x16.Idx → EReal) (ix2 k q) := by
  obtain ⟨-, -, -, -, -, -, e0, e1, -⟩ := idx_facts t
  unfold iblk1
  rw [View.read_apply]
  show V c main_v18 _ = V c main_v18 _
  refine congrArg (V c main_v18) (funext fun a => Fin.ext ?_)
  match a with
  | ⟨0, _⟩ => show win1_3.index t (0 : Fin 2) * 1 + 1 * k.val = k.val; omega
  | ⟨1, _⟩ => show win1_3.index t (1 : Fin 2) * 16 + 1 * q.val = q.val; omega

/-- WHAT POINT `t` WRITES BACK is block `t` of the host's composition of the arrays as the region finds them. The body's two
    stores are the two halves of that block: the store at columns 16…31 holds the projection of the block's rows, the
    store at columns 0…15 the embeddings' block; each payload entry is the composition's entry at the place its
    rectangle puts it, and the two rectangles cover the block. -/
theorem flushed_eq (c : Dev nD) (b : FVec Ideal S16 .f32)
    (hb : V c main_v18 = shapeCast S1x16 b shapeCasts_S16_S1x16) (t : Fin cfg1.N) :
    (dat1 (F := Ideal) V c).flushed 4 t = ((cfg1.win 4).blk t).view.read (Elt Ideal)
      (Cert.Stage.fuseC (V c main_arg1) (V c main_v13) (V c main_v17) b) := by
  show (cfg1.win 4).cut (grid1.coords t) ((dat1 V c).after 4 t) = _
  rw [after1_4]
  unfold out1_4
  simp only [View.ld_unit_zero (S := S2000x2) hz, View.ld_unit_zero (S := S2x16) hz, View.ld_unit_zero (S := S1x16) hz, View.ld_unit_zero (S := S2000x16) hz]
  obtain ⟨-, -, -, -, -, -, -, -, e40, e41⟩ := idx_facts t
  have hN : cfg1.N = 5 := N_1
  funext y
  rw [View.read_apply]
  refine View.canon_apply_of_pieces (Val := Elt Ideal) (S := S2000x32) (e := .f32)
    (fun y => Cert.Stage.fuseC (V c main_arg1) (V c main_v13) (V c main_v17) b (((cfg1.win 4).blk t).view.emb y)) _ ?_ y (cover1_4 _ _ y)
  intro pc hpc x
  rcases List.mem_cons.mp hpc with rfl | hpc
  · obtain ⟨p, q, rfl⟩ : ∃ (p : Fin 2000) (q : Fin 16), x = ix2 p q := ⟨x 0, x 1, eq_ix2 x⟩
    have hr : t.val * 2000 + p.val < 10000 := by have := t.isLt; have := p.isLt; omega
    have hq : 16 + q.val < 32 := by have := q.isLt; omega
    have hemb : ((cfg1.win 4).blk t).view.emb (r1_5.emb (ix2 p q))
        = ix2 (⟨t.val * 2000 + p.val, hr⟩ : Fin 10000) (⟨16 + q.val, hq⟩ : Fin 32) := funext fun a => Fin.ext (by
      match a with
      | ⟨0, _⟩ => show win1_4.index t (0 : Fin 2) * 2000 + 1 * (0 + 1 * p.val) = t.val * 2000 + p.val; omega
      | ⟨1, _⟩ => show win1_4.index t (1 : Fin 2) * 32 + 1 * (16 + 1 * q.val) = 16 + q.val; omega)
    show k1_pay1 (F := Ideal) _ _ _ (ix2 p q) = Cert.Stage.fuseC _ _ _ b (((cfg1.win 4).blk t).view.emb (r1_5.emb (ix2 p q)))
    rw [hemb]
    refine (pay1_apply _ _ _ p q).trans (Eq.trans ?_ (stage_right _ _ _ _ ⟨_, hr⟩ ⟨_, hq⟩ q rfl).symm)
    have h0 : (fun k : Fin 2 => (iblk1 V c 0 t : Vec Ideal S2000x2 .f32) (ix2 p k))
        = fun k => (V c main_arg1 : S10000x2.Idx → EReal) (ix2 (⟨t.val * 2000 + p.val, hr⟩ : Fin 10000) k) :=
      funext fun k => blk0 V c t p k _ rfl
    have h2 : (fun k : Fin 2 => (iblk1 V c 2 t : Vec Ideal S2x16 .f32) (ix2 k q)) = fun k => (V c main_v17 : S2x16.Idx → EReal) (ix2 k q) :=
      funext fun k => blk2 V c t k q
    have h3 : (iblk1 V c 3 t : Vec Ideal S1x16 .f32) (ix2 (0 : Fin 1) q) = b (ix1 q) :=
      (blk3 V c t 0 q).trans ((congrFun hb _).trans (Cert.Lib.Sage.shapeCast_n_1n_apply b _ 0 q))
    exact congr (congr (congrArg entry h0) h2) h3
  · rcases List.mem_cons.mp hpc with rfl | hpc
    · obtain ⟨p, q, rfl⟩ : ∃ (p : Fin 2000) (q : Fin 16), x = ix2 p q := ⟨x 0, x 1, eq_ix2 x⟩
      have hr : t.val * 2000 + p.val < 10000 := by have := t.isLt; have := p.isLt; omega
      have hq : q.val < 32 := by have := q.isLt; omega
      have hemb : ((cfg1.win 4).blk t).view.emb (r1_4.emb (ix2 p q))
          = ix2 (⟨t.val * 2000 + p.val, hr⟩ : Fin 10000) (⟨q.val, hq⟩ : Fin 32) := funext fun a => Fin.ext (by
        match a with
        | ⟨0, _⟩ => show win1_4.index t (0 : Fin 2) * 2000 + 1 * (0 + 1 * p.val) = t.val * 2000 + p.val; omega
        | ⟨1, _⟩ => show win1_4.index t (1 : Fin 2) * 32 + 1 * (0 + 1 * q.val) = q.val; omega)
      have e1 : k1_pay2 (F := Ideal) (iblk1 V c 1 t) (ix2 p q) = (iblk1 V c 1 t : Vec Ideal S2000x16 .f32) (ix2 p q) :=
        congrFun (pay2_eq _) _
      refine e1.trans ((blk1 V c t p q (⟨t.val * 2000 + p.val, hr⟩ : Fin 10000) rfl).trans ?_)
      refine Eq.trans (stage_left (V c main_arg1) (V c main_v13) (V c main_v17) b ⟨_, hr⟩ ⟨_, hq⟩ q rfl).symm ?_
      exact congrArg (Cert.Stage.fuseC (V c main_arg1) (V c main_v13) (V c main_v17) b) hemb.symm
    · exact absurd hpc List.not_mem_nil

end Blocks

end Fuse1

section Result

variable (V : (c : Dev nD) → (b : Ref sig .tc) → Buf (Elt Ideal) ((c : Thread nD τ).loc b))

/-- THE ARRAY after the region: the host's composition of the arrays the region reads. Row `r` lies in the block of point
    `r / 2000`, so the 5 blocks tile the 10000 rows. -/
theorem arr1 (c : Dev nD) (b : FVec Ideal S16 .f32)
    (hb : V c main_v18 = shapeCast S1x16 b shapeCasts_S16_S1x16) :
    (dat1 (F := Ideal) V c).arrAt 4 cfg1.N
      = Cert.Stage.fuseC (V c main_arg1) (V c main_v13) (V c main_v17) b :=
  (dat1 (F := Ideal) V c).arrAt_eq_of_cover 4 _ (fun t _ => Fuse1.flushed_eq V c b hb t) fun i => by
    have hi0 : (i 0).val < 10000 := (i 0).isLt
    have hi1 : (i 1).val < 32 := (i 1).isLt
    have ht : (i 0).val / 2000 < cfg1.N := by rw [show cfg1.N = 5 from N_1]; omega
    obtain ⟨-, -, -, -, -, -, -, -, e40, e41⟩ := Fuse1.idx_facts (⟨(i 0).val / 2000, ht⟩ : Fin cfg1.N)
    refine ⟨⟨(i 0).val / 2000, ht⟩, flush1_4 _, ?_⟩
    show i ∈ ((View.whole main_v19).slice (win1_4.rect ⟨(i 0).val / 2000, ht⟩)).set
    rw [View.set_slice_whole, Rect.mem_set_unit]
    intro a
    match a with
    | ⟨0, _⟩ =>
      show win1_4.index ⟨(i 0).val / 2000, ht⟩ (0 : Fin 2) * 2000 ≤ (i 0).val
        ∧ (i 0).val < win1_4.index ⟨(i 0).val / 2000, ht⟩ (0 : Fin 2) * 2000 + 2000
      rw [e40]; show (i 0).val / 2000 * 2000 ≤ (i 0).val ∧ (i 0).val < (i 0).val / 2000 * 2000 + 2000; omega
    | ⟨1, _⟩ =>
      show win1_4.index ⟨(i 0).val / 2000, ht⟩ (1 : Fin 2) * 32 ≤ (i 1).val
        ∧ (i 1).val < win1_4.index ⟨(i 0).val / 2000, ht⟩ (1 : Fin 2) * 32 + 32
      rw [e41]; omega

end Result

end Cert.KernelIdeal.Region

end
-- ==== Proof.Sage2.lean ====
/-
  The first layer's SAGE combine step over the courses, as ONE whole-array function of the arrays it reads.

  The step's output array after its 5 grid points is `max((agg / max(cnt, 1)) · Wlᵀ + b + x · Wrᵀ, 0)`, the host's own
  composition of operations: every point's block holds rows `2000 t … 2000 t + 1999` of that array, and the 5 blocks
  tile the 10000 rows.
-/
import proofs.«109484_j27015344292445_2_alg».proof.Proof.Gen.KernelIdeal.Frame
import proofs.«109484_j27015344292445_2_alg».proof.Proof.Stages
import proofs.«109484_j27015344292445_2_alg».proof.Proof.LibPlainDot
import proofs.«109484_j27015344292445_2_alg».proof.Proof.LibBiasRows
import proofs.«109484_j27015344292445_2_alg».proof.Proof.LibColumns
import proofs.«109484_j27015344292445_2_alg».proof.Proof.SageLib
import Idealize.ShloMosaic.Lib.IdealHost
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

namespace Sage2

theorem hz : (![0, 0] : Fin 2 → Nat) = fun _ => 0 := funext fun a => by fin_cases a <;> rfl

/-! ## The two dimension records' operand indices

Both products contract the left operand's second axis with the right operand's first: at output index `i` and
contraction position `q` the left operand is read at `(i 0, q)` and the right one at `(q, i 1)`. -/

/-- The kernel's record. -/
abbrev DK : DotDims S2000x32 S32x32 S2000x32 := dot_S2000x32_S32x32_S2000x32_1_0_0_1_n_n
/-- The host's record. -/
abbrev DH : DotDims Cert.ReferenceIdeal.S10000x32 Cert.ReferenceIdeal.S32x32 Cert.ReferenceIdeal.S10000x32 :=
  Cert.ReferenceIdeal.dot_S10000x32_S32x32_S10000x32_1_0_0_1_n_n

theorem dk_l0 (i : S2000x32.Idx) (q : DK.contr.Idx) : (DK.lhsIdx i q (0 : Fin 2)).val = (i (0 : Fin 2)).val := by
  unfold DotDims.lhsIdx
  rw [dif_neg (show ¬(0 : Fin S2000x32.rank) ∈ DK.lhsBatch by decide), dif_pos (show (0 : Fin S2000x32.rank) ∈ DK.lhsNonContracting by decide)]
  rfl
theorem dk_l1 (i : S2000x32.Idx) (q : DK.contr.Idx) : (DK.lhsIdx i q (1 : Fin 2)).val = (q ⟨0, by decide⟩).val :=
  DK.lhsIdx_val_of_single rfl i q
theorem dk_r0 (i : S2000x32.Idx) (q : DK.contr.Idx) : (DK.rhsIdx i q (0 : Fin 2)).val = (q ⟨0, by decide⟩).val :=
  DK.rhsIdx_val_of_single rfl i q
theorem dk_r1 (i : S2000x32.Idx) (q : DK.contr.Idx) : (DK.rhsIdx i q (1 : Fin 2)).val = (i (1 : Fin 2)).val := by
  unfold DotDims.rhsIdx
  rw [dif_neg (show ¬(1 : Fin S32x32.rank) ∈ DK.rhsBatch by decide), dif_pos (show (1 : Fin S32x32.rank) ∈ DK.rhsNonContracting by decide)]
  rfl

theorem dh_l0 (i : Cert.ReferenceIdeal.S10000x32.Idx) (q : DH.contr.Idx) : (DH.lhsIdx i q (0 : Fin 2)).val = (i (0 : Fin 2)).val := by
  unfold DotDims.lhsIdx
  rw [dif_neg (show ¬(0 : Fin Cert.ReferenceIdeal.S10000x32.rank) ∈ DH.lhsBatch by decide), dif_pos (show (0 : Fin Cert.ReferenceIdeal.S10000x32.rank) ∈ DH.lhsNonContracting by decide)]
  rfl
theorem dh_l1 (i : Cert.ReferenceIdeal.S10000x32.Idx) (q : DH.contr.Idx) : (DH.lhsIdx i q (1 : Fin 2)).val = (q ⟨0, by decide⟩).val :=
  DH.lhsIdx_val_of_single rfl i q
theorem dh_r0 (i : Cert.ReferenceIdeal.S10000x32.Idx) (q : DH.contr.Idx) : (DH.rhsIdx i q (0 : Fin 2)).val = (q ⟨0, by decide⟩).val :=
  DH.rhsIdx_val_of_single rfl i q
theorem dh_r1 (i : Cert.ReferenceIdeal.S10000x32.Idx) (q : DH.contr.Idx) : (DH.rhsIdx i q (1 : Fin 2)).val = (i (1 : Fin 2)).val := by
  unfold DotDims.rhsIdx
  rw [dif_neg (show ¬(1 : Fin Cert.ReferenceIdeal.S32x32.rank) ∈ DH.rhsBatch by decide), dif_pos (show (1 : Fin Cert.ReferenceIdeal.S32x32.rank) ∈ DH.rhsNonContracting by decide)]
  rfl

/-! ## The body's payload and the host's composition, each at an index -/

/-- One entry of the combine step, from row `p` of the two feature matrices, the row's count, column `q` of the two
    weight matrices and entry `q` of the bias. -/
def entry (agg x : Fin 32 → EReal) (cnt : EReal) (wl wr : Fin 32 → EReal) (b : EReal) : EReal :=
  max (((∑ k : Fin 32, Ideal.div (agg k) (max cnt (Ideal.ofBits .f32 0x3F800000#32)) * wl k) + b) + ∑ k : Fin 32, x k * wr k)
    (Ideal.ofBits .f32 0x00000000#32)

/-- The body's payload at `(p, q)` of its block: the block's row `p` against the weights' column `q`. -/
theorem pay_apply (v0 : Vec Ideal S2000x1 .f32) (v4 v9 : Vec Ideal S2000x32 .f32) (v12 v15 : Vec Ideal S32x32 .f32)
    (v20 : Vec Ideal S1x32 .f32) (p : Fin 2000) (q : Fin 32) :
    k2_pay1 (F := Ideal) v0 v4 v9 v12 v15 v20 (ix2 p q)
      = entry (fun k => v4 (ix2 p k)) (fun k => v9 (ix2 p k)) (v0 (ix2 p (0 : Fin 1))) (fun k => v12 (ix2 k q))
          (fun k => v15 (ix2 k q)) (v20 (ix2 (0 : Fin 1) q)) := by
  unfold k2_pay1 entry
  dsimp only
  rw [maximumf_apply, addf_apply, addf_apply]
  refine congrArg₂ max (congrArg₂ (· + ·) (congrArg₂ (· + ·) ?_ ?_) ?_) rfl
  · refine (Cert.Lib.PlainDot.matmul_zero_ix2 (M := 2000) (K := 32) (N := 32) DK rfl rfl dk_l0 dk_l1 dk_r0 dk_r1 none _ _ p q).trans ?_
    refine Finset.sum_congr rfl fun k _ => ?_
    refine congrArg₂ (· * ·) ?_ ?_
    · show Ideal.div (shapeCast S2000x32 v4 shapeCasts_S2000x32_S2000x32 (ix2 p k)) (broadcastTo S2000x32 _ broadcasts_S2000x1_S2000x32 (ix2 p k)) = _
      rw [shapeCast_self]
      exact congrArg (Ideal.div (v4 (ix2 p k))) (Cert.Lib.Sage.kernelDenom_apply _ _ v0 _ p k)
    · show shapeCast S32x32 v12 shapeCasts_S32x32_S32x32 (ix2 k q) = _
      rw [shapeCast_self]
  · refine (Cert.Lib.Sage.broadcastTo_1n_mn_apply _ _ p q).trans ?_
    rw [shapeCast_self]
  · refine (Cert.Lib.PlainDot.matmul_zero_ix2 (M := 2000) (K := 32) (N := 32) DK rfl rfl dk_l0 dk_l1 dk_r0 dk_r1 none _ _ p q).trans ?_
    refine Finset.sum_congr rfl fun k _ => ?_
    refine congrArg₂ (· * ·) ?_ ?_
    · show shapeCast S2000x32 v9 shapeCasts_S2000x32_S2000x32 (ix2 p k) = _
      rw [shapeCast_self]
    · show shapeCast S32x32 v15 shapeCasts_S32x32_S32x32 (ix2 k q) = _
      rw [shapeCast_self]

/-- The host's composition at `(r, q)` of the whole array: the arrays' row `r` against the weights' column `q`. -/
theorem stage_apply (agg : FVec Ideal S10000x32 .f32) (cnt : FVec Ideal S10000 .f32) (x : FVec Ideal S10000x32 .f32)
    (wl : FVec Ideal S32x32 .f32) (b : FVec Ideal S32 .f32) (wr : FVec Ideal S32x32 .f32) (r : Fin 10000) (q : Fin 32) :
    Cert.Stage.sageReluC agg cnt x wl b wr (ix2 r q)
      = entry (fun k => agg (ix2 r k)) (fun k => x (ix2 r k)) (cnt (ix1 r)) (fun k => wl (ix2 k q)) (fun k => wr (ix2 k q)) (b (ix1 q)) := by
  unfold Cert.Stage.sageReluC Cert.Stage.sageC32 entry
  rw [maximumf_apply, addf_apply, addf_apply]
  refine congrArg₂ max (congrArg₂ (· + ·) (congrArg₂ (· + ·) ?_ ?_) ?_) rfl
  · refine (Cert.Lib.Sage.hostDot_ix2 (M := 10000) (K := 32) (N := 32) DH rfl rfl dh_l0 dh_l1 dh_r0 dh_r1 none _ _ r q).trans ?_
    refine Finset.sum_congr rfl fun k _ => ?_
    refine congrArg (· * wl (ix2 k q)) ?_
    refine (hostDivf_apply _ _ _).trans ?_
    exact congrArg (Ideal.div (agg (ix2 r k))) (Cert.Lib.Sage.hostDenom_apply _ _ _ cnt _ r k)
  · exact Cert.Lib.BiasRows.biasRows_apply _ _ b r q
  · exact Cert.Lib.Sage.hostDot_ix2 (M := 10000) (K := 32) (N := 32) DH rfl rfl dh_l0 dh_l1 dh_r0 dh_r1 none _ _ r q

/-! ## From blocks to the array -/

section Blocks

variable (V : (c : Dev nD) → (b : Ref sig .tc) → Buf (Elt Ideal) ((c : Thread nD τ).loc b))

/-- The printed index maps over the grid: the four row-blocked windows move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregate's block at point `t` holds rows `2000 t …` of the array. -/
theorem blk0 (c : Dev nD) (t : Fin cfg2.N) (p : Fin 2000) (k : Fin 32) (r : Fin 10000) (hr : r.val = t.val * 2000 + p.val) :
    (iblk2 V c 0 t : Vec Ideal S2000x32 .f32) (ix2 p k) = (V c main_v29 : S10000x32.Idx → EReal) (ix2 r k) := by
  obtain ⟨e0, e1, -⟩ := idx_facts t
  unfold iblk2
  rw [View.read_apply]
  show V c main_v29 _ = V c main_v29 _
  refine congrArg (V c main_v29) (funext fun a => Fin.ext ?_)
  match a with
  | ⟨0, _⟩ => show win2_0.index t (0 : Fin 2) * 2000 + 1 * p.val = r.val; omega
  | ⟨1, _⟩ => show win2_0.index t (1 : Fin 2) * 32 + 1 * k.val = k.val; omega

/-- The count column's block at point `t` holds rows `2000 t …` of the column. -/
theorem blk1 (c : Dev nD) (t : Fin cfg2.N) (p : Fin 2000) (k : Fin 1) (r : Fin 10000) (hr : r.val = t.val * 2000 + p.val) :
    (iblk2 V c 1 t : Vec Ideal S2000x1 .f32) (ix2 p k) = (V c main_v51 : S10000x1.Idx → EReal) (ix2 r k) := by
  obtain ⟨-, -, e0, e1, -⟩ := idx_facts t
  unfold iblk2
  rw [View.read_apply]
  show V c main_v51 _ = V c main_v51 _
  refine congrArg (V c main_v51) (funext fun a => Fin.ext ?_)
  match a with
  | ⟨0, _⟩ => show win2_1.index t (0 : Fin 2) * 2000 + 1 * p.val = r.val; omega
  | ⟨1, _⟩ => show win2_1.index t (1 : Fin 2) * 1 + 1 * k.val = k.val; omega

/-- The features' block at point `t` holds rows `2000 t …` of the array. -/
theorem blk2 (c : Dev nD) (t : Fin cfg2.N) (p : Fin 2000) (k : Fin 32) (r : Fin 10000) (hr : r.val = t.val * 2000 + p.val) :
    (iblk2 V c 2 t : Vec Ideal S2000x32 .f32) (ix2 p k) = (V c main_v19 : S10000x32.Idx → EReal) (ix2 r k) := by
  obtain ⟨-, -, -, -, e0, e1, -⟩ := idx_facts t
  unfold iblk2
  rw [View.read_apply]
  show V c main_v19 _ = V c main_v19 _
  refine congrArg (V c main_v19) (funext fun a => Fin.ext ?_)
  match a with
  | ⟨0, _⟩ => show win2_2.index t (0 : Fin 2) * 2000 + 1 * p.val = r.val; omega
  | ⟨1, _⟩ => show win2_2.index t (1 : Fin 2) * 32 + 1 * k.val = k.val; omega

/-- The left weights' block at every point is the whole matrix. -/
theorem blk3 (c : Dev nD) (t : Fin cfg2.N) (k : Fin 32) (q : Fin 32) :
    (iblk2 V c 3 t : Vec Ideal S32x32 .f32) (ix2 k q) = (V c main_v48 : S32x32.Idx → EReal) (ix2 k q) := by
  obtain ⟨-, -, -, -, -, -, e0, e1, -⟩ := idx_facts t
  unfold iblk2
  rw [View.read_apply]
  show V c main_v48 _ = V c main_v48 _
  refine congrArg (V c main_v48) (funext fun a => Fin.ext ?_)
  match a with
  | ⟨0, _⟩ => show win2_3.index t (0 : Fin 2) * 32 + 1 * k.val = k.val; omega
  | ⟨1, _⟩ => show win2_3.index t (1 : Fin 2) * 32 + 1 * q.val = q.val; omega

/-- The bias row's block at every point is the whole row. -/
theorem blk4 (c : Dev nD) (t : Fin cfg2.N) (k : Fin 1) (q : Fin 32) :
    (iblk2 V c 4 t : Vec Ideal S1x32 .f32) (ix2 k q) = (V c main_v50 : S1x32.Idx → EReal) (ix2 k q) := by
  obtain ⟨-, -, -, -, -, -, -, -, e0, e1, -⟩ := idx_facts t
  unfold iblk2
  rw [View.read_apply]
  show V c main_v50 _ = V c main_v50 _
  refine congrArg (V c main_v50) (funext fun a => Fin.ext ?_)
  match a with
  | ⟨0, _⟩ => show win2_4.index t (0 : Fin 2) * 1 + 1 * k.val = k.val; omega
  | ⟨1, _⟩ => show win2_4.index t (1 : Fin 2) * 32 + 1 * q.val = q.val; omega

/-- The right weights' block at every point is the whole matrix. -/
theorem blk5 (c : Dev nD) (t : Fin cfg2.N) (k : Fin 32) (q : Fin 32) :
    (iblk2 V c 5 t : Vec Ideal S32x32 .f32) (ix2 k q) = (V c main_v49 : S32x32.Idx → EReal) (ix2 k q) := by
  obtain ⟨-, -, -, -, -, -, -, -, -, -, e0, e1, -⟩ := idx_facts t
  unfold iblk2
  rw [View.read_apply]
  show V c main_v49 _ = V c main_v49 _
  refine congrArg (V c main_v49) (funext fun a => Fin.ext ?_)
  match a with
  | ⟨0, _⟩ => show win2_5.index t (0 : Fin 2) * 32 + 1 * k.val = k.val; omega
  | ⟨1, _⟩ => show win2_5.index t (1 : Fin 2) * 32 + 1 * q.val = q.val; omega

/-- WHAT POINT `t` WRITES BACK is block `t` of the host's composition of the arrays as the region finds them: entry
    `(p, q)` of the block is entry `(2000 t + p, q)` of the array, and the body reads exactly that row of the aggregate,
    of the count and of the features. -/
theorem flushed_eq (c : Dev nD) (cnt : FVec Ideal S10000 .f32) (b : FVec Ideal S32 .f32)
    (hcnt : V c main_v51 = shapeCast S10000x1 cnt shapeCasts_S10000_S10000x1)
    (hb : V c main_v50 = shapeCast S1x32 b shapeCasts_S32_S1x32) (t : Fin cfg2.N) :
    (dat2 (F := Ideal) V c).flushed 6 t = ((cfg2.win 6).blk t).view.read (Elt Ideal)
      (Cert.Stage.sageReluC (V c main_v29) cnt (V c main_v19) (V c main_v48) b (V c main_v49)) := by
  show (cfg2.win 6).cut (grid2.coords t) ((dat2 V c).after 6 t) = _
  rw [after2_6]
  unfold out2_6
  rw [View.canon_unit_zero hz]
  simp only [View.ld_unit_zero (S := S2000x32) hz, View.ld_unit_zero (S := S2000x1) hz, View.ld_unit_zero (S := S32x32) hz, View.ld_unit_zero (S := S1x32) hz]
  funext y
  obtain ⟨p, q, rfl⟩ : ∃ (p : Fin 2000) (q : Fin 32), y = ix2 p q := ⟨y 0, y 1, eq_ix2 y⟩
  obtain ⟨-, -, -, -, -, -, -, -, -, -, -, -, e60, e61⟩ := idx_facts t
  have hN : cfg2.N = 5 := N_2
  have hr : t.val * 2000 + p.val < 10000 := by have := t.isLt; have := p.isLt; omega
  have hemb : ((cfg2.win 6).blk t).view.emb (ix2 p q) = ix2 (⟨t.val * 2000 + p.val, hr⟩ : Fin 10000) q := funext fun a => Fin.ext (by
    match a with
    | ⟨0, _⟩ => show win2_6.index t (0 : Fin 2) * 2000 + 1 * p.val = t.val * 2000 + p.val; omega
    | ⟨1, _⟩ => show win2_6.index t (1 : Fin 2) * 32 + 1 * q.val = q.val; omega)
  rw [View.read_apply, hemb]
  refine (pay_apply _ _ _ _ _ _ p q).trans (Eq.trans ?_ (stage_apply _ _ _ _ _ _ ⟨_, hr⟩ q).symm)
  have h0 : (fun k : Fin 32 => (iblk2 V c 0 t : Vec Ideal S2000x32 .f32) (ix2 p k))
      = fun k => (V c main_v29 : S10000x32.Idx → EReal) (ix2 (⟨t.val * 2000 + p.val, hr⟩ : Fin 10000) k) :=
    funext fun k => blk0 V c t p k _ rfl
  have h2 : (fun k : Fin 32 => (iblk2 V c 2 t : Vec Ideal S2000x32 .f32) (ix2 p k))
      = fun k => (V c main_v19 : S10000x32.Idx → EReal) (ix2 (⟨t.val * 2000 + p.val, hr⟩ : Fin 10000) k) :=
    funext fun k => blk2 V c t p k _ rfl
  have h1 : (iblk2 V c 1 t : Vec Ideal S2000x1 .f32) (ix2 p (0 : Fin 1)) = cnt (ix1 (⟨t.val * 2000 + p.val, hr⟩ : Fin 10000)) :=
    (blk1 V c t p 0 _ rfl).trans ((congrFun hcnt _).trans (Cert.Lib.Columns.shapeCast_a_a1_apply cnt _ _ 0))
  have h3 : (fun k : Fin 32 => (iblk2 V c 3 t : Vec Ideal S32x32 .f32) (ix2 k q)) = fun k => (V c main_v48 : S32x32.Idx → EReal) (ix2 k q) :=
    funext fun k => blk3 V c t k q
  have h5 : (fun k : Fin 32 => (iblk2 V c 5 t : Vec Ideal S32x32 .f32) (ix2 k q)) = fun k => (V c main_v49 : S32x32.Idx → EReal) (ix2 k q) :=
    funext fun k => blk5 V c t k q
  have h4 : (iblk2 V c 4 t : Vec Ideal S1x32 .f32) (ix2 (0 : Fin 1) q) = b (ix1 q) :=
    (blk4 V c t 0 q).trans ((congrFun hb _).trans (Cert.Lib.Sage.shapeCast_n_1n_apply b _ 0 q))
  exact congr (congr (congr (congr (congr (congrArg entry h0) h2) h1) h3) h5) h4

end Blocks

end Sage2

section Result

variable (V : (c : Dev nD) → (b : Ref sig .tc) → Buf (Elt Ideal) ((c : Thread nD τ).loc b))

/-- THE ARRAY after the region: the host's composition of the arrays the region reads. Row `r` lies in the block of point
    `r / 2000`, so the 5 blocks tile the 10000 rows. -/
theorem arr2 (c : Dev nD) (cnt : FVec Ideal S10000 .f32) (b : FVec Ideal S32 .f32)
    (hcnt : V c main_v51 = shapeCast S10000x1 cnt shapeCasts_S10000_S10000x1)
    (hb : V c main_v50 = shapeCast S1x32 b shapeCasts_S32_S1x32) :
    (dat2 (F := Ideal) V c).arrAt 6 cfg2.N
      = Cert.Stage.sageReluC (V c main_v29) cnt (V c main_v19) (V c main_v48) b (V c main_v49) :=
  (dat2 (F := Ideal) V c).arrAt_eq_of_cover 6 _ (fun t _ => Sage2.flushed_eq V c cnt b hcnt hb t) fun i => by
    have hi0 : (i 0).val < 10000 := (i 0).isLt
    have hi1 : (i 1).val < 32 := (i 1).isLt
    have ht : (i 0).val / 2000 < cfg2.N := by rw [show cfg2.N = 5 from N_2]; omega
    obtain ⟨-, -, -, -, -, -, -, -, -, -, -, -, e60, e61⟩ := Sage2.idx_facts (⟨(i 0).val / 2000, ht⟩ : Fin cfg2.N)
    refine ⟨⟨(i 0).val / 2000, ht⟩, flush2_6 _, ?_⟩
    show i ∈ ((View.whole main_v52).slice (win2_6.rect ⟨(i 0).val / 2000, ht⟩)).set
    rw [View.set_slice_whole, Rect.mem_set_unit]
    intro a
    match a with
    | ⟨0, _⟩ =>
      show win2_6.index ⟨(i 0).val / 2000, ht⟩ (0 : Fin 2) * 2000 ≤ (i 0).val
        ∧ (i 0).val < win2_6.index ⟨(i 0).val / 2000, ht⟩ (0 : Fin 2) * 2000 + 2000
      rw [e60]; show (i 0).val / 2000 * 2000 ≤ (i 0).val ∧ (i 0).val < (i 0).val / 2000 * 2000 + 2000; omega
    | ⟨1, _⟩ =>
      show win2_6.index ⟨(i 0).val / 2000, ht⟩ (1 : Fin 2) * 32 ≤ (i 1).val
        ∧ (i 1).val < win2_6.index ⟨(i 0).val / 2000, ht⟩ (1 : Fin 2) * 32 + 32
      rw [e61]; omega

end Result

end Cert.KernelIdeal.Region

end
-- ==== Proof.Sage3.lean ====
/-
  The first layer's SAGE combine step over the users, as ONE whole-array function of the arrays it reads.

  The step's output array after its 125 grid points is `max((agg / max(cnt, 1)) · Wlᵀ + b + x · Wrᵀ, 0)`, the host's own
  composition of operations: every point's block holds rows `4000 t … 4000 t + 3999` of that array, and the 125 blocks
  tile the 500000 rows.
-/
import proofs.«109484_j27015344292445_2_alg».proof.Proof.Gen.KernelIdeal.Frame
import proofs.«109484_j27015344292445_2_alg».proof.Proof.Stages
import proofs.«109484_j27015344292445_2_alg».proof.Proof.LibPlainDot
import proofs.«109484_j27015344292445_2_alg».proof.Proof.LibBiasRows
import proofs.«109484_j27015344292445_2_alg».proof.Proof.LibColumns
import proofs.«109484_j27015344292445_2_alg».proof.Proof.SageLib
import Idealize.ShloMosaic.Lib.IdealHost
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

namespace Sage3

theorem hz : (![0, 0] : Fin 2 → Nat) = fun _ => 0 := funext fun a => by fin_cases a <;> rfl

/-! ## The two dimension records' operand indices

Both products contract the left operand's second axis with the right operand's first: at output index `i` and
contraction position `q` the left operand is read at `(i 0, q)` and the right one at `(q, i 1)`. -/

/-- The kernel's record. -/
abbrev DK : DotDims S4000x32 S32x32 S4000x32 := dot_S4000x32_S32x32_S4000x32_1_0_0_1_n_n
/-- The host's record. -/
abbrev DH : DotDims Cert.ReferenceIdeal.S500000x32 Cert.ReferenceIdeal.S32x32 Cert.ReferenceIdeal.S500000x32 :=
  Cert.ReferenceIdeal.dot_S500000x32_S32x32_S500000x32_1_0_0_1_n_n

theorem dk_l0 (i : S4000x32.Idx) (q : DK.contr.Idx) : (DK.lhsIdx i q (0 : Fin 2)).val = (i (0 : Fin 2)).val := by
  unfold DotDims.lhsIdx
  rw [dif_neg (show ¬(0 : Fin S4000x32.rank) ∈ DK.lhsBatch by decide), dif_pos (show (0 : Fin S4000x32.rank) ∈ DK.lhsNonContracting by decide)]
  rfl
theorem dk_l1 (i : S4000x32.Idx) (q : DK.contr.Idx) : (DK.lhsIdx i q (1 : Fin 2)).val = (q ⟨0, by decide⟩).val :=
  DK.lhsIdx_val_of_single rfl i q
theorem dk_r0 (i : S4000x32.Idx) (q : DK.contr.Idx) : (DK.rhsIdx i q (0 : Fin 2)).val = (q ⟨0, by decide⟩).val :=
  DK.rhsIdx_val_of_single rfl i q
theorem dk_r1 (i : S4000x32.Idx) (q : DK.contr.Idx) : (DK.rhsIdx i q (1 : Fin 2)).val = (i (1 : Fin 2)).val := by
  unfold DotDims.rhsIdx
  rw [dif_neg (show ¬(1 : Fin S32x32.rank) ∈ DK.rhsBatch by decide), dif_pos (show (1 : Fin S32x32.rank) ∈ DK.rhsNonContracting by decide)]
  rfl

theorem dh_l0 (i : Cert.ReferenceIdeal.S500000x32.Idx) (q : DH.contr.Idx) : (DH.lhsIdx i q (0 : Fin 2)).val = (i (0 : Fin 2)).val := by
  unfold DotDims.lhsIdx
  rw [dif_neg (show ¬(0 : Fin Cert.ReferenceIdeal.S500000x32.rank) ∈ DH.lhsBatch by decide), dif_pos (show (0 : Fin Cert.ReferenceIdeal.S500000x32.rank) ∈ DH.lhsNonContracting by decide)]
  rfl
theorem dh_l1 (i : Cert.ReferenceIdeal.S500000x32.Idx) (q : DH.contr.Idx) : (DH.lhsIdx i q (1 : Fin 2)).val = (q ⟨0, by decide⟩).val :=
  DH.lhsIdx_val_of_single rfl i q
theorem dh_r0 (i : Cert.ReferenceIdeal.S500000x32.Idx) (q : DH.contr.Idx) : (DH.rhsIdx i q (0 : Fin 2)).val = (q ⟨0, by decide⟩).val :=
  DH.rhsIdx_val_of_single rfl i q
theorem dh_r1 (i : Cert.ReferenceIdeal.S500000x32.Idx) (q : DH.contr.Idx) : (DH.rhsIdx i q (1 : Fin 2)).val = (i (1 : Fin 2)).val := by
  unfold DotDims.rhsIdx
  rw [dif_neg (show ¬(1 : Fin Cert.ReferenceIdeal.S32x32.rank) ∈ DH.rhsBatch by decide), dif_pos (show (1 : Fin Cert.ReferenceIdeal.S32x32.rank) ∈ DH.rhsNonContracting by decide)]
  rfl

/-! ## The body's payload and the host's composition, each at an index -/

/-- One entry of the combine step, from row `p` of the two feature matrices, the row's count, column `q` of the two
    weight matrices and entry `q` of the bias. -/
def entry (agg x : Fin 32 → EReal) (cnt : EReal) (wl wr : Fin 32 → EReal) (b : EReal) : EReal :=
  max (((∑ k : Fin 32, Ideal.div (agg k) (max cnt (Ideal.ofBits .f32 0x3F800000#32)) * wl k) + b) + ∑ k : Fin 32, x k * wr k)
    (Ideal.ofBits .f32 0x00000000#32)

/-- The body's payload at `(p, q)` of its block: the block's row `p` against the weights' column `q`. -/
theorem pay_apply (v0 : Vec Ideal S4000x1 .f32) (v4 v9 : Vec Ideal S4000x32 .f32) (v12 v15 : Vec Ideal S32x32 .f32)
    (v20 : Vec Ideal S1x32 .f32) (p : Fin 4000) (q : Fin 32) :
    k3_pay1 (F := Ideal) v0 v4 v9 v12 v15 v20 (ix2 p q)
      = entry (fun k => v4 (ix2 p k)) (fun k => v9 (ix2 p k)) (v0 (ix2 p (0 : Fin 1))) (fun k => v12 (ix2 k q))
          (fun k => v15 (ix2 k q)) (v20 (ix2 (0 : Fin 1) q)) := by
  unfold k3_pay1 entry
  dsimp only
  rw [maximumf_apply, addf_apply, addf_apply]
  refine congrArg₂ max (congrArg₂ (· + ·) (congrArg₂ (· + ·) ?_ ?_) ?_) rfl
  · refine (Cert.Lib.PlainDot.matmul_zero_ix2 (M := 4000) (K := 32) (N := 32) DK rfl rfl dk_l0 dk_l1 dk_r0 dk_r1 none _ _ p q).trans ?_
    refine Finset.sum_congr rfl fun k _ => ?_
    refine congrArg₂ (· * ·) ?_ ?_
    · show Ideal.div (shapeCast S4000x32 v4 shapeCasts_S4000x32_S4000x32 (ix2 p k)) (broadcastTo S4000x32 _ broadcasts_S4000x1_S4000x32 (ix2 p k)) = _
      rw [shapeCast_self]
      exact congrArg (Ideal.div (v4 (ix2 p k))) (Cert.Lib.Sage.kernelDenom_apply _ _ v0 _ p k)
    · show shapeCast S32x32 v12 shapeCasts_S32x32_S32x32 (ix2 k q) = _
      rw [shapeCast_self]
  · refine (Cert.Lib.Sage.broadcastTo_1n_mn_apply _ _ p q).trans ?_
    rw [shapeCast_self]
  · refine (Cert.Lib.PlainDot.matmul_zero_ix2 (M := 4000) (K := 32) (N := 32) DK rfl rfl dk_l0 dk_l1 dk_r0 dk_r1 none _ _ p q).trans ?_
    refine Finset.sum_congr rfl fun k _ => ?_
    refine congrArg₂ (· * ·) ?_ ?_
    · show shapeCast S4000x32 v9 shapeCasts_S4000x32_S4000x32 (ix2 p k) = _
      rw [shapeCast_self]
    · show shapeCast S32x32 v15 shapeCasts_S32x32_S32x32 (ix2 k q) = _
      rw [shapeCast_self]

/-- The host's composition at `(r, q)` of the whole array: the arrays' row `r` against the weights' column `q`. -/
theorem stage_apply (agg : FVec Ideal S500000x32 .f32) (cnt : FVec Ideal S500000 .f32) (x : FVec Ideal S500000x32 .f32)
    (wl : FVec Ideal S32x32 .f32) (b : FVec Ideal S32 .f32) (wr : FVec Ideal S32x32 .f32) (r : Fin 500000) (q : Fin 32) :
    Cert.Stage.sageReluU agg cnt x wl b wr (ix2 r q)
      = entry (fun k => agg (ix2 r k)) (fun k => x (ix2 r k)) (cnt (ix1 r)) (fun k => wl (ix2 k q)) (fun k => wr (ix2 k q)) (b (ix1 q)) := by
  unfold Cert.Stage.sageReluU Cert.Stage.sageU32 entry
  rw [maximumf_apply, addf_apply, addf_apply]
  refine congrArg₂ max (congrArg₂ (· + ·) (congrArg₂ (· + ·) ?_ ?_) ?_) rfl
  · refine (Cert.Lib.Sage.hostDot_ix2 (M := 500000) (K := 32) (N := 32) DH rfl rfl dh_l0 dh_l1 dh_r0 dh_r1 none _ _ r q).trans ?_
    refine Finset.sum_congr rfl fun k _ => ?_
    refine congrArg (· * wl (ix2 k q)) ?_
    refine (hostDivf_apply _ _ _).trans ?_
    exact congrArg (Ideal.div (agg (ix2 r k))) (Cert.Lib.Sage.hostDenom_apply _ _ _ cnt _ r k)
  · exact Cert.Lib.BiasRows.biasRows_apply _ _ b r q
  · exact Cert.Lib.Sage.hostDot_ix2 (M := 500000) (K := 32) (N := 32) DH rfl rfl dh_l0 dh_l1 dh_r0 dh_r1 none _ _ r q

/-! ## From blocks to the array -/

section Blocks

variable (V : (c : Dev nD) → (b : Ref sig .tc) → Buf (Elt Ideal) ((c : Thread nD τ).loc b))

/-- The printed index maps over the grid: the four row-blocked windows move with the point, the weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The aggregate's block at point `t` holds rows `4000 t …` of the array. -/
theorem blk0 (c : Dev nD) (t : Fin cfg3.N) (p : Fin 4000) (k : Fin 32) (r : Fin 500000) (hr : r.val = t.val * 4000 + p.val) :
    (iblk3 V c 0 t : Vec Ideal S4000x32 .f32) (ix2 p k) = (V c main_v43 : S500000x32.Idx → EReal) (ix2 r k) := by
  obtain ⟨e0, e1, -⟩ := idx_facts t
  unfold iblk3
  rw [View.read_apply]
  show V c main_v43 _ = V c main_v43 _
  refine congrArg (V c main_v43) (funext fun a => Fin.ext ?_)
  match a with
  | ⟨0, _⟩ => show win3_0.index t (0 : Fin 2) * 4000 + 1 * p.val = r.val; omega
  | ⟨1, _⟩ => show win3_0.index t (1 : Fin 2) * 32 + 1 * k.val = k.val; omega

/-- The count column's block at point `t` holds rows `4000 t …` of the column. -/
theorem blk1 (c : Dev nD) (t : Fin cfg3.N) (p : Fin 4000) (k : Fin 1) (r : Fin 500000) (hr : r.val = t.val * 4000 + p.val) :
    (iblk3 V c 1 t : Vec Ideal S4000x1 .f32) (ix2 p k) = (V c main_v56 : S500000x1.Idx → EReal) (ix2 r k) := by
  obtain ⟨-, -, e0, e1, -⟩ := idx_facts t
  unfold iblk3
  rw [View.read_apply]
  show V c main_v56 _ = V c main_v56 _
  refine congrArg (V c main_v56) (funext fun a => Fin.ext ?_)
  match a with
  | ⟨0, _⟩ => show win3_1.index t (0 : Fin 2) * 4000 + 1 * p.val = r.val; omega
  | ⟨1, _⟩ => show win3_1.index t (1 : Fin 2) * 1 + 1 * k.val = k.val; omega

/-- The features' block at point `t` holds rows `4000 t …` of the array. -/
theorem blk2 (c : Dev nD) (t : Fin cfg3.N) (p : Fin 4000) (k : Fin 32) (r : Fin 500000) (hr : r.val = t.val * 4000 + p.val) :
    (iblk3 V c 2 t : Vec Ideal S4000x32 .f32) (ix2 p k) = (V c main_v16 : S500000x32.Idx → EReal) (ix2 r k) := by
  obtain ⟨-, -, -, -, e0, e1, -⟩ := idx_facts t
  unfold iblk3
  rw [View.read_apply]
  show V c main_v16 _ = V c main_v16 _
  refine congrArg (V c main_v16) (funext fun a => Fin.ext ?_)
  match a with
  | ⟨0, _⟩ => show win3_2.index t (0 : Fin 2) * 4000 + 1 * p.val = r.val; omega
  | ⟨1, _⟩ => show win3_2.index t (1 : Fin 2) * 32 + 1 * k.val = k.val; omega

/-- The left weights' block at every point is the whole matrix. -/
theorem blk3 (c : Dev nD) (t : Fin cfg3.N) (k : Fin 32) (q : Fin 32) :
    (iblk3 V c 3 t : Vec Ideal S32x32 .f32) (ix2 k q) = (V c main_v53 : S32x32.Idx → EReal) (ix2 k q) := by
  obtain ⟨-, -, -, -, -, -, e0, e1, -⟩ := idx_facts t
  unfold iblk3
  rw [View.read_apply]
  show V c main_v53 _ = V c main_v53 _
  refine congrArg (V c main_v53) (funext fun a => Fin.ext ?_)
  match a with
  | ⟨0, _⟩ => show win3_3.index t (0 : Fin 2) * 32 + 1 * k.val = k.val; omega
  | ⟨1, _⟩ => show win3_3.index t (1 : Fin 2) * 32 + 1 * q.val = q.val; omega

/-- The bias row's block at every point is the whole row. -/
theorem blk4 (c : Dev nD) (t : Fin cfg3.N) (k : Fin 1) (q : Fin 32) :
    (iblk3 V c 4 t : Vec Ideal S1x32 .f32) (ix2 k q) = (V c main_v55 : S1x32.Idx → EReal) (ix2 k q) := by
  obtain ⟨-, -, -, -, -, -, -, -, e0, e1, -⟩ := idx_facts t
  unfold iblk3
  rw [View.read_apply]
  show V c main_v55 _ = V c main_v55 _
  refine congrArg (V c main_v55) (funext fun a => Fin.ext ?_)
  match a with
  | ⟨0, _⟩ => show win3_4.index t (0 : Fin 2) * 1 + 1 * k.val = k.val; omega
  | ⟨1, _⟩ => show win3_4.index t (1 : Fin 2) * 32 + 1 * q.val = q.val; omega

/-- The right weights' block at every point is the whole matrix. -/
theorem blk5 (c : Dev nD) (t : Fin cfg3.N) (k : Fin 32) (q : Fin 32) :
    (iblk3 V c 5 t : Vec Ideal S32x32 .f32) (ix2 k q) = (V c main_v54 : S32x32.Idx → EReal) (ix2 k q) := by
  obtain ⟨-, -, -, -, -, -, -, -, -, -, e0, e1, -⟩ := idx_facts t
  unfold iblk3
  rw [View.read_apply]
  show V c main_v54 _ = V c main_v54 _
  refine congrArg (V c main_v54) (funext fun a => Fin.ext ?_)
  match a with
  | ⟨0, _⟩ => show win3_5.index t (0 : Fin 2) * 32 + 1 * k.val = k.val; omega
  | ⟨1, _⟩ => show win3_5.index t (1 : Fin 2) * 32 + 1 * q.val = q.val; omega

/-- WHAT POINT `t` WRITES BACK is block `t` of the host's composition of the arrays as the region finds them: entry
    `(p, q)` of the block is entry `(4000 t + p, q)` of the array, and the body reads exactly that row of the aggregate,
    of the count and of the features. -/
theorem flushed_eq (c : Dev nD) (cnt : FVec Ideal S500000 .f32) (b : FVec Ideal S32 .f32)
    (hcnt : V c main_v56 = shapeCast S500000x1 cnt shapeCasts_S500000_S500000x1)
    (hb : V c main_v55 = shapeCast S1x32 b shapeCasts_S32_S1x32) (t : Fin cfg3.N) :
    (dat3 (F := Ideal) V c).flushed 6 t = ((cfg3.win 6).blk t).view.read (Elt Ideal)
      (Cert.Stage.sageReluU (V c main_v43) cnt (V c main_v16) (V c main_v53) b (V c main_v54)) := by
  show (cfg3.win 6).cut (grid3.coords t) ((dat3 V c).after 6 t) = _
  rw [after3_6]
  unfold out3_6
  rw [View.canon_unit_zero hz]
  simp only [View.ld_unit_zero (S := S4000x32) hz, View.ld_unit_zero (S := S4000x1) hz, View.ld_unit_zero (S := S32x32) hz, View.ld_unit_zero (S := S1x32) hz]
  funext y
  obtain ⟨p, q, rfl⟩ : ∃ (p : Fin 4000) (q : Fin 32), y = ix2 p q := ⟨y 0, y 1, eq_ix2 y⟩
  obtain ⟨-, -, -, -, -, -, -, -, -, -, -, -, e60, e61⟩ := idx_facts t
  have hN : cfg3.N = 125 := N_3
  have hr : t.val * 4000 + p.val < 500000 := by have := t.isLt; have := p.isLt; omega
  have hemb : ((cfg3.win 6).blk t).view.emb (ix2 p q) = ix2 (⟨t.val * 4000 + p.val, hr⟩ : Fin 500000) q := funext fun a => Fin.ext (by
    match a with
    | ⟨0, _⟩ => show win3_6.index t (0 : Fin 2) * 4000 + 1 * p.val = t.val * 4000 + p.val; omega
    | ⟨1, _⟩ => show win3_6.index t (1 : Fin 2) * 32 + 1 * q.val = q.val; omega)
  rw [View.read_apply, hemb]
  refine (pay_apply _ _ _ _ _ _ p q).trans (Eq.trans ?_ (stage_apply _ _ _ _ _ _ ⟨_, hr⟩ q).symm)
  have h0 : (fun k : Fin 32 => (iblk3 V c 0 t : Vec Ideal S4000x32 .f32) (ix2 p k))
      = fun k => (V c main_v43 : S500000x32.Idx → EReal) (ix2 (⟨t.val * 4000 + p.val, hr⟩ : Fin 500000) k) :=
    funext fun k => blk0 V c t p k _ rfl
  have h2 : (fun k : Fin 32 => (iblk3 V c 2 t : Vec Ideal S4000x32 .f32) (ix2 p k))
      = fun k => (V c main_v16 : S500000x32.Idx → EReal) (ix2 (⟨t.val * 4000 + p.val, hr⟩ : Fin 500000) k) :=
    funext fun k => blk2 V c t p k _ rfl
  have h1 : (iblk3 V c 1 t : Vec Ideal S4000x1 .f32) (ix2 p (0 : Fin 1)) = cnt (ix1 (⟨t.val * 4000 + p.val, hr⟩ : Fin 500000)) :=
    (blk1 V c t p 0 _ rfl).trans ((congrFun hcnt _).trans (Cert.Lib.Columns.shapeCast_a_a1_apply cnt _ _ 0))
  have h3 : (fun k : Fin 32 => (iblk3 V c 3 t : Vec Ideal S32x32 .f32) (ix2 k q)) = fun k => (V c main_v53 : S32x32.Idx → EReal) (ix2 k q) :=
    funext fun k => blk3 V c t k q
  have h5 : (fun k : Fin 32 => (iblk3 V c 5 t : Vec Ideal S32x32 .f32) (ix2 k q)) = fun k => (V c main_v54 : S32x32.Idx → EReal) (ix2 k q) :=
    funext fun k => blk5 V c t k q
  have h4 : (iblk3 V c 4 t : Vec Ideal S1x32 .f32) (ix2 (0 : Fin 1) q) = b (ix1 q) :=
    (blk4 V c t 0 q).trans ((congrFun hb _).trans (Cert.Lib.Sage.shapeCast_n_1n_apply b _ 0 q))
  exact congr (congr (congr (congr (congr (congrArg entry h0) h2) h1) h3) h5) h4

end Blocks

end Sage3

section Result

variable (V : (c : Dev nD) → (b : Ref sig .tc) → Buf (Elt Ideal) ((c : Thread nD τ).loc b))

/-- THE ARRAY after the region: the host's composition of the arrays the region reads. Row `r` lies in the block of point
    `r / 4000`, so the 125 blocks tile the 500000 rows. -/
theorem arr3 (c : Dev nD) (cnt : FVec Ideal S500000 .f32) (b : FVec Ideal S32 .f32)
    (hcnt : V c main_v56 = shapeCast S500000x1 cnt shapeCasts_S500000_S500000x1)
    (hb : V c main_v55 = shapeCast S1x32 b shapeCasts_S32_S1x32) :
    (dat3 (F := Ideal) V c).arrAt 6 cfg3.N
      = Cert.Stage.sageReluU (V c main_v43) cnt (V c main_v16) (V c main_v53) b (V c main_v54) :=
  (dat3 (F := Ideal) V c).arrAt_eq_of_cover 6 _ (fun t _ => Sage3.flushed_eq V c cnt b hcnt hb t) fun i => by
    have hi0 : (i 0).val < 500000 := (i 0).isLt
    have hi1 : (i 1).val < 32 := (i 1).isLt
    have ht : (i 0).val / 4000 < cfg3.N := by rw [show cfg3.N = 125 from N_3]; omega
    obtain ⟨-, -, -, -, -, -, -, -, -, -, -, -, e60, e61⟩ := Sage3.idx_facts (⟨(i 0).val / 4000, ht⟩ : Fin cfg3.N)
    refine ⟨⟨(i 0).val / 4000, ht⟩, flush3_6 _, ?_⟩
    show i ∈ ((View.whole main_v57).slice (win3_6.rect ⟨(i 0).val / 4000, ht⟩)).set
    rw [View.set_slice_whole, Rect.mem_set_unit]
    intro a
    match a with
    | ⟨0, _⟩ =>
      show win3_6.index ⟨(i 0).val / 4000, ht⟩ (0 : Fin 2) * 4000 ≤ (i 0).val
        ∧ (i 0).val < win3_6.index ⟨(i 0).val / 4000, ht⟩ (0 : Fin 2) * 4000 + 4000
      rw [e60]; show (i 0).val / 4000 * 4000 ≤ (i 0).val ∧ (i 0).val < (i 0).val / 4000 * 4000 + 4000; omega
    | ⟨1, _⟩ =>
      show win3_6.index ⟨(i 0).val / 4000, ht⟩ (1 : Fin 2) * 32 ≤ (i 1).val
        ∧ (i 1).val < win3_6.index ⟨(i 0).val / 4000, ht⟩ (1 : Fin 2) * 32 + 32
      rw [e61]; omega

end Result

end Cert.KernelIdeal.Region

end
-- ==== Proof.Sage4.lean ====
/-
  The second layer's SAGE combine step over the courses, as ONE whole-array function of the arrays it reads.

  The step's output array after its 5 grid points is `(agg / max(cnt, 1)) · Wlᵀ + b + x · Wrᵀ`, the host's own
  composition of operations: every point's block holds rows `2000 t … 2000 t + 1999` of that array, and the 5 blocks
  tile the 10000 rows.
-/
import proofs.«109484_j27015344292445_2_alg».proof.Proof.Gen.KernelIdeal.Frame
import proofs.«109484_j27015344292445_2_alg».proof.Proof.Stages
import proofs.«109484_j27015344292445_2_alg».proof.Proof.LibPlainDot
import proofs.«109484_j27015344292445_2_alg».proof.Proof.LibBiasRows
import proofs.«109484_j27015344292445_2_alg».proof.Proof.LibColumns
import proofs.«109484_j27015344292445_2_alg».proof.Proof.SageLib
import Idealize.ShloMosaic.Lib.IdealHost
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

namespace Sage4

theorem hz : (![0, 0] : Fin 2 → Nat) = fun _ => 0 := funext fun a => by fin_cases a <;> rfl

/-! ## The two dimension records' operand indices

Both products contract the left operand's second axis with the right operand's first: at output index `i` and
contraction position `q` the left operand is read at `(i 0, q)` and the right one at `(q, i 1)`. -/

/-- The kernel's record. -/
abbrev DK : DotDims S2000x32 S32x16 S2000x16 := dot_S2000x32_S32x16_S2000x16_1_0_0_1_n_n
/-- The host's record. -/
abbrev DH : DotDims Cert.ReferenceIdeal.S10000x32 Cert.ReferenceIdeal.S32x16 Cert.ReferenceIdeal.S10000x16 :=
  Cert.ReferenceIdeal.dot_S10000x32_S32x16_S10000x16_1_0_0_1_n_n

theorem dk_l0 (i : S2000x16.Idx) (q : DK.contr.Idx) : (DK.lhsIdx i q (0 : Fin 2)).val = (i (0 : Fin 2)).val := by
  unfold DotDims.lhsIdx
  rw [dif_neg (show ¬(0 : Fin S2000x32.rank) ∈ DK.lhsBatch by decide), dif_pos (show (0 : Fin S2000x32.rank) ∈ DK.lhsNonContracting by decide)]
  rfl
theorem dk_l1 (i : S2000x16.Idx) (q : DK.contr.Idx) : (DK.lhsIdx i q (1 : Fin 2)).val = (q ⟨0, by decide⟩).val :=
  DK.lhsIdx_val_of_single rfl i q
theorem dk_r0 (i : S2000x16.Idx) (q : DK.contr.Idx) : (DK.rhsIdx i q (0 : Fin 2)).val = (q ⟨0, by decide⟩).val :=
  DK.rhsIdx_val_of_single rfl i q
theorem dk_r1 (i : S2000x16.Idx) (q : DK.contr.Idx) : (DK.rhsIdx i q (1 : Fin 2)).val = (i (1 : Fin 2)).val := by
  unfold DotDims.rhsIdx
  rw [dif_neg (show ¬(1 : Fin S32x16.rank) ∈ DK.rhsBatch by decide), dif_pos (show (1 : Fin S32x16.rank) ∈ DK.rhsNonContracting by decide)]
  rfl

theorem dh_l0 (i : Cert.ReferenceIdeal.S10000x16.Idx) (q : DH.contr.Idx) : (DH.lhsIdx i q (0 : Fin 2)).val = (i (0 : Fin 2)).val := by
  unfold DotDims.lhsIdx
  rw [dif_neg (show ¬(0 : Fin Cert.ReferenceIdeal.S10000x32.rank) ∈ DH.lhsBatch by decide), dif_pos (show (0 : Fin Cert.ReferenceIdeal.S10000x32.rank) ∈ DH.lhsNonContracting by decide)]
  rfl
theorem dh_l1 (i : Cert.ReferenceIdeal.S10000x16.Idx) (q : DH.contr.Idx) : (DH.lhsIdx i q (1 : Fin 2)).val = (q ⟨0, by decide⟩).val :=
  DH.lhsIdx_val_of_single rfl i q
theorem dh_r0 (i : Cert.ReferenceIdeal.S10000x16.Idx) (q : DH.contr.Idx) : (DH.rhsIdx i q (0 : Fin 2)).val = (q ⟨0, by decide⟩).val :=
  DH.rhsIdx_val_of_single rfl i q
theorem dh_r1 (i : Cert.ReferenceIdeal.S10000x16.Idx) (q : DH.contr.Idx) : (DH.rhsIdx i q (1 : Fin 2)).val = (i (1 : Fin 2)).val := by
  unfold DotDims.rhsIdx
  rw [dif_neg (show ¬(1 : Fin Cert.ReferenceIdeal.S32x16.rank) ∈ DH.rhsBatch by decide), dif_pos (show (1 : Fin Cert.ReferenceIdeal.S32x16.rank) ∈ DH.rhsNonContracting by decide)]
  rfl

/-! ## The body's payload and the host's composition, each at an index -/

/-- One entry of the combine step, from row `p` of the two feature matrices, the row's count, column `q` of the two
    weight matrices and entry `q` of the bias. -/
def entry (agg x : Fin 32 → EReal) (cnt : EReal) (wl wr : Fin 32 → EReal) (b : EReal) : EReal :=
  ((∑ k : Fin 32, Ideal.div (agg k) (max cnt (Ideal.ofBits .f32 0x3F800000#32)) * wl k) + b) + ∑ k : Fin 32, x k * wr k

/-- The body's payload at `(p, q)` of its block: the block's row `p` against the weights' column `q`. -/
theorem pay_apply (v0 : Vec Ideal S2000x1 .f32) (v4 v9 : Vec Ideal S2000x32 .f32) (v12 v15 : Vec Ideal S32x16 .f32)
    (v20 : Vec Ideal S1x16 .f32) (p : Fin 2000) (q : Fin 16) :
    k4_pay1 (F := Ideal) v0 v4 v9 v12 v15 v20 (ix2 p q)
      = entry (fun k => v4 (ix2 p k)) (fun k => v9 (ix2 p k)) (v0 (ix2 p (0 : Fin 1))) (fun k => v12 (ix2 k q))
          (fun k => v15 (ix2 k q)) (v20 (ix2 (0 : Fin 1) q)) := by
  unfold k4_pay1 entry
  dsimp only
  rw [addf_apply, addf_apply]
  refine congrArg₂ (· + ·) (congrArg₂ (· + ·) ?_ ?_) ?_
  · refine (Cert.Lib.PlainDot.matmul_zero_ix2 (M := 2000) (K := 32) (N := 16) DK rfl rfl dk_l0 dk_l1 dk_r0 dk_r1 none _ _ p q).trans ?_
    refine Finset.sum_congr rfl fun k _ => ?_
    refine congrArg₂ (· * ·) ?_ ?_
    · show Ideal.div (shapeCast S2000x32 v4 shapeCasts_S2000x32_S2000x32 (ix2 p k)) (broadcastTo S2000x32 _ broadcasts_S2000x1_S2000x32 (ix2 p k)) = _
      rw [shapeCast_self]
      exact congrArg (Ideal.div (v4 (ix2 p k))) (Cert.Lib.Sage.kernelDenom_apply _ _ v0 _ p k)
    · show shapeCast S32x16 v12 shapeCasts_S32x16_S32x16 (ix2 k q) = _
      rw [shapeCast_self]
  · refine (Cert.Lib.Sage.broadcastTo_1n_mn_apply _ _ p q).trans ?_
    rw [shapeCast_self]
  · refine (Cert.Lib.PlainDot.matmul_zero_ix2 (M := 2000) (K := 32) (N := 16) DK rfl rfl dk_l0 dk_l1 dk_r0 dk_r1 none _ _ p q).trans ?_
    refine Finset.sum_congr rfl fun k _ => ?_
    refine congrArg₂ (· * ·) ?_ ?_
    · show shapeCast S2000x32 v9 shapeCasts_S2000x32_S2000x32 (ix2 p k) = _
      rw [shapeCast_self]
    · show shapeCast S32x16 v15 shapeCasts_S32x16_S32x16 (ix2 k q) = _
      rw [shapeCast_self]

/-- The host's composition at `(r, q)` of the whole array: the arrays' row `r` against the weights' column `q`. -/
theorem stage_apply (agg : FVec Ideal S10000x32 .f32) (cnt : FVec Ideal S10000 .f32) (x : FVec Ideal S10000x32 .f32)
    (wl : FVec Ideal S32x16 .f32) (b : FVec Ideal S16 .f32) (wr : FVec Ideal S32x16 .f32) (r : Fin 10000) (q : Fin 16) :
    Cert.Stage.sageC16 agg cnt x wl b wr (ix2 r q)
      = entry (fun k => agg (ix2 r k)) (fun k => x (ix2 r k)) (cnt (ix1 r)) (fun k => wl (ix2 k q)) (fun k => wr (ix2 k q)) (b (ix1 q)) := by
  unfold Cert.Stage.sageC16 entry
  rw [addf_apply, addf_apply]
  refine congrArg₂ (· + ·) (congrArg₂ (· + ·) ?_ ?_) ?_
  · refine (Cert.Lib.Sage.hostDot_ix2 (M := 10000) (K := 32) (N := 16) DH rfl rfl dh_l0 dh_l1 dh_r0 dh_r1 none _ _ r q).trans ?_
    refine Finset.sum_congr rfl fun k _ => ?_
    refine congrArg (· * wl (ix2 k q)) ?_
    refine (hostDivf_apply _ _ _).trans ?_
    exact congrArg (Ideal.div (agg (ix2 r k))) (Cert.Lib.Sage.hostDenom_apply _ _ _ cnt _ r k)
  · exact Cert.Lib.BiasRows.biasRows_apply _ _ b r q
  · exact Cert.Lib.Sage.hostDot_ix2 (M := 10000) (K := 32) (N := 16) DH rfl rfl dh_l0 dh_l1 dh_r0 dh_r1 none _ _ r q

/-! ## From blocks to the array -/

section Blocks

variable (V : (c : Dev nD) → (b : Ref sig .tc) → Buf (Elt Ideal) ((c : Thread nD τ).loc b))

/-- The printed index maps over the grid: the four row-blocked windows move with the point, the weights and the bias stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The aggregate's block at point `t` holds rows `2000 t …` of the array. -/
theorem blk0 (c : Dev nD) (t : Fin cfg4.N) (p : Fin 2000) (k : Fin 32) (r : Fin 10000) (hr : r.val = t.val * 2000 + p.val) :
    (iblk4 V c 0 t : Vec Ideal S2000x32 .f32) (ix2 p k) = (V c main_v67 : S10000x32.Idx → EReal) (ix2 r k) := by
  obtain ⟨e0, e1, -⟩ := idx_facts t
  unfold iblk4
  rw [View.read_apply]
  show V c main_v67 _ = V c main_v67 _
  refine congrArg (V c main_v67) (funext fun a => Fin.ext ?_)
  match a with
  | ⟨0, _⟩ => show win4_0.index t (0 : Fin 2) * 2000 + 1 * p.val = r.val; omega
  | ⟨1, _⟩ => show win4_0.index t (1 : Fin 2) * 32 + 1 * k.val = k.val; omega

/-- The count column's block at point `t` holds rows `2000 t …` of the column. -/
theorem blk1 (c : Dev nD) (t : Fin cfg4.N) (p : Fin 2000) (k : Fin 1) (r : Fin 10000) (hr : r.val = t.val * 2000 + p.val) :
    (iblk4 V c 1 t : Vec Ideal S2000x1 .f32) (ix2 p k) = (V c main_v89 : S10000x1.Idx → EReal) (ix2 r k) := by
  obtain ⟨-, -, e0, e1, -⟩ := idx_facts t
  unfold iblk4
  rw [View.read_apply]
  show V c main_v89 _ = V c main_v89 _
  refine congrArg (V c main_v89) (funext fun a => Fin.ext ?_)
  match a with
  | ⟨0, _⟩ => show win4_1.index t (0 : Fin 2) * 2000 + 1 * p.val = r.val; omega
  | ⟨1, _⟩ => show win4_1.index t (1 : Fin 2) * 1 + 1 * k.val = k.val; omega

/-- The features' block at point `t` holds rows `2000 t …` of the array. -/
theorem blk2 (c : Dev nD) (t : Fin cfg4.N) (p : Fin 2000) (k : Fin 32) (r : Fin 10000) (hr : r.val = t.val * 2000 + p.val) :
    (iblk4 V c 2 t : Vec Ideal S2000x32 .f32) (ix2 p k) = (V c main_v52 : S10000x32.Idx → EReal) (ix2 r k) := by
  obtain ⟨-, -, -, -, e0, e1, -⟩ := idx_facts t
  unfold iblk4
  rw [View.read_apply]
  show V c main_v52 _ = V c main_v52 _
  refine congrArg (V c main_v52) (funext fun a => Fin.ext ?_)
  match a with
  | ⟨0, _⟩ => show win4_2.index t (0 : Fin 2) * 2000 + 1 * p.val = r.val; omega
  | ⟨1, _⟩ => show win4_2.index t (1 : Fin 2) * 32 + 1 * k.val = k.val; omega

/-- The left weights' block at every point is the whole matrix. -/
theorem blk3 (c : Dev nD) (t : Fin cfg4.N) (k : Fin 32) (q : Fin 16) :
    (iblk4 V c 3 t : Vec Ideal S32x16 .f32) (ix2 k q) = (V c main_v86 : S32x16.Idx → EReal) (ix2 k q) := by
  obtain ⟨-, -, -, -, -, -, e0, e1, -⟩ := idx_facts t
  unfold iblk4
  rw [View.read_apply]
  show V c main_v86 _ = V c main_v86 _
  refine congrArg (V c main_v86) (funext fun a => Fin.ext ?_)
  match a with
  | ⟨0, _⟩ => show win4_3.index t (0 : Fin 2) * 32 + 1 * k.val = k.val; omega
  | ⟨1, _⟩ => show win4_3.index t (1 : Fin 2) * 16 + 1 * q.val = q.val; omega

/-- The bias row's block at every point is the whole row. -/
theorem blk4 (c : Dev nD) (t : Fin cfg4.N) (k : Fin 1) (q : Fin 16) :
    (iblk4 V c 4 t : Vec Ideal S1x16 .f32) (ix2 k q) = (V c main_v88 : S1x16.Idx → EReal) (ix2 k q) := by
  obtain ⟨-, -, -, -, -, -, -, -, e0, e1, -⟩ := idx_facts t
  unfold iblk4
  rw [View.read_apply]
  show V c main_v88 _ = V c main_v88 _
  refine congrArg (V c main_v88) (funext fun a => Fin.ext ?_)
  match a with
  | ⟨0, _⟩ => show win4_4.index t (0 : Fin 2) * 1 + 1 * k.val = k.val; omega
  | ⟨1, _⟩ => show win4_4.index t (1 : Fin 2) * 16 + 1 * q.val = q.val; omega

/-- The right weights' block at every point is the whole matrix. -/
theorem blk5 (c : Dev nD) (t : Fin cfg4.N) (k : Fin 32) (q : Fin 16) :
    (iblk4 V c 5 t : Vec Ideal S32x16 .f32) (ix2 k q) = (V c main_v87 : S32x16.Idx → EReal) (ix2 k q) := by
  obtain ⟨-, -, -, -, -, -, -, -, -, -, e0, e1, -⟩ := idx_facts t
  unfold iblk4
  rw [View.read_apply]
  show V c main_v87 _ = V c main_v87 _
  refine congrArg (V c main_v87) (funext fun a => Fin.ext ?_)
  match a with
  | ⟨0, _⟩ => show win4_5.index t (0 : Fin 2) * 32 + 1 * k.val = k.val; omega
  | ⟨1, _⟩ => show win4_5.index t (1 : Fin 2) * 16 + 1 * q.val = q.val; omega

/-- WHAT POINT `t` WRITES BACK is block `t` of the host's composition of the arrays as the region finds them: entry
    `(p, q)` of the block is entry `(2000 t + p, q)` of the array, and the body reads exactly that row of the aggregate,
    of the count and of the features. -/
theorem flushed_eq (c : Dev nD) (cnt : FVec Ideal S10000 .f32) (b : FVec Ideal S16 .f32)
    (hcnt : V c main_v89 = shapeCast S10000x1 cnt shapeCasts_S10000_S10000x1)
    (hb : V c main_v88 = shapeCast S1x16 b shapeCasts_S16_S1x16) (t : Fin cfg4.N) :
    (dat4 (F := Ideal) V c).flushed 6 t = ((cfg4.win 6).blk t).view.read (Elt Ideal)
      (Cert.Stage.sageC16 (V c main_v67) cnt (V c main_v52) (V c main_v86) b (V c main_v87)) := by
  show (cfg4.win 6).cut (grid4.coords t) ((dat4 V c).after 6 t) = _
  rw [after4_6]
  unfold out4_6
  rw [View.canon_unit_zero hz]
  simp only [View.ld_unit_zero (S := S2000x32) hz, View.ld_unit_zero (S := S2000x1) hz, View.ld_unit_zero (S := S32x16) hz, View.ld_unit_zero (S := S1x16) hz]
  funext y
  obtain ⟨p, q, rfl⟩ : ∃ (p : Fin 2000) (q : Fin 16), y = ix2 p q := ⟨y 0, y 1, eq_ix2 y⟩
  obtain ⟨-, -, -, -, -, -, -, -, -, -, -, -, e60, e61⟩ := idx_facts t
  have hN : cfg4.N = 5 := N_4
  have hr : t.val * 2000 + p.val < 10000 := by have := t.isLt; have := p.isLt; omega
  have hemb : ((cfg4.win 6).blk t).view.emb (ix2 p q) = ix2 (⟨t.val * 2000 + p.val, hr⟩ : Fin 10000) q := funext fun a => Fin.ext (by
    match a with
    | ⟨0, _⟩ => show win4_6.index t (0 : Fin 2) * 2000 + 1 * p.val = t.val * 2000 + p.val; omega
    | ⟨1, _⟩ => show win4_6.index t (1 : Fin 2) * 16 + 1 * q.val = q.val; omega)
  rw [View.read_apply, hemb]
  refine (pay_apply _ _ _ _ _ _ p q).trans (Eq.trans ?_ (stage_apply _ _ _ _ _ _ ⟨_, hr⟩ q).symm)
  have h0 : (fun k : Fin 32 => (iblk4 V c 0 t : Vec Ideal S2000x32 .f32) (ix2 p k))
      = fun k => (V c main_v67 : S10000x32.Idx → EReal) (ix2 (⟨t.val * 2000 + p.val, hr⟩ : Fin 10000) k) :=
    funext fun k => blk0 V c t p k _ rfl
  have h2 : (fun k : Fin 32 => (iblk4 V c 2 t : Vec Ideal S2000x32 .f32) (ix2 p k))
      = fun k => (V c main_v52 : S10000x32.Idx → EReal) (ix2 (⟨t.val * 2000 + p.val, hr⟩ : Fin 10000) k) :=
    funext fun k => blk2 V c t p k _ rfl
  have h1 : (iblk4 V c 1 t : Vec Ideal S2000x1 .f32) (ix2 p (0 : Fin 1)) = cnt (ix1 (⟨t.val * 2000 + p.val, hr⟩ : Fin 10000)) :=
    (blk1 V c t p 0 _ rfl).trans ((congrFun hcnt _).trans (Cert.Lib.Columns.shapeCast_a_a1_apply cnt _ _ 0))
  have h3 : (fun k : Fin 32 => (iblk4 V c 3 t : Vec Ideal S32x16 .f32) (ix2 k q)) = fun k => (V c main_v86 : S32x16.Idx → EReal) (ix2 k q) :=
    funext fun k => blk3 V c t k q
  have h5 : (fun k : Fin 32 => (iblk4 V c 5 t : Vec Ideal S32x16 .f32) (ix2 k q)) = fun k => (V c main_v87 : S32x16.Idx → EReal) (ix2 k q) :=
    funext fun k => blk5 V c t k q
  have h4 : (iblk4 V c 4 t : Vec Ideal S1x16 .f32) (ix2 (0 : Fin 1) q) = b (ix1 q) :=
    (blk4 V c t 0 q).trans ((congrFun hb _).trans (Cert.Lib.Sage.shapeCast_n_1n_apply b _ 0 q))
  exact congr (congr (congr (congr (congr (congrArg entry h0) h2) h1) h3) h5) h4

end Blocks

end Sage4

section Result

variable (V : (c : Dev nD) → (b : Ref sig .tc) → Buf (Elt Ideal) ((c : Thread nD τ).loc b))

/-- THE ARRAY after the region: the host's composition of the arrays the region reads. Row `r` lies in the block of point
    `r / 2000`, so the 5 blocks tile the 10000 rows. -/
theorem arr4 (c : Dev nD) (cnt : FVec Ideal S10000 .f32) (b : FVec Ideal S16 .f32)
    (hcnt : V c main_v89 = shapeCast S10000x1 cnt shapeCasts_S10000_S10000x1)
    (hb : V c main_v88 = shapeCast S1x16 b shapeCasts_S16_S1x16) :
    (dat4 (F := Ideal) V c).arrAt 6 cfg4.N
      = Cert.Stage.sageC16 (V c main_v67) cnt (V c main_v52) (V c main_v86) b (V c main_v87) :=
  (dat4 (F := Ideal) V c).arrAt_eq_of_cover 6 _ (fun t _ => Sage4.flushed_eq V c cnt b hcnt hb t) fun i => by
    have hi0 : (i 0).val < 10000 := (i 0).isLt
    have hi1 : (i 1).val < 16 := (i 1).isLt
    have ht : (i 0).val / 2000 < cfg4.N := by rw [show cfg4.N = 5 from N_4]; omega
    obtain ⟨-, -, -, -, -, -, -, -, -, -, -, -, e60, e61⟩ := Sage4.idx_facts (⟨(i 0).val / 2000, ht⟩ : Fin cfg4.N)
    refine ⟨⟨(i 0).val / 2000, ht⟩, flush4_6 _, ?_⟩
    show i ∈ ((View.whole main_v90).slice (win4_6.rect ⟨(i 0).val / 2000, ht⟩)).set
    rw [View.set_slice_whole, Rect.mem_set_unit]
    intro a
    match a with
    | ⟨0, _⟩ =>
      show win4_6.index ⟨(i 0).val / 2000, ht⟩ (0 : Fin 2) * 2000 ≤ (i 0).val
        ∧ (i 0).val < win4_6.index ⟨(i 0).val / 2000, ht⟩ (0 : Fin 2) * 2000 + 2000
      rw [e60]; show (i 0).val / 2000 * 2000 ≤ (i 0).val ∧ (i 0).val < (i 0).val / 2000 * 2000 + 2000; omega
    | ⟨1, _⟩ =>
      show win4_6.index ⟨(i 0).val / 2000, ht⟩ (1 : Fin 2) * 16 ≤ (i 1).val
        ∧ (i 1).val < win4_6.index ⟨(i 0).val / 2000, ht⟩ (1 : Fin 2) * 16 + 16
      rw [e61]; omega

end Result

end Cert.KernelIdeal.Region

end
-- ==== Proof.Sage5.lean ====
/-
  The second layer's SAGE combine step over the users, as ONE whole-array function of the arrays it reads.

  The step's output array after its 125 grid points is `(agg / max(cnt, 1)) · Wlᵀ + b + x · Wrᵀ`, the host's own
  composition of operations: every point's block holds rows `4000 t … 4000 t + 3999` of that array, and the 125 blocks
  tile the 500000 rows.
-/
import proofs.«109484_j27015344292445_2_alg».proof.Proof.Gen.KernelIdeal.Frame
import proofs.«109484_j27015344292445_2_alg».proof.Proof.Stages
import proofs.«109484_j27015344292445_2_alg».proof.Proof.LibPlainDot
import proofs.«109484_j27015344292445_2_alg».proof.Proof.LibBiasRows
import proofs.«109484_j27015344292445_2_alg».proof.Proof.LibColumns
import proofs.«109484_j27015344292445_2_alg».proof.Proof.SageLib
import Idealize.ShloMosaic.Lib.IdealHost
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

namespace Sage5

theorem hz : (![0, 0] : Fin 2 → Nat) = fun _ => 0 := funext fun a => by fin_cases a <;> rfl

/-! ## The two dimension records' operand indices

Both products contract the left operand's second axis with the right operand's first: at output index `i` and
contraction position `q` the left operand is read at `(i 0, q)` and the right one at `(q, i 1)`. -/

/-- The kernel's record. -/
abbrev DK : DotDims S4000x32 S32x16 S4000x16 := dot_S4000x32_S32x16_S4000x16_1_0_0_1_n_n
/-- The host's record. -/
abbrev DH : DotDims Cert.ReferenceIdeal.S500000x32 Cert.ReferenceIdeal.S32x16 Cert.ReferenceIdeal.S500000x16 :=
  Cert.ReferenceIdeal.dot_S500000x32_S32x16_S500000x16_1_0_0_1_n_n

theorem dk_l0 (i : S4000x16.Idx) (q : DK.contr.Idx) : (DK.lhsIdx i q (0 : Fin 2)).val = (i (0 : Fin 2)).val := by
  unfold DotDims.lhsIdx
  rw [dif_neg (show ¬(0 : Fin S4000x32.rank) ∈ DK.lhsBatch by decide), dif_pos (show (0 : Fin S4000x32.rank) ∈ DK.lhsNonContracting by decide)]
  rfl
theorem dk_l1 (i : S4000x16.Idx) (q : DK.contr.Idx) : (DK.lhsIdx i q (1 : Fin 2)).val = (q ⟨0, by decide⟩).val :=
  DK.lhsIdx_val_of_single rfl i q
theorem dk_r0 (i : S4000x16.Idx) (q : DK.contr.Idx) : (DK.rhsIdx i q (0 : Fin 2)).val = (q ⟨0, by decide⟩).val :=
  DK.rhsIdx_val_of_single rfl i q
theorem dk_r1 (i : S4000x16.Idx) (q : DK.contr.Idx) : (DK.rhsIdx i q (1 : Fin 2)).val = (i (1 : Fin 2)).val := by
  unfold DotDims.rhsIdx
  rw [dif_neg (show ¬(1 : Fin S32x16.rank) ∈ DK.rhsBatch by decide), dif_pos (show (1 : Fin S32x16.rank) ∈ DK.rhsNonContracting by decide)]
  rfl

theorem dh_l0 (i : Cert.ReferenceIdeal.S500000x16.Idx) (q : DH.contr.Idx) : (DH.lhsIdx i q (0 : Fin 2)).val = (i (0 : Fin 2)).val := by
  unfold DotDims.lhsIdx
  rw [dif_neg (show ¬(0 : Fin Cert.ReferenceIdeal.S500000x32.rank) ∈ DH.lhsBatch by decide), dif_pos (show (0 : Fin Cert.ReferenceIdeal.S500000x32.rank) ∈ DH.lhsNonContracting by decide)]
  rfl
theorem dh_l1 (i : Cert.ReferenceIdeal.S500000x16.Idx) (q : DH.contr.Idx) : (DH.lhsIdx i q (1 : Fin 2)).val = (q ⟨0, by decide⟩).val :=
  DH.lhsIdx_val_of_single rfl i q
theorem dh_r0 (i : Cert.ReferenceIdeal.S500000x16.Idx) (q : DH.contr.Idx) : (DH.rhsIdx i q (0 : Fin 2)).val = (q ⟨0, by decide⟩).val :=
  DH.rhsIdx_val_of_single rfl i q
theorem dh_r1 (i : Cert.ReferenceIdeal.S500000x16.Idx) (q : DH.contr.Idx) : (DH.rhsIdx i q (1 : Fin 2)).val = (i (1 : Fin 2)).val := by
  unfold DotDims.rhsIdx
  rw [dif_neg (show ¬(1 : Fin Cert.ReferenceIdeal.S32x16.rank) ∈ DH.rhsBatch by decide), dif_pos (show (1 : Fin Cert.ReferenceIdeal.S32x16.rank) ∈ DH.rhsNonContracting by decide)]
  rfl

/-! ## The body's payload and the host's composition, each at an index -/

/-- One entry of the combine step, from row `p` of the two feature matrices, the row's count, column `q` of the two
    weight matrices and entry `q` of the bias. -/
def entry (agg x : Fin 32 → EReal) (cnt : EReal) (wl wr : Fin 32 → EReal) (b : EReal) : EReal :=
  ((∑ k : Fin 32, Ideal.div (agg k) (max cnt (Ideal.ofBits .f32 0x3F800000#32)) * wl k) + b) + ∑ k : Fin 32, x k * wr k

/-- The body's payload at `(p, q)` of its block: the block's row `p` against the weights' column `q`. -/
theorem pay_apply (v0 : Vec Ideal S4000x1 .f32) (v4 v9 : Vec Ideal S4000x32 .f32) (v12 v15 : Vec Ideal S32x16 .f32)
    (v20 : Vec Ideal S1x16 .f32) (p : Fin 4000) (q : Fin 16) :
    k5_pay1 (F := Ideal) v0 v4 v9 v12 v15 v20 (ix2 p q)
      = entry (fun k => v4 (ix2 p k)) (fun k => v9 (ix2 p k)) (v0 (ix2 p (0 : Fin 1))) (fun k => v12 (ix2 k q))
          (fun k => v15 (ix2 k q)) (v20 (ix2 (0 : Fin 1) q)) := by
  unfold k5_pay1 entry
  dsimp only
  rw [addf_apply, addf_apply]
  refine congrArg₂ (· + ·) (congrArg₂ (· + ·) ?_ ?_) ?_
  · refine (Cert.Lib.PlainDot.matmul_zero_ix2 (M := 4000) (K := 32) (N := 16) DK rfl rfl dk_l0 dk_l1 dk_r0 dk_r1 none _ _ p q).trans ?_
    refine Finset.sum_congr rfl fun k _ => ?_
    refine congrArg₂ (· * ·) ?_ ?_
    · show Ideal.div (shapeCast S4000x32 v4 shapeCasts_S4000x32_S4000x32 (ix2 p k)) (broadcastTo S4000x32 _ broadcasts_S4000x1_S4000x32 (ix2 p k)) = _
      rw [shapeCast_self]
      exact congrArg (Ideal.div (v4 (ix2 p k))) (Cert.Lib.Sage.kernelDenom_apply _ _ v0 _ p k)
    · show shapeCast S32x16 v12 shapeCasts_S32x16_S32x16 (ix2 k q) = _
      rw [shapeCast_self]
  · refine (Cert.Lib.Sage.broadcastTo_1n_mn_apply _ _ p q).trans ?_
    rw [shapeCast_self]
  · refine (Cert.Lib.PlainDot.matmul_zero_ix2 (M := 4000) (K := 32) (N := 16) DK rfl rfl dk_l0 dk_l1 dk_r0 dk_r1 none _ _ p q).trans ?_
    refine Finset.sum_congr rfl fun k _ => ?_
    refine congrArg₂ (· * ·) ?_ ?_
    · show shapeCast S4000x32 v9 shapeCasts_S4000x32_S4000x32 (ix2 p k) = _
      rw [shapeCast_self]
    · show shapeCast S32x16 v15 shapeCasts_S32x16_S32x16 (ix2 k q) = _
      rw [shapeCast_self]

/-- The host's composition at `(r, q)` of the whole array: the arrays' row `r` against the weights' column `q`. -/
theorem stage_apply (agg : FVec Ideal S500000x32 .f32) (cnt : FVec Ideal S500000 .f32) (x : FVec Ideal S500000x32 .f32)
    (wl : FVec Ideal S32x16 .f32) (b : FVec Ideal S16 .f32) (wr : FVec Ideal S32x16 .f32) (r : Fin 500000) (q : Fin 16) :
    Cert.Stage.sageU16 agg cnt x wl b wr (ix2 r q)
      = entry (fun k => agg (ix2 r k)) (fun k => x (ix2 r k)) (cnt (ix1 r)) (fun k => wl (ix2 k q)) (fun k => wr (ix2 k q)) (b (ix1 q)) := by
  unfold Cert.Stage.sageU16 entry
  rw [addf_apply, addf_apply]
  refine congrArg₂ (· + ·) (congrArg₂ (· + ·) ?_ ?_) ?_
  · refine (Cert.Lib.Sage.hostDot_ix2 (M := 500000) (K := 32) (N := 16) DH rfl rfl dh_l0 dh_l1 dh_r0 dh_r1 none _ _ r q).trans ?_
    refine Finset.sum_congr rfl fun k _ => ?_
    refine congrArg (· * wl (ix2 k q)) ?_
    refine (hostDivf_apply _ _ _).trans ?_
    exact congrArg (Ideal.div (agg (ix2 r k))) (Cert.Lib.Sage.hostDenom_apply _ _ _ cnt _ r k)
  · exact Cert.Lib.BiasRows.biasRows_apply _ _ b r q
  · exact Cert.Lib.Sage.hostDot_ix2 (M := 500000) (K := 32) (N := 16) DH rfl rfl dh_l0 dh_l1 dh_r0 dh_r1 none _ _ r q

/-! ## From blocks to the array -/

section Blocks

variable (V : (c : Dev nD) → (b : Ref sig .tc) → Buf (Elt Ideal) ((c : Thread nD τ).loc b))

/-- The printed index maps over the grid: the four row-blocked windows move with the point, the weights and the bias stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The aggregate's block at point `t` holds rows `4000 t …` of the array. -/
theorem blk0 (c : Dev nD) (t : Fin cfg5.N) (p : Fin 4000) (k : Fin 32) (r : Fin 500000) (hr : r.val = t.val * 4000 + p.val) :
    (iblk5 V c 0 t : Vec Ideal S4000x32 .f32) (ix2 p k) = (V c main_v81 : S500000x32.Idx → EReal) (ix2 r k) := by
  obtain ⟨e0, e1, -⟩ := idx_facts t
  unfold iblk5
  rw [View.read_apply]
  show V c main_v81 _ = V c main_v81 _
  refine congrArg (V c main_v81) (funext fun a => Fin.ext ?_)
  match a with
  | ⟨0, _⟩ => show win5_0.index t (0 : Fin 2) * 4000 + 1 * p.val = r.val; omega
  | ⟨1, _⟩ => show win5_0.index t (1 : Fin 2) * 32 + 1 * k.val = k.val; omega

/-- The count column's block at point `t` holds rows `4000 t …` of the column. -/
theorem blk1 (c : Dev nD) (t : Fin cfg5.N) (p : Fin 4000) (k : Fin 1) (r : Fin 500000) (hr : r.val = t.val * 4000 + p.val) :
    (iblk5 V c 1 t : Vec Ideal S4000x1 .f32) (ix2 p k) = (V c main_v94 : S500000x1.Idx → EReal) (ix2 r k) := by
  obtain ⟨-, -, e0, e1, -⟩ := idx_facts t
  unfold iblk5
  rw [View.read_apply]
  show V c main_v94 _ = V c main_v94 _
  refine congrArg (V c main_v94) (funext fun a => Fin.ext ?_)
  match a with
  | ⟨0, _⟩ => show win5_1.index t (0 : Fin 2) * 4000 + 1 * p.val = r.val; omega
  | ⟨1, _⟩ => show win5_1.index t (1 : Fin 2) * 1 + 1 * k.val = k.val; omega

/-- The features' block at point `t` holds rows `4000 t …` of the array. -/
theorem blk2 (c : Dev nD) (t : Fin cfg5.N) (p : Fin 4000) (k : Fin 32) (r : Fin 500000) (hr : r.val = t.val * 4000 + p.val) :
    (iblk5 V c 2 t : Vec Ideal S4000x32 .f32) (ix2 p k) = (V c main_v57 : S500000x32.Idx → EReal) (ix2 r k) := by
  obtain ⟨-, -, -, -, e0, e1, -⟩ := idx_facts t
  unfold iblk5
  rw [View.read_apply]
  show V c main_v57 _ = V c main_v57 _
  refine congrArg (V c main_v57) (funext fun a => Fin.ext ?_)
  match a with
  | ⟨0, _⟩ => show win5_2.index t (0 : Fin 2) * 4000 + 1 * p.val = r.val; omega
  | ⟨1, _⟩ => show win5_2.index t (1 : Fin 2) * 32 + 1 * k.val = k.val; omega

/-- The left weights' block at every point is the whole matrix. -/
theorem blk3 (c : Dev nD) (t : Fin cfg5.N) (k : Fin 32) (q : Fin 16) :
    (iblk5 V c 3 t : Vec Ideal S32x16 .f32) (ix2 k q) = (V c main_v91 : S32x16.Idx → EReal) (ix2 k q) := by
  obtain ⟨-, -, -, -, -, -, e0, e1, -⟩ := idx_facts t
  unfold iblk5
  rw [View.read_apply]
  show V c main_v91 _ = V c main_v91 _
  refine congrArg (V c main_v91) (funext fun a => Fin.ext ?_)
  match a with
  | ⟨0, _⟩ => show win5_3.index t (0 : Fin 2) * 32 + 1 * k.val = k.val; omega
  | ⟨1, _⟩ => show win5_3.index t (1 : Fin 2) * 16 + 1 * q.val = q.val; omega

/-- The bias row's block at every point is the whole row. -/
theorem blk4 (c : Dev nD) (t : Fin cfg5.N) (k : Fin 1) (q : Fin 16) :
    (iblk5 V c 4 t : Vec Ideal S1x16 .f32) (ix2 k q) = (V c main_v93 : S1x16.Idx → EReal) (ix2 k q) := by
  obtain ⟨-, -, -, -, -, -, -, -, e0, e1, -⟩ := idx_facts t
  unfold iblk5
  rw [View.read_apply]
  show V c main_v93 _ = V c main_v93 _
  refine congrArg (V c main_v93) (funext fun a => Fin.ext ?_)
  match a with
  | ⟨0, _⟩ => show win5_4.index t (0 : Fin 2) * 1 + 1 * k.val = k.val; omega
  | ⟨1, _⟩ => show win5_4.index t (1 : Fin 2) * 16 + 1 * q.val = q.val; omega

/-- The right weights' block at every point is the whole matrix. -/
theorem blk5 (c : Dev nD) (t : Fin cfg5.N) (k : Fin 32) (q : Fin 16) :
    (iblk5 V c 5 t : Vec Ideal S32x16 .f32) (ix2 k q) = (V c main_v92 : S32x16.Idx → EReal) (ix2 k q) := by
  obtain ⟨-, -, -, -, -, -, -, -, -, -, e0, e1, -⟩ := idx_facts t
  unfold iblk5
  rw [View.read_apply]
  show V c main_v92 _ = V c main_v92 _
  refine congrArg (V c main_v92) (funext fun a => Fin.ext ?_)
  match a with
  | ⟨0, _⟩ => show win5_5.index t (0 : Fin 2) * 32 + 1 * k.val = k.val; omega
  | ⟨1, _⟩ => show win5_5.index t (1 : Fin 2) * 16 + 1 * q.val = q.val; omega

/-- WHAT POINT `t` WRITES BACK is block `t` of the host's composition of the arrays as the region finds them: entry
    `(p, q)` of the block is entry `(4000 t + p, q)` of the array, and the body reads exactly that row of the aggregate,
    of the count and of the features. -/
theorem flushed_eq (c : Dev nD) (cnt : FVec Ideal S500000 .f32) (b : FVec Ideal S16 .f32)
    (hcnt : V c main_v94 = shapeCast S500000x1 cnt shapeCasts_S500000_S500000x1)
    (hb : V c main_v93 = shapeCast S1x16 b shapeCasts_S16_S1x16) (t : Fin cfg5.N) :
    (dat5 (F := Ideal) V c).flushed 6 t = ((cfg5.win 6).blk t).view.read (Elt Ideal)
      (Cert.Stage.sageU16 (V c main_v81) cnt (V c main_v57) (V c main_v91) b (V c main_v92)) := by
  show (cfg5.win 6).cut (grid5.coords t) ((dat5 V c).after 6 t) = _
  rw [after5_6]
  unfold out5_6
  rw [View.canon_unit_zero hz]
  simp only [View.ld_unit_zero (S := S4000x32) hz, View.ld_unit_zero (S := S4000x1) hz, View.ld_unit_zero (S := S32x16) hz, View.ld_unit_zero (S := S1x16) hz]
  funext y
  obtain ⟨p, q, rfl⟩ : ∃ (p : Fin 4000) (q : Fin 16), y = ix2 p q := ⟨y 0, y 1, eq_ix2 y⟩
  obtain ⟨-, -, -, -, -, -, -, -, -, -, -, -, e60, e61⟩ := idx_facts t
  have hN : cfg5.N = 125 := N_5
  have hr : t.val * 4000 + p.val < 500000 := by have := t.isLt; have := p.isLt; omega
  have hemb : ((cfg5.win 6).blk t).view.emb (ix2 p q) = ix2 (⟨t.val * 4000 + p.val, hr⟩ : Fin 500000) q := funext fun a => Fin.ext (by
    match a with
    | ⟨0, _⟩ => show win5_6.index t (0 : Fin 2) * 4000 + 1 * p.val = t.val * 4000 + p.val; omega
    | ⟨1, _⟩ => show win5_6.index t (1 : Fin 2) * 16 + 1 * q.val = q.val; omega)
  rw [View.read_apply, hemb]
  refine (pay_apply _ _ _ _ _ _ p q).trans (Eq.trans ?_ (stage_apply _ _ _ _ _ _ ⟨_, hr⟩ q).symm)
  have h0 : (fun k : Fin 32 => (iblk5 V c 0 t : Vec Ideal S4000x32 .f32) (ix2 p k))
      = fun k => (V c main_v81 : S500000x32.Idx → EReal) (ix2 (⟨t.val * 4000 + p.val, hr⟩ : Fin 500000) k) :=
    funext fun k => blk0 V c t p k _ rfl
  have h2 : (fun k : Fin 32 => (iblk5 V c 2 t : Vec Ideal S4000x32 .f32) (ix2 p k))
      = fun k => (V c main_v57 : S500000x32.Idx → EReal) (ix2 (⟨t.val * 4000 + p.val, hr⟩ : Fin 500000) k) :=
    funext fun k => blk2 V c t p k _ rfl
  have h1 : (iblk5 V c 1 t : Vec Ideal S4000x1 .f32) (ix2 p (0 : Fin 1)) = cnt (ix1 (⟨t.val * 4000 + p.val, hr⟩ : Fin 500000)) :=
    (blk1 V c t p 0 _ rfl).trans ((congrFun hcnt _).trans (Cert.Lib.Columns.shapeCast_a_a1_apply cnt _ _ 0))
  have h3 : (fun k : Fin 32 => (iblk5 V c 3 t : Vec Ideal S32x16 .f32) (ix2 k q)) = fun k => (V c main_v91 : S32x16.Idx → EReal) (ix2 k q) :=
    funext fun k => blk3 V c t k q
  have h5 : (fun k : Fin 32 => (iblk5 V c 5 t : Vec Ideal S32x16 .f32) (ix2 k q)) = fun k => (V c main_v92 : S32x16.Idx → EReal) (ix2 k q) :=
    funext fun k => blk5 V c t k q
  have h4 : (iblk5 V c 4 t : Vec Ideal S1x16 .f32) (ix2 (0 : Fin 1) q) = b (ix1 q) :=
    (blk4 V c t 0 q).trans ((congrFun hb _).trans (Cert.Lib.Sage.shapeCast_n_1n_apply b _ 0 q))
  exact congr (congr (congr (congr (congr (congrArg entry h0) h2) h1) h3) h5) h4

end Blocks

end Sage5

section Result

variable (V : (c : Dev nD) → (b : Ref sig .tc) → Buf (Elt Ideal) ((c : Thread nD τ).loc b))

/-- THE ARRAY after the region: the host's composition of the arrays the region reads. Row `r` lies in the block of point
    `r / 4000`, so the 125 blocks tile the 500000 rows. -/
theorem arr5 (c : Dev nD) (cnt : FVec Ideal S500000 .f32) (b : FVec Ideal S16 .f32)
    (hcnt : V c main_v94 = shapeCast S500000x1 cnt shapeCasts_S500000_S500000x1)
    (hb : V c main_v93 = shapeCast S1x16 b shapeCasts_S16_S1x16) :
    (dat5 (F := Ideal) V c).arrAt 6 cfg5.N
      = Cert.Stage.sageU16 (V c main_v81) cnt (V c main_v57) (V c main_v91) b (V c main_v92) :=
  (dat5 (F := Ideal) V c).arrAt_eq_of_cover 6 _ (fun t _ => Sage5.flushed_eq V c cnt b hcnt hb t) fun i => by
    have hi0 : (i 0).val < 500000 := (i 0).isLt
    have hi1 : (i 1).val < 16 := (i 1).isLt
    have ht : (i 0).val / 4000 < cfg5.N := by rw [show cfg5.N = 125 from N_5]; omega
    obtain ⟨-, -, -, -, -, -, -, -, -, -, -, -, e60, e61⟩ := Sage5.idx_facts (⟨(i 0).val / 4000, ht⟩ : Fin cfg5.N)
    refine ⟨⟨(i 0).val / 4000, ht⟩, flush5_6 _, ?_⟩
    show i ∈ ((View.whole main_v95).slice (win5_6.rect ⟨(i 0).val / 4000, ht⟩)).set
    rw [View.set_slice_whole, Rect.mem_set_unit]
    intro a
    match a with
    | ⟨0, _⟩ =>
      show win5_6.index ⟨(i 0).val / 4000, ht⟩ (0 : Fin 2) * 4000 ≤ (i 0).val
        ∧ (i 0).val < win5_6.index ⟨(i 0).val / 4000, ht⟩ (0 : Fin 2) * 4000 + 4000
      rw [e60]; show (i 0).val / 4000 * 4000 ≤ (i 0).val ∧ (i 0).val < (i 0).val / 4000 * 4000 + 4000; omega
    | ⟨1, _⟩ =>
      show win5_6.index ⟨(i 0).val / 4000, ht⟩ (1 : Fin 2) * 16 ≤ (i 1).val
        ∧ (i 1).val < win5_6.index ⟨(i 0).val / 4000, ht⟩ (1 : Fin 2) * 16 + 16
      rw [e61]; omega

end Result

end Cert.KernelIdeal.Region

end
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibIdx3.lean ====
/-
  A rank-3 index set is the product of its three coordinate ranges, so a sum over the indices of a rank-3 array is the
  triple sum over its coordinates at `ix3`.  (The rank-2 form, `sum_idx2`, is in the library's Lib/ValueIdx.lean.)
  And two ways of taking a largest entry agree: a fold of `max` from the least extended real over a finite index type
  is the supremum of the family, a supremum over the rows' suprema is the supremum over all pairs, and a supremum over
  the row-major positions `r · m + c` of an n × m table is the supremum over the pairs `(r, c)`.
-/
import Idealize.ShloMosaic.Lib.ValueIdx
import Mathlib.Data.EReal.Basic
import Mathlib.Order.CompleteLattice.Finset
import Mathlib.Logic.Equiv.Fin.Basic

noncomputable section

namespace Cert.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A fold of `max` from the least extended real over a whole finite index type is the family's supremum. -/
theorem fold_max_bot {ι : Type*} [Fintype ι] (f : ι → EReal) :
    (Finset.univ : Finset ι).fold max ⊥ f = ⨆ k, f k := by
  rw [← Finset.sup_univ_eq_iSup]
  rfl

/-- The row-major position of the pair `(r, c)` in an n × m table. -/
def pos {n m : Nat} (N : Nat) (h : N = n * m) (r : Fin n) (c : Fin m) : Fin N :=
  ⟨r.val * m + c.val, by
    have hr := r.isLt; have hc := c.isLt
    calc r.val * m + c.val < r.val * m + m := by omega
      _ = (r.val + 1) * m := by rw [Nat.add_mul, Nat.one_mul]
      _ ≤ n * m := Nat.mul_le_mul_right m hr
      _ = N := h.symm⟩

/-- The pairs `(r, c)` and the row-major positions of an n × m table correspond one to one. -/
def posEquiv {n m : Nat} (N : Nat) (h : N = n * m) (hm : 0 < m) : Fin n × Fin m ≃ Fin N where
  toFun p := pos N h p.1 p.2
  invFun k := (⟨k.val / m, by
      have hk : k.val < n * m := h ▸ k.isLt
      exact Nat.div_lt_of_lt_mul (by rwa [Nat.mul_comm] at hk)⟩, ⟨k.val % m, Nat.mod_lt _ hm⟩)
  left_inv p := by
    obtain ⟨r, c⟩ := p
    have hc := c.isLt
    refine Prod.ext (Fin.ext ?_) (Fin.ext ?_)
    · show (r.val * m + c.val) / m = r.val
      rw [Nat.mul_comm, Nat.mul_add_div hm, Nat.div_eq_of_lt hc, Nat.add_zero]
    · show (r.val * m + c.val) % m = c.val
      rw [Nat.mul_comm, Nat.mul_add_mod, Nat.mod_eq_of_lt hc]
  right_inv k := Fin.ext (by
    show k.val / m * m + k.val % m = k.val
    rw [Nat.mul_comm]; exact Nat.div_add_mod _ _)

/-- A supremum over the row-major positions of an n × m table is the supremum over rows of the rows' suprema. -/
theorem iSup_pos {α : Type*} [CompleteLattice α] {n m : Nat} (N : Nat) (h : N = n * m) (hm : 0 < m) (F : Fin N → α) :
    (⨆ k : Fin N, F k) = ⨆ (r : Fin n) (c : Fin m), F (pos N h r c) := by
  rw [← (posEquiv N h hm).iSup_comp (g := F), iSup_prod]
  rfl

end Cert.Idx3

end
-- ==== Proof.LibAxisReduce.lean ====
/-
  One-axis reductions of a matrix of extended reals, read at coordinates.  Over the columns (axis 1) of an m × n matrix,
  entry p of the sum is the sum over c of the entries (p, c), and entry p of the maximum taken from minus infinity is
  the supremum over c of the entries (p, c); over the rows (axis 0), entry t gathers the entries (r, t) in the same
  two ways.  The accumulator's hypothesis is stated of the literal word, as a printed program's own evidence is.
-/
import Idealize.ShloMosaic.PureOps.Ideal.Laws
import Idealize.ShloMosaic.Lib.ValueIdx
import proofs.«109484_j27015344292445_2_alg».proof.Proof.LibLift2
import proofs.«109484_j27015344292445_2_alg».proof.Proof.LibIdx3

noncomputable section

namespace Cert.AxisReduce

open Idealize.ShloMosaic Idealize.ShloMosaic.ValueIdx Cert.Lift2 Cert.Idx3

/-- The word of minus infinity denotes the least extended real. -/
theorem ofBits_neg_inf : Ideal.ofBits .f32 0xFF800000#32 = (⊥ : EReal) := by
  simp [Ideal.ofBits, Ideal.ieee]

/-- A fold of `max` from the word of minus infinity over a whole finite index type is the family's supremum. -/
theorem fold_max_neg_inf {ι : Type*} [Fintype ι] (f : ι → EReal) :
    (Finset.univ : Finset ι).fold max (FloatOps.ofBits (F := Ideal) .f32 0xFF800000#32) f = ⨆ k, f k := by
  rw [Ideal.ofBits_def, ofBits_neg_inf]
  exact fold_max_bot f

/-- Entry `p` of the sum over the columns is the sum of row `p`. -/
theorem rowSum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) v 0x00000000#32 h hφ hacc (ix1 p) = ∑ c : Fin n, v (ix2 p c) := by
  refine (Ideal.multiReduction_add_single v 0x00000000#32 h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_apply {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (t : Fin n) :
    multiReduction .add [0] (⟨1, ![n]⟩ : Shape) v 0x00000000#32 h hφ hacc (ix1 t) = ∑ r : Fin m, v (ix2 r t) := by
  refine (Ideal.multiReduction_add_single v 0x00000000#32 h hφ hacc (ix1 t)).trans ?_
  show ∑ k : Fin m, v (h.lift (ix1 t) k) = _
  exact Finset.sum_congr rfl fun k _ => congrArg v (lift_axis0 h t k)

/-- Entry `p` of the maximum over the columns, taken from minus infinity, is the supremum of row `p`. -/
theorem rowMax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = 0xFF800000#32) (p : Fin m) :
    multiReduction .maximumf [1] (⟨1, ![m]⟩ : Shape) v 0xFF800000#32 h hφ hacc (ix1 p) = ⨆ c : Fin n, v (ix2 p c) := by
  refine (Ideal.multiReduction_maximumf_single v 0xFF800000#32 h hφ hacc (ix1 p)).trans ?_
  refine (fold_max_neg_inf _).trans ?_
  exact iSup_congr fun k => congrArg v (lift_axis1 h p k)

/-- Entry `t` of the maximum over the rows, taken from minus infinity, is the supremum of column `t`. -/
theorem colMax_apply {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = 0xFF800000#32) (t : Fin n) :
    multiReduction .maximumf [0] (⟨1, ![n]⟩ : Shape) v 0xFF800000#32 h hφ hacc (ix1 t) = ⨆ r : Fin m, v (ix2 r t) := by
  refine (Ideal.multiReduction_maximumf_single v 0xFF800000#32 h hφ hacc (ix1 t)).trans ?_
  refine (fold_max_neg_inf _).trans ?_
  exact iSup_congr fun k => congrArg v (lift_axis0 h t k)

end Cert.AxisReduce

end
-- ==== Proof.LibHostAxisMax.lean ====
/-
  The host's reduce with a maximum body along one axis of a matrix, started from -∞, read at an index: the supremum of
  the row (reducing axis 1) or of the column (reducing axis 0). The reduced index with the dropped coordinate put back
  is the pair (row, column); the fold of max from -∞ over the dropped axis's coordinates is their supremum.
-/
import Idealize.ShloMosaic.PureOps.Ideal.Laws
import Idealize.ShloMosaic.Lib.ValueIdx
import proofs.«109484_j27015344292445_2_alg».proof.Proof.LibIdx3

noncomputable section

namespace Cert.Lib.HostAxisMax

open Idealize.ShloMosaic Idealize.ShloMosaic.ValueIdx

/-- Reducing axis 1: the reduced index `i` with column `k` put back is `(i, k)`. -/
theorem lift_row {m n : Nat} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Reducing axis 0: the reduced index `j` with row `k` put back is `(k, j)`. -/
theorem lift_col {m n : Nat} (h : (⟨2, ![m, n]⟩ : Shape).Reduces [0] (⟨1, ![n]⟩ : Shape)) (j : Fin n)
    (k : Fin ((⟨2, ![m, n]⟩ : Shape).size 0)) : h.lift (ix1 j) k = ix2 (⟨k.val, k.isLt⟩ : Fin m) j := by
  funext c; apply Fin.ext
  fin_cases c <;> rfl

/-- From -∞ the host's reduce with a maximum body over axis 1, at row `i`, is the supremum of the row. -/
theorem hostReduce_max_rows {m n : Nat} (x : FVec Ideal ⟨2, ![m, n]⟩ .f32) (init : (⟨0, ![]⟩ : Shape).Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (hinit : init (Shape.Idx.first hu) = (⊥ : EReal)) (i : Fin m) :
    Host.reduce FloatOps.maximumf x init h' hu (ix1 i) = ⨆ j : Fin n, x (ix2 i j) := by
  rw [Host.reduce_eq_fold_single FloatOps.maximumf x init h' h hu, hinit]
  have hf : (x ∘ h.lift (ix1 i)) = fun k : Fin n => x (ix2 i k) := funext fun k => congrArg x (lift_row h i k)
  show (Finset.univ : Finset (Fin n)).fold max (⊥ : EReal) (x ∘ h.lift (ix1 i)) = _
  rw [hf]
  exact Cert.Idx3.fold_max_bot _

/-- From -∞ the host's reduce with a maximum body over axis 0, at column `j`, is the supremum of the column. -/
theorem hostReduce_max_cols {m n : Nat} (x : FVec Ideal ⟨2, ![m, n]⟩ .f32) (init : (⟨0, ![]⟩ : Shape).Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < (⟨0, ![]⟩ : Shape).numel) (hinit : init (Shape.Idx.first hu) = (⊥ : EReal)) (j : Fin n) :
    Host.reduce FloatOps.maximumf x init h' hu (ix1 j) = ⨆ k : Fin m, x (ix2 k j) := by
  rw [Host.reduce_eq_fold_single FloatOps.maximumf x init h' h hu, hinit]
  have hf : (x ∘ h.lift (ix1 j)) = fun k : Fin m => x (ix2 k j) := funext fun k => congrArg x (lift_col h j k)
  show (Finset.univ : Finset (Fin m)).fold max (⊥ : EReal) (x ∘ h.lift (ix1 j)) = _
  rw [hf]
  exact Cert.Idx3.fold_max_bot _

end Cert.Lib.HostAxisMax

end
-- ==== Proof.LibHostAxisSum.lean ====
/-
  The host's reduce with an addition body along the columns (axis 1) of a matrix, started from zero, read at an index: the
  sum of the row. The host's sum is the initial value plus the sum over the dropped axis's coordinates of the entries
  with that coordinate put back, and the reduced index `i` with column `k` put back is the pair `(i, k)`.
-/
import Idealize.ShloMosaic.PureOps.Ideal.Laws
import Idealize.ShloMosaic.Lib.ValueIdx
import Idealize.ShloMosaic.Lib.IdealHost
import proofs.«109484_j27015344292445_2_alg».proof.Proof.LibHostAxisMax

noncomputable section

namespace Cert.Lib.HostAxisSum

open Idealize.ShloMosaic Idealize.ShloMosaic.ValueIdx

/-- From zero the host's reduce with an addition body over axis 1, at row `i`, is the sum of the row. -/
theorem hostReduceAdd_rows {m n : Nat} (x : FVec Ideal ⟨2, ![m, n]⟩ .f32) (init : (⟨0, ![]⟩ : Shape).Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (hinit : init (Shape.Idx.first hu) = (0 : EReal)) (i : Fin m) :
    Host.reduceAdd x init h' hu (ix1 i) = ∑ j : Fin n, x (ix2 i j) := by
  rw [hostReduceAdd_apply, Ideal.hostReduceAdd_single h' h, hinit, zero_add]
  show ∑ k : Fin n, x (h.lift (ix1 i) k) = _
  exact Finset.sum_congr rfl fun k _ => congrArg x (Cert.Lib.HostAxisMax.lift_row h i k)

end Cert.Lib.HostAxisSum

end
-- ==== Proof.Decode.lean ====
/-
  The decoder region, as ONE whole-array function of the two arrays it reads.

  After its 125 grid points the region's output column holds, at row `r`, the inner product `∑_d a(r, d) · b(r, d)` of the
  two operands' rows `r` — the host's own row sum of the elementwise product, kept as a column: every point's block holds
  rows `4000 t … 4000 t + 3999`, and the 125 blocks tile the 500000 rows.
-/
import proofs.«109484_j27015344292445_2_alg».proof.Proof.Interface
import proofs.«109484_j27015344292445_2_alg».proof.Proof.LibAxisReduce
import proofs.«109484_j27015344292445_2_alg».proof.Proof.LibHostAxisSum
import proofs.«109484_j27015344292445_2_alg».proof.Proof.LibColumns
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

namespace Decode

theorem hz : (![0, 0] : Fin 2 → Nat) = fun _ => 0 := funext fun a => by fin_cases a <;> rfl

/-- The body's payload at row `p` of its block: the inner product of the two blocks' rows `p`. -/
theorem pay_apply (v0 v2 : Vec Ideal S4000x16 .f32) (p : Fin 4000) (z : Fin 1) :
    k6_pay1 (F := Ideal) v0 v2 (ix2 p z) = ∑ d : Fin 16, v0 (ix2 p d) * v2 (ix2 p d) := by
  unfold k6_pay1
  dsimp only
  refine (Cert.Lib.Columns.shapeCast_a_a1_apply _ _ p z).trans ?_
  refine (Cert.AxisReduce.rowSum_apply _ _ _ _ p).trans ?_
  simp only [shapeCast_self]
  rfl

/-- The host's row-wise inner product at row `r`. -/
theorem stage_apply (a b : FVec Ideal Cert.ReferenceIdeal.S500000x16 .f32) (r : Fin 500000) :
    Cert.Stage.decode a b (ix1 r) = ∑ d : Fin 16, a (ix2 r d) * b (ix2 r d) := by
  unfold Cert.Stage.decode
  refine (Cert.Lib.HostAxisSum.hostReduceAdd_rows _ _ _ (by decide) _ ?_ r).trans rfl
  exact Ideal.ofBits_zero_f32

section Blocks

variable (V : (c : Dev nD) → (b : Ref sig .tc) → Buf (Elt Ideal) ((c : Thread nD τ).loc b))

/-- The printed index maps over the grid: all three windows move with the point along the rows. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The first operand's block at point `t` holds rows `4000 t …` of the array. -/
theorem blk0 (c : Dev nD) (t : Fin cfg6.N) (p : Fin 4000) (k : Fin 16) (r : Fin 500000) (hr : r.val = t.val * 4000 + p.val) :
    (iblk6 V c 0 t : Vec Ideal S4000x16 .f32) (ix2 p k) = (V c main_v102 : S500000x16.Idx → EReal) (ix2 r k) := by
  obtain ⟨e0, e1, -⟩ := idx_facts t
  unfold iblk6
  rw [View.read_apply]
  show V c main_v102 _ = V c main_v102 _
  refine congrArg (V c main_v102) (funext fun a => Fin.ext ?_)
  match a with
  | ⟨0, _⟩ => show win6_0.index t (0 : Fin 2) * 4000 + 1 * p.val = r.val; omega
  | ⟨1, _⟩ => show win6_0.index t (1 : Fin 2) * 16 + 1 * k.val = k.val; omega

/-- The second operand's block at point `t` holds rows `4000 t …` of the array. -/
theorem blk1 (c : Dev nD) (t : Fin cfg6.N) (p : Fin 4000) (k : Fin 16) (r : Fin 500000) (hr : r.val = t.val * 4000 + p.val) :
    (iblk6 V c 1 t : Vec Ideal S4000x16 .f32) (ix2 p k) = (V c main_v109 : S500000x16.Idx → EReal) (ix2 r k) := by
  obtain ⟨-, -, e0, e1, -⟩ := idx_facts t
  unfold iblk6
  rw [View.read_apply]
  show V c main_v109 _ = V c main_v109 _
  refine congrArg (V c main_v109) (funext fun a => Fin.ext ?_)
  match a with
  | ⟨0, _⟩ => show win6_1.index t (0 : Fin 2) * 4000 + 1 * p.val = r.val; omega
  | ⟨1, _⟩ => show win6_1.index t (1 : Fin 2) * 16 + 1 * k.val = k.val; omega

/-- WHAT POINT `t` WRITES BACK is block `t` of the column of row-wise inner products: entry `(p, 0)` of the block is
    entry `4000 t + p` of the column, and the body reads exactly that row of both operands. -/
theorem flushed_eq (c : Dev nD) (t : Fin cfg6.N) :
    (dat6 (F := Ideal) V c).flushed 2 t = ((cfg6.win 2).blk t).view.read (Elt Ideal)
      (shapeCast S500000x1 (Cert.Stage.decode (V c main_v102) (V c main_v109)) shapeCasts_S500000_S500000x1) := by
  show (cfg6.win 2).cut (grid6.coords t) ((dat6 V c).after 2 t) = _
  rw [after6_2]
  unfold out6_2
  rw [View.canon_unit_zero hz]
  simp only [View.ld_unit_zero (S := S4000x16) hz]
  funext y
  obtain ⟨p, z, rfl⟩ : ∃ (p : Fin 4000) (z : Fin 1), y = ix2 p z := ⟨y 0, y 1, eq_ix2 y⟩
  obtain ⟨-, -, -, -, e20, e21⟩ := idx_facts t
  have hN : cfg6.N = 125 := N_6
  have hr : t.val * 4000 + p.val < 500000 := by have := t.isLt; have := p.isLt; omega
  have hemb : ((cfg6.win 2).blk t).view.emb (ix2 p z) = ix2 (⟨t.val * 4000 + p.val, hr⟩ : Fin 500000) z := funext fun a => Fin.ext (by
    match a with
    | ⟨0, _⟩ => show win6_2.index t (0 : Fin 2) * 4000 + 1 * p.val = t.val * 4000 + p.val; omega
    | ⟨1, _⟩ => show win6_2.index t (1 : Fin 2) * 1 + 1 * z.val = z.val; omega)
  rw [View.read_apply, hemb]
  refine (pay_apply _ _ p z).trans (Eq.trans ?_ ((Cert.Lib.Columns.shapeCast_a_a1_apply _ _ _ z).trans (stage_apply _ _ ⟨_, hr⟩)).symm)
  exact Finset.sum_congr rfl fun d _ => congrArg₂ (· * ·) (blk0 V c t p d _ rfl) (blk1 V c t p d _ rfl)

end Blocks

end Decode

/-- THE ARRAY after the last region: the column of row-wise inner products of the two arrays the region reads. Row `r`
    lies in the block of point `r / 4000`, so the 125 blocks tile the 500000 rows. -/
theorem arr6 : Arr6 := fun V c =>
  (dat6 (F := Ideal) V c).arrAt_eq_of_cover 2 _ (fun t _ => Decode.flushed_eq V c t) fun i => by
    have hi0 : (i 0).val < 500000 := (i 0).isLt
    have hi1 : (i 1).val < 1 := (i 1).isLt
    have ht : (i 0).val / 4000 < cfg6.N := by rw [show cfg6.N = 125 from N_6]; omega
    obtain ⟨-, -, -, -, e20, e21⟩ := Decode.idx_facts (⟨(i 0).val / 4000, ht⟩ : Fin cfg6.N)
    refine ⟨⟨(i 0).val / 4000, ht⟩, flush6_2 _, ?_⟩
    show i ∈ ((View.whole main_v110).slice (win6_2.rect ⟨(i 0).val / 4000, ht⟩)).set
    rw [View.set_slice_whole, Rect.mem_set_unit]
    intro a
    match a with
    | ⟨0, _⟩ =>
      show win6_2.index ⟨(i 0).val / 4000, ht⟩ (0 : Fin 2) * 4000 ≤ (i 0).val
        ∧ (i 0).val < win6_2.index ⟨(i 0).val / 4000, ht⟩ (0 : Fin 2) * 4000 + 4000
      rw [e20]; show (i 0).val / 4000 * 4000 ≤ (i 0).val ∧ (i 0).val < (i 0).val / 4000 * 4000 + 4000; omega
    | ⟨1, _⟩ =>
      show win6_2.index ⟨(i 0).val / 4000, ht⟩ (1 : Fin 2) * 1 ≤ (i 1).val
        ∧ (i 1).val < win6_2.index ⟨(i 0).val / 4000, ht⟩ (1 : Fin 2) * 1 + 1
      rw [e21]; omega

end Cert.KernelIdeal.Region

end
-- ==== Proof.RunValue.lean ====
/- The run of @main with the result read.

   From any memory with zero counters every weakly fair execution of @main on the TensorCores terminates without a fault,
   and in every final state each unscoped buffer holds the contents of the last segment boundary, `W15`.  Of these the
   statement keeps the result's buffer `main_v111` and the argument arrays; an argument array holds at `W15` what it
   held at launch, since no segment writes it. -/
import proofs.«109484_j27015344292445_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of @main on the TensorCores terminates, nothing
    faulting; every final state holds, in the result's buffer, the last boundary's contents `W15 … main_v111`, and
    has the argument arrays as launched. -/
theorem run_value : θ_run defs (onTc (τ := τ) (main (F := F))) ⟨m, fun _ => 0, ρ⟩ (fun r => ∀ c : Dev nD,
      r.2.mem ((c.tc : Thread nD τ).loc main_v111) = W15 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v111 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c)⟩)

end Cert.KernelIdeal.Chain

end
-- ==== Proof.ChainKeep.lean ====
/- Which buffers each stretch of host operations writes, and hence: a buffer that a stretch does not write, and a
   buffer that is not one of a region's arrays, holds after the segment what it held before. -/
import proofs.«109484_j27015344292445_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem

variable {F : FTy → Type} [FloatOps F]

/-! ## What the host stretches write -/

/-- The buffers that the operations of `hostOps0` write, in order. -/
abbrev hostOps0_W : List (Ref sig .tc) := [main_c, main_v0, main_v1, main_c_0, main_v2, main_v3, main_v4, main_v5, main_v6, main_c_1, main_v7, main_v8, main_c_2, main_v9, main_v10, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps1` write, in order. -/
abbrev hostOps1_W : List (Ref sig .tc) := [main_v17, main_v18]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps2` write, in order. -/
abbrev hostOps2_W : List (Ref sig .tc) := [main_c_3, main_v20, main_v21, main_c_4, main_v22, main_v23, main_v24, main_v25, main_v26, main_cst, main_v27, main_v28, main_v29, main_cst_5, main_v30, main_cst_6, main_v31, main_v32, main_v33, main_c_7, main_v34, main_v35, main_c_8, main_v36, main_v37, main_v38, main_v39, main_v40, main_cst_9, main_v41, main_v42, main_v43, main_cst_10, main_v44, main_cst_11, main_v45, main_v46, main_v47, main_v48, main_v49, main_v50, main_v51]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps3` write, in order. -/
abbrev hostOps3_W : List (Ref sig .tc) := [main_v53, main_v54, main_v55, main_v56]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps4` write, in order. -/
abbrev hostOps4_W : List (Ref sig .tc) := [main_c_12, main_v58, main_v59, main_c_13, main_v60, main_v61, main_v62, main_v63, main_v64, main_cst_14, main_v65, main_v66, main_v67, main_cst_15, main_v68, main_cst_16, main_v69, main_v70, main_v71, main_c_17, main_v72, main_v73, main_c_18, main_v74, main_v75, main_v76, main_v77, main_v78, main_cst_19, main_v79, main_v80, main_v81, main_cst_20, main_v82, main_cst_21, main_v83, main_v84, main_v85, main_v86, main_v87, main_v88, main_v89]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps5` write, in order. -/
abbrev hostOps5_W : List (Ref sig .tc) := [main_v91, main_v92, main_v93, main_v94]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps6` write, in order. -/
abbrev hostOps6_W : List (Ref sig .tc) := [main_c_22, main_v96, main_v97, main_c_23, main_v98, main_v99, main_v100, main_v101, main_v102, main_c_24, main_v103, main_v104, main_c_25, main_v105, main_v106, main_v107, main_v108, main_v109]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The buffers that the operations of `hostOps7` write, in order. -/
abbrev hostOps7_W : List (Ref sig .tc) := [main_v111]
theorem hostOps7_writes : (hostOps7 : List (HloOp τ sig (Elt F))).Forall fun op => op.writes ⊆ (hostOps7_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each segment leaves unchanged -/

variable (m : (ℓ : Loc nD τ sig) → Buf (Elt F) ℓ) (ρ : Dev nD → PrngReg)

/-- The launch contents of a buffer of core `c` (used at the arguments of @main). -/
abbrev arg (c : Dev nD) (b : Ref sig .tc) : Buf (Elt F) ((c.tc : Thread nD τ).loc b) := m ((c.tc : Thread nD τ).loc b)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h

theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h

theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h

theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h

end Cert.KernelIdeal.Chain

end
-- ==== Proof.ChainA.lean ====
/- The buffers of @main at the first four segment boundaries (the embedding look-ups, the transposed weights, the bias
   rows; the two feature-fusion regions), each as the reference program's value at the launch arguments.
   A host value is read off the stretch's operations; a region's output off the region's statement; a buffer that a
   segment does not write is carried over from the boundary before. -/
import proofs.«109484_j27015344292445_2_alg».proof.Proof.Interface
import proofs.«109484_j27015344292445_2_alg».proof.Proof.ChainKeep
import proofs.«109484_j27015344292445_2_alg».proof.Proof.Gen.ReferenceIdeal.Read
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## Boundary 1 -/

theorem W1_arg0  (c : Dev nD) :
    W1 m ρ c (Proc.devRef .tc main_arg0) = (arg m c main_arg0) :=
  W1_keep m ρ c main_arg0 (by decide)

theorem W1_v6  (c : Dev nD) :
    W1 m ρ c (Proc.devRef .tc main_v6) = (Cert.ReferenceIdeal.Read.val_main_v6 (F := Ideal) (arg m c main_arg2) (arg m c main_arg20)) := by
  show StableHlo.after hostOps0 _ (Proc.devRef .tc main_v6) = _
  after_results_simp
  rfl

theorem W1_v14  (c : Dev nD) :
    W1 m ρ c (Proc.devRef .tc main_v14) = (Cert.ReferenceIdeal.Read.val_main_v7 (F := Ideal) (arg m c main_arg4)) := by
  show StableHlo.after hostOps0 _ (Proc.devRef .tc main_v14) = _
  after_results_simp
  rfl

theorem W1_v15  (c : Dev nD) :
    W1 m ρ c (Proc.devRef .tc main_v15) = (shapeCast S1x16 (arg m c main_arg5) shapeCasts_S16_S1x16) := by
  show StableHlo.after hostOps0 _ (Proc.devRef .tc main_v15) = _
  after_results_simp
  rfl

theorem W1_arg6  (c : Dev nD) :
    W1 m ρ c (Proc.devRef .tc main_arg6) = (arg m c main_arg6) :=
  W1_keep m ρ c main_arg6 (by decide)

theorem W1_arg7  (c : Dev nD) :
    W1 m ρ c (Proc.devRef .tc main_arg7) = (arg m c main_arg7) :=
  W1_keep m ρ c main_arg7 (by decide)

theorem W1_arg1  (c : Dev nD) :
    W1 m ρ c (Proc.devRef .tc main_arg1) = (arg m c main_arg1) :=
  W1_keep m ρ c main_arg1 (by decide)

theorem W1_v13  (c : Dev nD) :
    W1 m ρ c (Proc.devRef .tc main_v13) = (Cert.ReferenceIdeal.Read.val_main_v19 (F := Ideal) (arg m c main_arg3) (arg m c main_arg21)) := by
  show StableHlo.after hostOps0 _ (Proc.devRef .tc main_v13) = _
  after_results_simp
  rfl

theorem W1_arg22  (c : Dev nD) :
    W1 m ρ c (Proc.devRef .tc main_arg22) = (arg m c main_arg22) :=
  W1_keep m ρ c main_arg22 (by decide)

theorem W1_arg23  (c : Dev nD) :
    W1 m ρ c (Proc.devRef .tc main_arg23) = (arg m c main_arg23) :=
  W1_keep m ρ c main_arg23 (by decide)

theorem W1_arg8  (c : Dev nD) :
    W1 m ρ c (Proc.devRef .tc main_arg8) = (arg m c main_arg8) :=
  W1_keep m ρ c main_arg8 (by decide)

theorem W1_arg10  (c : Dev nD) :
    W1 m ρ c (Proc.devRef .tc main_arg10) = (arg m c main_arg10) :=
  W1_keep m ρ c main_arg10 (by decide)

theorem W1_arg9  (c : Dev nD) :
    W1 m ρ c (Proc.devRef .tc main_arg9) = (arg m c main_arg9) :=
  W1_keep m ρ c main_arg9 (by decide)

theorem W1_arg11  (c : Dev nD) :
    W1 m ρ c (Proc.devRef .tc main_arg11) = (arg m c main_arg11) :=
  W1_keep m ρ c main_arg11 (by decide)

theorem W1_arg13  (c : Dev nD) :
    W1 m ρ c (Proc.devRef .tc main_arg13) = (arg m c main_arg13) :=
  W1_keep m ρ c main_arg13 (by decide)

theorem W1_arg12  (c : Dev nD) :
    W1 m ρ c (Proc.devRef .tc main_arg12) = (arg m c main_arg12) :=
  W1_keep m ρ c main_arg12 (by decide)

theorem W1_arg14  (c : Dev nD) :
    W1 m ρ c (Proc.devRef .tc main_arg14) = (arg m c main_arg14) :=
  W1_keep m ρ c main_arg14 (by decide)

theorem W1_arg16  (c : Dev nD) :
    W1 m ρ c (Proc.devRef .tc main_arg16) = (arg m c main_arg16) :=
  W1_keep m ρ c main_arg16 (by decide)

theorem W1_arg15  (c : Dev nD) :
    W1 m ρ c (Proc.devRef .tc main_arg15) = (arg m c main_arg15) :=
  W1_keep m ρ c main_arg15 (by decide)

theorem W1_arg17  (c : Dev nD) :
    W1 m ρ c (Proc.devRef .tc main_arg17) = (arg m c main_arg17) :=
  W1_keep m ρ c main_arg17 (by decide)

theorem W1_arg19  (c : Dev nD) :
    W1 m ρ c (Proc.devRef .tc main_arg19) = (arg m c main_arg19) :=
  W1_keep m ρ c main_arg19 (by decide)

theorem W1_arg18  (c : Dev nD) :
    W1 m ρ c (Proc.devRef .tc main_arg18) = (arg m c main_arg18) :=
  W1_keep m ρ c main_arg18 (by decide)

theorem W1_arg24  (c : Dev nD) :
    W1 m ρ c (Proc.devRef .tc main_arg24) = (arg m c main_arg24) :=
  W1_keep m ρ c main_arg24 (by decide)

theorem W1_arg25  (c : Dev nD) :
    W1 m ρ c (Proc.devRef .tc main_arg25) = (arg m c main_arg25) :=
  W1_keep m ρ c main_arg25 (by decide)

/-! ## Boundary 2 -/

theorem W2_arg6  (c : Dev nD) :
    W2 m ρ c (Proc.devRef .tc main_arg6) = (arg m c main_arg6) :=
  (W2_of_ne m ρ c main_arg6 (by decide)).trans (W1_arg6 m ρ c)

theorem W2_arg7  (c : Dev nD) :
    W2 m ρ c (Proc.devRef .tc main_arg7) = (arg m c main_arg7) :=
  (W2_of_ne m ρ c main_arg7 (by decide)).trans (W1_arg7 m ρ c)

theorem W2_arg1  (c : Dev nD) :
    W2 m ρ c (Proc.devRef .tc main_arg1) = (arg m c main_arg1) :=
  (W2_of_ne m ρ c main_arg1 (by decide)).trans (W1_arg1 m ρ c)

theorem W2_v13  (c : Dev nD) :
    W2 m ρ c (Proc.devRef .tc main_v13) = (Cert.ReferenceIdeal.Read.val_main_v19 (F := Ideal) (arg m c main_arg3) (arg m c main_arg21)) :=
  (W2_of_ne m ρ c main_v13 (by decide)).trans (W1_v13 m ρ c)

theorem W2_arg22  (c : Dev nD) :
    W2 m ρ c (Proc.devRef .tc main_arg22) = (arg m c main_arg22) :=
  (W2_of_ne m ρ c main_arg22 (by decide)).trans (W1_arg22 m ρ c)

theorem W2_arg23  (c : Dev nD) :
    W2 m ρ c (Proc.devRef .tc main_arg23) = (arg m c main_arg23) :=
  (W2_of_ne m ρ c main_arg23 (by decide)).trans (W1_arg23 m ρ c)

theorem W2_v16 (h0 : Region.Arr0) (c : Dev nD) :
    W2 m ρ c (Proc.devRef .tc main_v16) = (Cert.ReferenceIdeal.Read.val_main_v12 (F := Ideal) (arg m c main_arg0) (arg m c main_arg2) (arg m c main_arg4) (arg m c main_arg5) (arg m c main_arg20)) := by
  refine (W2_arr m ρ c 4).trans ?_
  refine (h0 (V1 m ρ) c (arg m c main_arg5) (W1_v15 m ρ c)).trans ?_
  rw [show V1 m ρ c main_arg0 = _ from W1_arg0 m ρ c,
    show V1 m ρ c main_v6 = _ from W1_v6 m ρ c,
    show V1 m ρ c main_v14 = _ from W1_v14 m ρ c]
  rfl

theorem W2_arg8  (c : Dev nD) :
    W2 m ρ c (Proc.devRef .tc main_arg8) = (arg m c main_arg8) :=
  (W2_of_ne m ρ c main_arg8 (by decide)).trans (W1_arg8 m ρ c)

theorem W2_arg10  (c : Dev nD) :
    W2 m ρ c (Proc.devRef .tc main_arg10) = (arg m c main_arg10) :=
  (W2_of_ne m ρ c main_arg10 (by decide)).trans (W1_arg10 m ρ c)

theorem W2_arg9  (c : Dev nD) :
    W2 m ρ c (Proc.devRef .tc main_arg9) = (arg m c main_arg9) :=
  (W2_of_ne m ρ c main_arg9 (by decide)).trans (W1_arg9 m ρ c)

theorem W2_arg11  (c : Dev nD) :
    W2 m ρ c (Proc.devRef .tc main_arg11) = (arg m c main_arg11) :=
  (W2_of_ne m ρ c main_arg11 (by decide)).trans (W1_arg11 m ρ c)

theorem W2_arg13  (c : Dev nD) :
    W2 m ρ c (Proc.devRef .tc main_arg13) = (arg m c main_arg13) :=
  (W2_of_ne m ρ c main_arg13 (by decide)).trans (W1_arg13 m ρ c)

theorem W2_arg12  (c : Dev nD) :
    W2 m ρ c (Proc.devRef .tc main_arg12) = (arg m c main_arg12) :=
  (W2_of_ne m ρ c main_arg12 (by decide)).trans (W1_arg12 m ρ c)

theorem W2_arg14  (c : Dev nD) :
    W2 m ρ c (Proc.devRef .tc main_arg14) = (arg m c main_arg14) :=
  (W2_of_ne m ρ c main_arg14 (by decide)).trans (W1_arg14 m ρ c)

theorem W2_arg16  (c : Dev nD) :
    W2 m ρ c (Proc.devRef .tc main_arg16) = (arg m c main_arg16) :=
  (W2_of_ne m ρ c main_arg16 (by decide)).trans (W1_arg16 m ρ c)

theorem W2_arg15  (c : Dev nD) :
    W2 m ρ c (Proc.devRef .tc main_arg15) = (arg m c main_arg15) :=
  (W2_of_ne m ρ c main_arg15 (by decide)).trans (W1_arg15 m ρ c)

theorem W2_arg17  (c : Dev nD) :
    W2 m ρ c (Proc.devRef .tc main_arg17) = (arg m c main_arg17) :=
  (W2_of_ne m ρ c main_arg17 (by decide)).trans (W1_arg17 m ρ c)

theorem W2_arg19  (c : Dev nD) :
    W2 m ρ c (Proc.devRef .tc main_arg19) = (arg m c main_arg19) :=
  (W2_of_ne m ρ c main_arg19 (by decide)).trans (W1_arg19 m ρ c)

theorem W2_arg18  (c : Dev nD) :
    W2 m ρ c (Proc.devRef .tc main_arg18) = (arg m c main_arg18) :=
  (W2_of_ne m ρ c main_arg18 (by decide)).trans (W1_arg18 m ρ c)

theorem W2_arg24  (c : Dev nD) :
    W2 m ρ c (Proc.devRef .tc main_arg24) = (arg m c main_arg24) :=
  (W2_of_ne m ρ c main_arg24 (by decide)).trans (W1_arg24 m ρ c)

theorem W2_arg25  (c : Dev nD) :
    W2 m ρ c (Proc.devRef .tc main_arg25) = (arg m c main_arg25) :=
  (W2_of_ne m ρ c main_arg25 (by decide)).trans (W1_arg25 m ρ c)

/-! ## Boundary 3 -/

theorem W3_arg1  (c : Dev nD) :
    W3 m ρ c (Proc.devRef .tc main_arg1) = (arg m c main_arg1) :=
  (W3_keep m ρ c main_arg1 (by decide)).trans (W2_arg1 m ρ c)

theorem W3_v13  (c : Dev nD) :
    W3 m ρ c (Proc.devRef .tc main_v13) = (Cert.ReferenceIdeal.Read.val_main_v19 (F := Ideal) (arg m c main_arg3) (arg m c main_arg21)) :=
  (W3_keep m ρ c main_v13 (by decide)).trans (W2_v13 m ρ c)

theorem W3_v17  (c : Dev nD) :
    W3 m ρ c (Proc.devRef .tc main_v17) = (Cert.ReferenceIdeal.Read.val_main_v20 (F := Ideal) (arg m c main_arg6)) := by
  show StableHlo.after hostOps1 _ (Proc.devRef .tc main_v17) = _
  after_results_simp
  rw [W2_arg6 m ρ c]
  rfl

theorem W3_v18  (c : Dev nD) :
    W3 m ρ c (Proc.devRef .tc main_v18) = (shapeCast S1x16 (arg m c main_arg7) shapeCasts_S16_S1x16) := by
  show StableHlo.after hostOps1 _ (Proc.devRef .tc main_v18) = _
  after_results_simp
  rw [W2_arg7 m ρ c]
  rfl

theorem W3_arg22  (c : Dev nD) :
    W3 m ρ c (Proc.devRef .tc main_arg22) = (arg m c main_arg22) :=
  (W3_keep m ρ c main_arg22 (by decide)).trans (W2_arg22 m ρ c)

theorem W3_arg23  (c : Dev nD) :
    W3 m ρ c (Proc.devRef .tc main_arg23) = (arg m c main_arg23) :=
  (W3_keep m ρ c main_arg23 (by decide)).trans (W2_arg23 m ρ c)

theorem W3_v16 (h0 : Region.Arr0) (c : Dev nD) :
    W3 m ρ c (Proc.devRef .tc main_v16) = (Cert.ReferenceIdeal.Read.val_main_v12 (F := Ideal) (arg m c main_arg0) (arg m c main_arg2) (arg m c main_arg4) (arg m c main_arg5) (arg m c main_arg20)) :=
  (W3_keep m ρ c main_v16 (by decide)).trans (W2_v16 m ρ h0 c)

theorem W3_arg8  (c : Dev nD) :
    W3 m ρ c (Proc.devRef .tc main_arg8) = (arg m c main_arg8) :=
  (W3_keep m ρ c main_arg8 (by decide)).trans (W2_arg8 m ρ c)

theorem W3_arg10  (c : Dev nD) :
    W3 m ρ c (Proc.devRef .tc main_arg10) = (arg m c main_arg10) :=
  (W3_keep m ρ c main_arg10 (by decide)).trans (W2_arg10 m ρ c)

theorem W3_arg9  (c : Dev nD) :
    W3 m ρ c (Proc.devRef .tc main_arg9) = (arg m c main_arg9) :=
  (W3_keep m ρ c main_arg9 (by decide)).trans (W2_arg9 m ρ c)

theorem W3_arg11  (c : Dev nD) :
    W3 m ρ c (Proc.devRef .tc main_arg11) = (arg m c main_arg11) :=
  (W3_keep m ρ c main_arg11 (by decide)).trans (W2_arg11 m ρ c)

theorem W3_arg13  (c : Dev nD) :
    W3 m ρ c (Proc.devRef .tc main_arg13) = (arg m c main_arg13) :=
  (W3_keep m ρ c main_arg13 (by decide)).trans (W2_arg13 m ρ c)

theorem W3_arg12  (c : Dev nD) :
    W3 m ρ c (Proc.devRef .tc main_arg12) = (arg m c main_arg12) :=
  (W3_keep m ρ c main_arg12 (by decide)).trans (W2_arg12 m ρ c)

theorem W3_arg14  (c : Dev nD) :
    W3 m ρ c (Proc.devRef .tc main_arg14) = (arg m c main_arg14) :=
  (W3_keep m ρ c main_arg14 (by decide)).trans (W2_arg14 m ρ c)

theorem W3_arg16  (c : Dev nD) :
    W3 m ρ c (Proc.devRef .tc main_arg16) = (arg m c main_arg16) :=
  (W3_keep m ρ c main_arg16 (by decide)).trans (W2_arg16 m ρ c)

theorem W3_arg15  (c : Dev nD) :
    W3 m ρ c (Proc.devRef .tc main_arg15) = (arg m c main_arg15) :=
  (W3_keep m ρ c main_arg15 (by decide)).trans (W2_arg15 m ρ c)

theorem W3_arg17  (c : Dev nD) :
    W3 m ρ c (Proc.devRef .tc main_arg17) = (arg m c main_arg17) :=
  (W3_keep m ρ c main_arg17 (by decide)).trans (W2_arg17 m ρ c)

theorem W3_arg19  (c : Dev nD) :
    W3 m ρ c (Proc.devRef .tc main_arg19) = (arg m c main_arg19) :=
  (W3_keep m ρ c main_arg19 (by decide)).trans (W2_arg19 m ρ c)

theorem W3_arg18  (c : Dev nD) :
    W3 m ρ c (Proc.devRef .tc main_arg18) = (arg m c main_arg18) :=
  (W3_keep m ρ c main_arg18 (by decide)).trans (W2_arg18 m ρ c)

theorem W3_arg24  (c : Dev nD) :
    W3 m ρ c (Proc.devRef .tc main_arg24) = (arg m c main_arg24) :=
  (W3_keep m ρ c main_arg24 (by decide)).trans (W2_arg24 m ρ c)

theorem W3_arg25  (c : Dev nD) :
    W3 m ρ c (Proc.devRef .tc main_arg25) = (arg m c main_arg25) :=
  (W3_keep m ρ c main_arg25 (by decide)).trans (W2_arg25 m ρ c)

/-! ## Boundary 4 -/

theorem W4_arg22  (c : Dev nD) :
    W4 m ρ c (Proc.devRef .tc main_arg22) = (arg m c main_arg22) :=
  (W4_of_ne m ρ c main_arg22 (by decide)).trans (W3_arg22 m ρ c)

theorem W4_arg23  (c : Dev nD) :
    W4 m ρ c (Proc.devRef .tc main_arg23) = (arg m c main_arg23) :=
  (W4_of_ne m ρ c main_arg23 (by decide)).trans (W3_arg23 m ρ c)

theorem W4_v16 (h0 : Region.Arr0) (c : Dev nD) :
    W4 m ρ c (Proc.devRef .tc main_v16) = (Cert.ReferenceIdeal.Read.val_main_v12 (F := Ideal) (arg m c main_arg0) (arg m c main_arg2) (arg m c main_arg4) (arg m c main_arg5) (arg m c main_arg20)) :=
  (W4_of_ne m ρ c main_v16 (by decide)).trans (W3_v16 m ρ h0 c)

theorem W4_v19 (h1 : Region.Arr1) (c : Dev nD) :
    W4 m ρ c (Proc.devRef .tc main_v19) = (Cert.ReferenceIdeal.Read.val_main_v25 (F := Ideal) (arg m c main_arg1) (arg m c main_arg3) (arg m c main_arg6) (arg m c main_arg7) (arg m c main_arg21)) := by
  refine (W4_arr m ρ c 4).trans ?_
  refine (h1 (V3 m ρ) c (arg m c main_arg7) (W3_v18 m ρ c)).trans ?_
  rw [show V3 m ρ c main_arg1 = _ from W3_arg1 m ρ c,
    show V3 m ρ c main_v13 = _ from W3_v13 m ρ c,
    show V3 m ρ c main_v17 = _ from W3_v17 m ρ c]
  rfl

theorem W4_arg8  (c : Dev nD) :
    W4 m ρ c (Proc.devRef .tc main_arg8) = (arg m c main_arg8) :=
  (W4_of_ne m ρ c main_arg8 (by decide)).trans (W3_arg8 m ρ c)

theorem W4_arg10  (c : Dev nD) :
    W4 m ρ c (Proc.devRef .tc main_arg10) = (arg m c main_arg10) :=
  (W4_of_ne m ρ c main_arg10 (by decide)).trans (W3_arg10 m ρ c)

theorem W4_arg9  (c : Dev nD) :
    W4 m ρ c (Proc.devRef .tc main_arg9) = (arg m c main_arg9) :=
  (W4_of_ne m ρ c main_arg9 (by decide)).trans (W3_arg9 m ρ c)

theorem W4_arg11  (c : Dev nD) :
    W4 m ρ c (Proc.devRef .tc main_arg11) = (arg m c main_arg11) :=
  (W4_of_ne m ρ c main_arg11 (by decide)).trans (W3_arg11 m ρ c)

theorem W4_arg13  (c : Dev nD) :
    W4 m ρ c (Proc.devRef .tc main_arg13) = (arg m c main_arg13) :=
  (W4_of_ne m ρ c main_arg13 (by decide)).trans (W3_arg13 m ρ c)

theorem W4_arg12  (c : Dev nD) :
    W4 m ρ c (Proc.devRef .tc main_arg12) = (arg m c main_arg12) :=
  (W4_of_ne m ρ c main_arg12 (by decide)).trans (W3_arg12 m ρ c)

theorem W4_arg14  (c : Dev nD) :
    W4 m ρ c (Proc.devRef .tc main_arg14) = (arg m c main_arg14) :=
  (W4_of_ne m ρ c main_arg14 (by decide)).trans (W3_arg14 m ρ c)

theorem W4_arg16  (c : Dev nD) :
    W4 m ρ c (Proc.devRef .tc main_arg16) = (arg m c main_arg16) :=
  (W4_of_ne m ρ c main_arg16 (by decide)).trans (W3_arg16 m ρ c)

theorem W4_arg15  (c : Dev nD) :
    W4 m ρ c (Proc.devRef .tc main_arg15) = (arg m c main_arg15) :=
  (W4_of_ne m ρ c main_arg15 (by decide)).trans (W3_arg15 m ρ c)

theorem W4_arg17  (c : Dev nD) :
    W4 m ρ c (Proc.devRef .tc main_arg17) = (arg m c main_arg17) :=
  (W4_of_ne m ρ c main_arg17 (by decide)).trans (W3_arg17 m ρ c)

theorem W4_arg19  (c : Dev nD) :
    W4 m ρ c (Proc.devRef .tc main_arg19) = (arg m c main_arg19) :=
  (W4_of_ne m ρ c main_arg19 (by decide)).trans (W3_arg19 m ρ c)

theorem W4_arg18  (c : Dev nD) :
    W4 m ρ c (Proc.devRef .tc main_arg18) = (arg m c main_arg18) :=
  (W4_of_ne m ρ c main_arg18 (by decide)).trans (W3_arg18 m ρ c)

theorem W4_arg24  (c : Dev nD) :
    W4 m ρ c (Proc.devRef .tc main_arg24) = (arg m c main_arg24) :=
  (W4_of_ne m ρ c main_arg24 (by decide)).trans (W3_arg24 m ρ c)

theorem W4_arg25  (c : Dev nD) :
    W4 m ρ c (Proc.devRef .tc main_arg25) = (arg m c main_arg25) :=
  (W4_of_ne m ρ c main_arg25 (by decide)).trans (W3_arg25 m ρ c)

end Cert.KernelIdeal.Chain

end
-- ==== Proof.ChainB.lean ====
/- Boundaries five to eight: the first layer's gathers and scatter-adds (aggregates and neighbour counts on both sides),
   the combine step over the courses, the host's layout operations for the users' step, and that step. -/
import proofs.«109484_j27015344292445_2_alg».proof.Proof.ChainA
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## Boundary 5 -/

theorem W5_v29 (h0 : Region.Arr0) (c : Dev nD) :
    W5 m ρ c (Proc.devRef .tc main_v29) = (Cert.ReferenceIdeal.Read.val_main_v35 (F := Ideal) (arg m c main_arg0) (arg m c main_arg2) (arg m c main_arg4) (arg m c main_arg5) (arg m c main_arg20) (arg m c main_arg22) (arg m c main_arg23)) := by
  show StableHlo.after hostOps2 _ (Proc.devRef .tc main_v29) = _
  after_results_simp
  rw [W4_v16 m ρ h0 c, W4_arg22 m ρ c, W4_arg23 m ρ c]
  rfl

theorem W5_v19 (h1 : Region.Arr1) (c : Dev nD) :
    W5 m ρ c (Proc.devRef .tc main_v19) = (Cert.ReferenceIdeal.Read.val_main_v25 (F := Ideal) (arg m c main_arg1) (arg m c main_arg3) (arg m c main_arg6) (arg m c main_arg7) (arg m c main_arg21)) :=
  (W5_keep m ρ c main_v19 (by decide)).trans (W4_v19 m ρ h1 c)

theorem W5_v48  (c : Dev nD) :
    W5 m ρ c (Proc.devRef .tc main_v48) = (Cert.ReferenceIdeal.Read.val_main_v45 (F := Ideal) (arg m c main_arg8)) := by
  show StableHlo.after hostOps2 _ (Proc.devRef .tc main_v48) = _
  after_results_simp
  rw [W4_arg8 m ρ c]
  rfl

theorem W5_v49  (c : Dev nD) :
    W5 m ρ c (Proc.devRef .tc main_v49) = (Cert.ReferenceIdeal.Read.val_main_v50 (F := Ideal) (arg m c main_arg10)) := by
  show StableHlo.after hostOps2 _ (Proc.devRef .tc main_v49) = _
  after_results_simp
  rw [W4_arg10 m ρ c]
  rfl

theorem W5_v51  (c : Dev nD) :
    W5 m ρ c (Proc.devRef .tc main_v51) = (shapeCast S10000x1 (Cert.ReferenceIdeal.Read.val_main_v39 (F := Ideal) (arg m c main_arg23)) shapeCasts_S10000_S10000x1) := by
  show StableHlo.after hostOps2 _ (Proc.devRef .tc main_v51) = _
  after_results_simp
  rw [W4_arg23 m ρ c]
  rfl

theorem W5_v50  (c : Dev nD) :
    W5 m ρ c (Proc.devRef .tc main_v50) = (shapeCast S1x32 (arg m c main_arg9) shapeCasts_S32_S1x32) := by
  show StableHlo.after hostOps2 _ (Proc.devRef .tc main_v50) = _
  after_results_simp
  rw [W4_arg9 m ρ c]
  rfl

theorem W5_arg11  (c : Dev nD) :
    W5 m ρ c (Proc.devRef .tc main_arg11) = (arg m c main_arg11) :=
  (W5_keep m ρ c main_arg11 (by decide)).trans (W4_arg11 m ρ c)

theorem W5_arg13  (c : Dev nD) :
    W5 m ρ c (Proc.devRef .tc main_arg13) = (arg m c main_arg13) :=
  (W5_keep m ρ c main_arg13 (by decide)).trans (W4_arg13 m ρ c)

theorem W5_arg12  (c : Dev nD) :
    W5 m ρ c (Proc.devRef .tc main_arg12) = (arg m c main_arg12) :=
  (W5_keep m ρ c main_arg12 (by decide)).trans (W4_arg12 m ρ c)

theorem W5_v47  (c : Dev nD) :
    W5 m ρ c (Proc.devRef .tc main_v47) = (Cert.ReferenceIdeal.Read.val_main_v67 (F := Ideal) (arg m c main_arg22)) := by
  show StableHlo.after hostOps2 _ (Proc.devRef .tc main_v47) = _
  after_results_simp
  rw [W4_arg22 m ρ c]
  rfl

theorem W5_v43 (h1 : Region.Arr1) (c : Dev nD) :
    W5 m ρ c (Proc.devRef .tc main_v43) = (Cert.ReferenceIdeal.Read.val_main_v63 (F := Ideal) (arg m c main_arg1) (arg m c main_arg3) (arg m c main_arg6) (arg m c main_arg7) (arg m c main_arg21) (arg m c main_arg22) (arg m c main_arg23)) := by
  show StableHlo.after hostOps2 _ (Proc.devRef .tc main_v43) = _
  after_results_simp
  rw [W4_v19 m ρ h1 c, W4_arg23 m ρ c, W4_arg22 m ρ c]
  rfl

theorem W5_v16 (h0 : Region.Arr0) (c : Dev nD) :
    W5 m ρ c (Proc.devRef .tc main_v16) = (Cert.ReferenceIdeal.Read.val_main_v12 (F := Ideal) (arg m c main_arg0) (arg m c main_arg2) (arg m c main_arg4) (arg m c main_arg5) (arg m c main_arg20)) :=
  (W5_keep m ρ c main_v16 (by decide)).trans (W4_v16 m ρ h0 c)

theorem W5_arg22  (c : Dev nD) :
    W5 m ρ c (Proc.devRef .tc main_arg22) = (arg m c main_arg22) :=
  (W5_keep m ρ c main_arg22 (by decide)).trans (W4_arg22 m ρ c)

theorem W5_arg23  (c : Dev nD) :
    W5 m ρ c (Proc.devRef .tc main_arg23) = (arg m c main_arg23) :=
  (W5_keep m ρ c main_arg23 (by decide)).trans (W4_arg23 m ρ c)

theorem W5_arg14  (c : Dev nD) :
    W5 m ρ c (Proc.devRef .tc main_arg14) = (arg m c main_arg14) :=
  (W5_keep m ρ c main_arg14 (by decide)).trans (W4_arg14 m ρ c)

theorem W5_arg16  (c : Dev nD) :
    W5 m ρ c (Proc.devRef .tc main_arg16) = (arg m c main_arg16) :=
  (W5_keep m ρ c main_arg16 (by decide)).trans (W4_arg16 m ρ c)

theorem W5_arg15  (c : Dev nD) :
    W5 m ρ c (Proc.devRef .tc main_arg15) = (arg m c main_arg15) :=
  (W5_keep m ρ c main_arg15 (by decide)).trans (W4_arg15 m ρ c)

theorem W5_arg17  (c : Dev nD) :
    W5 m ρ c (Proc.devRef .tc main_arg17) = (arg m c main_arg17) :=
  (W5_keep m ρ c main_arg17 (by decide)).trans (W4_arg17 m ρ c)

theorem W5_arg19  (c : Dev nD) :
    W5 m ρ c (Proc.devRef .tc main_arg19) = (arg m c main_arg19) :=
  (W5_keep m ρ c main_arg19 (by decide)).trans (W4_arg19 m ρ c)

theorem W5_arg18  (c : Dev nD) :
    W5 m ρ c (Proc.devRef .tc main_arg18) = (arg m c main_arg18) :=
  (W5_keep m ρ c main_arg18 (by decide)).trans (W4_arg18 m ρ c)

theorem W5_arg24  (c : Dev nD) :
    W5 m ρ c (Proc.devRef .tc main_arg24) = (arg m c main_arg24) :=
  (W5_keep m ρ c main_arg24 (by decide)).trans (W4_arg24 m ρ c)

theorem W5_arg25  (c : Dev nD) :
    W5 m ρ c (Proc.devRef .tc main_arg25) = (arg m c main_arg25) :=
  (W5_keep m ρ c main_arg25 (by decide)).trans (W4_arg25 m ρ c)

/-! ## Boundary 6 -/

theorem W6_arg11  (c : Dev nD) :
    W6 m ρ c (Proc.devRef .tc main_arg11) = (arg m c main_arg11) :=
  (W6_of_ne m ρ c main_arg11 (by decide)).trans (W5_arg11 m ρ c)

theorem W6_arg13  (c : Dev nD) :
    W6 m ρ c (Proc.devRef .tc main_arg13) = (arg m c main_arg13) :=
  (W6_of_ne m ρ c main_arg13 (by decide)).trans (W5_arg13 m ρ c)

theorem W6_arg12  (c : Dev nD) :
    W6 m ρ c (Proc.devRef .tc main_arg12) = (arg m c main_arg12) :=
  (W6_of_ne m ρ c main_arg12 (by decide)).trans (W5_arg12 m ρ c)

theorem W6_v47  (c : Dev nD) :
    W6 m ρ c (Proc.devRef .tc main_v47) = (Cert.ReferenceIdeal.Read.val_main_v67 (F := Ideal) (arg m c main_arg22)) :=
  (W6_of_ne m ρ c main_v47 (by decide)).trans (W5_v47 m ρ c)

theorem W6_v43 (h1 : Region.Arr1) (c : Dev nD) :
    W6 m ρ c (Proc.devRef .tc main_v43) = (Cert.ReferenceIdeal.Read.val_main_v63 (F := Ideal) (arg m c main_arg1) (arg m c main_arg3) (arg m c main_arg6) (arg m c main_arg7) (arg m c main_arg21) (arg m c main_arg22) (arg m c main_arg23)) :=
  (W6_of_ne m ρ c main_v43 (by decide)).trans (W5_v43 m ρ h1 c)

theorem W6_v16 (h0 : Region.Arr0) (c : Dev nD) :
    W6 m ρ c (Proc.devRef .tc main_v16) = (Cert.ReferenceIdeal.Read.val_main_v12 (F := Ideal) (arg m c main_arg0) (arg m c main_arg2) (arg m c main_arg4) (arg m c main_arg5) (arg m c main_arg20)) :=
  (W6_of_ne m ρ c main_v16 (by decide)).trans (W5_v16 m ρ h0 c)

theorem W6_arg22  (c : Dev nD) :
    W6 m ρ c (Proc.devRef .tc main_arg22) = (arg m c main_arg22) :=
  (W6_of_ne m ρ c main_arg22 (by decide)).trans (W5_arg22 m ρ c)

theorem W6_arg23  (c : Dev nD) :
    W6 m ρ c (Proc.devRef .tc main_arg23) = (arg m c main_arg23) :=
  (W6_of_ne m ρ c main_arg23 (by decide)).trans (W5_arg23 m ρ c)

theorem W6_v52 (h0 : Region.Arr0) (h1 : Region.Arr1) (h2 : Region.Arr2) (c : Dev nD) :
    W6 m ρ c (Proc.devRef .tc main_v52) = (Cert.ReferenceIdeal.Read.val_main_v53 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) := by
  refine (W6_arr m ρ c 6).trans ?_
  refine (h2 (V5 m ρ) c (Cert.ReferenceIdeal.Read.val_main_v39 (F := Ideal) (arg m c main_arg23)) (arg m c main_arg9) (W5_v51 m ρ c) (W5_v50 m ρ c)).trans ?_
  rw [show V5 m ρ c main_v29 = _ from W5_v29 m ρ h0 c,
    show V5 m ρ c main_v19 = _ from W5_v19 m ρ h1 c,
    show V5 m ρ c main_v48 = _ from W5_v48 m ρ c,
    show V5 m ρ c main_v49 = _ from W5_v49 m ρ c]
  rfl

theorem W6_arg14  (c : Dev nD) :
    W6 m ρ c (Proc.devRef .tc main_arg14) = (arg m c main_arg14) :=
  (W6_of_ne m ρ c main_arg14 (by decide)).trans (W5_arg14 m ρ c)

theorem W6_arg16  (c : Dev nD) :
    W6 m ρ c (Proc.devRef .tc main_arg16) = (arg m c main_arg16) :=
  (W6_of_ne m ρ c main_arg16 (by decide)).trans (W5_arg16 m ρ c)

theorem W6_arg15  (c : Dev nD) :
    W6 m ρ c (Proc.devRef .tc main_arg15) = (arg m c main_arg15) :=
  (W6_of_ne m ρ c main_arg15 (by decide)).trans (W5_arg15 m ρ c)

theorem W6_arg17  (c : Dev nD) :
    W6 m ρ c (Proc.devRef .tc main_arg17) = (arg m c main_arg17) :=
  (W6_of_ne m ρ c main_arg17 (by decide)).trans (W5_arg17 m ρ c)

theorem W6_arg19  (c : Dev nD) :
    W6 m ρ c (Proc.devRef .tc main_arg19) = (arg m c main_arg19) :=
  (W6_of_ne m ρ c main_arg19 (by decide)).trans (W5_arg19 m ρ c)

theorem W6_arg18  (c : Dev nD) :
    W6 m ρ c (Proc.devRef .tc main_arg18) = (arg m c main_arg18) :=
  (W6_of_ne m ρ c main_arg18 (by decide)).trans (W5_arg18 m ρ c)

theorem W6_arg24  (c : Dev nD) :
    W6 m ρ c (Proc.devRef .tc main_arg24) = (arg m c main_arg24) :=
  (W6_of_ne m ρ c main_arg24 (by decide)).trans (W5_arg24 m ρ c)

theorem W6_arg25  (c : Dev nD) :
    W6 m ρ c (Proc.devRef .tc main_arg25) = (arg m c main_arg25) :=
  (W6_of_ne m ρ c main_arg25 (by decide)).trans (W5_arg25 m ρ c)

/-! ## Boundary 7 -/

theorem W7_v43 (h1 : Region.Arr1) (c : Dev nD) :
    W7 m ρ c (Proc.devRef .tc main_v43) = (Cert.ReferenceIdeal.Read.val_main_v63 (F := Ideal) (arg m c main_arg1) (arg m c main_arg3) (arg m c main_arg6) (arg m c main_arg7) (arg m c main_arg21) (arg m c main_arg22) (arg m c main_arg23)) :=
  (W7_keep m ρ c main_v43 (by decide)).trans (W6_v43 m ρ h1 c)

theorem W7_v16 (h0 : Region.Arr0) (c : Dev nD) :
    W7 m ρ c (Proc.devRef .tc main_v16) = (Cert.ReferenceIdeal.Read.val_main_v12 (F := Ideal) (arg m c main_arg0) (arg m c main_arg2) (arg m c main_arg4) (arg m c main_arg5) (arg m c main_arg20)) :=
  (W7_keep m ρ c main_v16 (by decide)).trans (W6_v16 m ρ h0 c)

theorem W7_v53  (c : Dev nD) :
    W7 m ρ c (Proc.devRef .tc main_v53) = (Cert.ReferenceIdeal.Read.val_main_v73 (F := Ideal) (arg m c main_arg11)) := by
  show StableHlo.after hostOps3 _ (Proc.devRef .tc main_v53) = _
  after_results_simp
  rw [W6_arg11 m ρ c]
  rfl

theorem W7_v54  (c : Dev nD) :
    W7 m ρ c (Proc.devRef .tc main_v54) = (Cert.ReferenceIdeal.Read.val_main_v78 (F := Ideal) (arg m c main_arg13)) := by
  show StableHlo.after hostOps3 _ (Proc.devRef .tc main_v54) = _
  after_results_simp
  rw [W6_arg13 m ρ c]
  rfl

theorem W7_v56  (c : Dev nD) :
    W7 m ρ c (Proc.devRef .tc main_v56) = (shapeCast S500000x1 (Cert.ReferenceIdeal.Read.val_main_v67 (F := Ideal) (arg m c main_arg22)) shapeCasts_S500000_S500000x1) := by
  show StableHlo.after hostOps3 _ (Proc.devRef .tc main_v56) = _
  after_results_simp
  rw [W6_v47 m ρ c]
  rfl

theorem W7_v55  (c : Dev nD) :
    W7 m ρ c (Proc.devRef .tc main_v55) = (shapeCast S1x32 (arg m c main_arg12) shapeCasts_S32_S1x32) := by
  show StableHlo.after hostOps3 _ (Proc.devRef .tc main_v55) = _
  after_results_simp
  rw [W6_arg12 m ρ c]
  rfl

theorem W7_arg22  (c : Dev nD) :
    W7 m ρ c (Proc.devRef .tc main_arg22) = (arg m c main_arg22) :=
  (W7_keep m ρ c main_arg22 (by decide)).trans (W6_arg22 m ρ c)

theorem W7_arg23  (c : Dev nD) :
    W7 m ρ c (Proc.devRef .tc main_arg23) = (arg m c main_arg23) :=
  (W7_keep m ρ c main_arg23 (by decide)).trans (W6_arg23 m ρ c)

theorem W7_v52 (h0 : Region.Arr0) (h1 : Region.Arr1) (h2 : Region.Arr2) (c : Dev nD) :
    W7 m ρ c (Proc.devRef .tc main_v52) = (Cert.ReferenceIdeal.Read.val_main_v53 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) :=
  (W7_keep m ρ c main_v52 (by decide)).trans (W6_v52 m ρ h0 h1 h2 c)

theorem W7_arg14  (c : Dev nD) :
    W7 m ρ c (Proc.devRef .tc main_arg14) = (arg m c main_arg14) :=
  (W7_keep m ρ c main_arg14 (by decide)).trans (W6_arg14 m ρ c)

theorem W7_arg16  (c : Dev nD) :
    W7 m ρ c (Proc.devRef .tc main_arg16) = (arg m c main_arg16) :=
  (W7_keep m ρ c main_arg16 (by decide)).trans (W6_arg16 m ρ c)

theorem W7_arg15  (c : Dev nD) :
    W7 m ρ c (Proc.devRef .tc main_arg15) = (arg m c main_arg15) :=
  (W7_keep m ρ c main_arg15 (by decide)).trans (W6_arg15 m ρ c)

theorem W7_arg17  (c : Dev nD) :
    W7 m ρ c (Proc.devRef .tc main_arg17) = (arg m c main_arg17) :=
  (W7_keep m ρ c main_arg17 (by decide)).trans (W6_arg17 m ρ c)

theorem W7_arg19  (c : Dev nD) :
    W7 m ρ c (Proc.devRef .tc main_arg19) = (arg m c main_arg19) :=
  (W7_keep m ρ c main_arg19 (by decide)).trans (W6_arg19 m ρ c)

theorem W7_arg18  (c : Dev nD) :
    W7 m ρ c (Proc.devRef .tc main_arg18) = (arg m c main_arg18) :=
  (W7_keep m ρ c main_arg18 (by decide)).trans (W6_arg18 m ρ c)

theorem W7_arg24  (c : Dev nD) :
    W7 m ρ c (Proc.devRef .tc main_arg24) = (arg m c main_arg24) :=
  (W7_keep m ρ c main_arg24 (by decide)).trans (W6_arg24 m ρ c)

theorem W7_arg25  (c : Dev nD) :
    W7 m ρ c (Proc.devRef .tc main_arg25) = (arg m c main_arg25) :=
  (W7_keep m ρ c main_arg25 (by decide)).trans (W6_arg25 m ρ c)

/-! ## Boundary 8 -/

theorem W8_arg22  (c : Dev nD) :
    W8 m ρ c (Proc.devRef .tc main_arg22) = (arg m c main_arg22) :=
  (W8_of_ne m ρ c main_arg22 (by decide)).trans (W7_arg22 m ρ c)

theorem W8_arg23  (c : Dev nD) :
    W8 m ρ c (Proc.devRef .tc main_arg23) = (arg m c main_arg23) :=
  (W8_of_ne m ρ c main_arg23 (by decide)).trans (W7_arg23 m ρ c)

theorem W8_v57 (h0 : Region.Arr0) (h1 : Region.Arr1) (h3 : Region.Arr3) (c : Dev nD) :
    W8 m ρ c (Proc.devRef .tc main_v57) = (Cert.ReferenceIdeal.Read.val_main_v81 (F := Ideal) (arg m c main_arg0) (arg m c main_arg1) (arg m c main_arg2) (arg m c main_arg3) (arg m c main_arg4) (arg m c main_arg5) (arg m c main_arg6) (arg m c main_arg7) (arg m c main_arg11) (arg m c main_arg12) (arg m c main_arg13) (arg m c main_arg20) (arg m c main_arg21) (arg m c main_arg22) (arg m c main_arg23)) := by
  refine (W8_arr m ρ c 6).trans ?_
  refine (h3 (V7 m ρ) c (Cert.ReferenceIdeal.Read.val_main_v67 (F := Ideal) (arg m c main_arg22)) (arg m c main_arg12) (W7_v56 m ρ c) (W7_v55 m ρ c)).trans ?_
  rw [show V7 m ρ c main_v43 = _ from W7_v43 m ρ h1 c,
    show V7 m ρ c main_v16 = _ from W7_v16 m ρ h0 c,
    show V7 m ρ c main_v53 = _ from W7_v53 m ρ c,
    show V7 m ρ c main_v54 = _ from W7_v54 m ρ c]
  rfl

theorem W8_v52 (h0 : Region.Arr0) (h1 : Region.Arr1) (h2 : Region.Arr2) (c : Dev nD) :
    W8 m ρ c (Proc.devRef .tc main_v52) = (Cert.ReferenceIdeal.Read.val_main_v53 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) :=
  (W8_of_ne m ρ c main_v52 (by decide)).trans (W7_v52 m ρ h0 h1 h2 c)

theorem W8_arg14  (c : Dev nD) :
    W8 m ρ c (Proc.devRef .tc main_arg14) = (arg m c main_arg14) :=
  (W8_of_ne m ρ c main_arg14 (by decide)).trans (W7_arg14 m ρ c)

theorem W8_arg16  (c : Dev nD) :
    W8 m ρ c (Proc.devRef .tc main_arg16) = (arg m c main_arg16) :=
  (W8_of_ne m ρ c main_arg16 (by decide)).trans (W7_arg16 m ρ c)

theorem W8_arg15  (c : Dev nD) :
    W8 m ρ c (Proc.devRef .tc main_arg15) = (arg m c main_arg15) :=
  (W8_of_ne m ρ c main_arg15 (by decide)).trans (W7_arg15 m ρ c)

theorem W8_arg17  (c : Dev nD) :
    W8 m ρ c (Proc.devRef .tc main_arg17) = (arg m c main_arg17) :=
  (W8_of_ne m ρ c main_arg17 (by decide)).trans (W7_arg17 m ρ c)

theorem W8_arg19  (c : Dev nD) :
    W8 m ρ c (Proc.devRef .tc main_arg19) = (arg m c main_arg19) :=
  (W8_of_ne m ρ c main_arg19 (by decide)).trans (W7_arg19 m ρ c)

theorem W8_arg18  (c : Dev nD) :
    W8 m ρ c (Proc.devRef .tc main_arg18) = (arg m c main_arg18) :=
  (W8_of_ne m ρ c main_arg18 (by decide)).trans (W7_arg18 m ρ c)

theorem W8_arg24  (c : Dev nD) :
    W8 m ρ c (Proc.devRef .tc main_arg24) = (arg m c main_arg24) :=
  (W8_of_ne m ρ c main_arg24 (by decide)).trans (W7_arg24 m ρ c)

theorem W8_arg25  (c : Dev nD) :
    W8 m ρ c (Proc.devRef .tc main_arg25) = (arg m c main_arg25) :=
  (W8_of_ne m ρ c main_arg25 (by decide)).trans (W7_arg25 m ρ c)

end Cert.KernelIdeal.Chain

end
-- ==== Proof.ChainC.lean ====
/- Boundaries nine to twelve: the second layer's gathers and scatter-adds, and its two combine steps. -/
import proofs.«109484_j27015344292445_2_alg».proof.Proof.ChainB
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## Boundary 9 -/

theorem W9_v67 (h0 : Region.Arr0) (h1 : Region.Arr1) (h3 : Region.Arr3) (c : Dev nD) :
    W9 m ρ c (Proc.devRef .tc main_v67) = (Cert.ReferenceIdeal.Read.val_main_v91 (F := Ideal) (arg m c main_arg0) (arg m c main_arg1) (arg m c main_arg2) (arg m c main_arg3) (arg m c main_arg4) (arg m c main_arg5) (arg m c main_arg6) (arg m c main_arg7) (arg m c main_arg11) (arg m c main_arg12) (arg m c main_arg13) (arg m c main_arg20) (arg m c main_arg21) (arg m c main_arg22) (arg m c main_arg23)) := by
  show StableHlo.after hostOps4 _ (Proc.devRef .tc main_v67) = _
  after_results_simp
  rw [W8_v57 m ρ h0 h1 h3 c, W8_arg22 m ρ c, W8_arg23 m ρ c]
  rfl

theorem W9_v52 (h0 : Region.Arr0) (h1 : Region.Arr1) (h2 : Region.Arr2) (c : Dev nD) :
    W9 m ρ c (Proc.devRef .tc main_v52) = (Cert.ReferenceIdeal.Read.val_main_v53 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) :=
  (W9_keep m ρ c main_v52 (by decide)).trans (W8_v52 m ρ h0 h1 h2 c)

theorem W9_v86  (c : Dev nD) :
    W9 m ρ c (Proc.devRef .tc main_v86) = (Cert.ReferenceIdeal.Read.val_main_v101 (F := Ideal) (arg m c main_arg14)) := by
  show StableHlo.after hostOps4 _ (Proc.devRef .tc main_v86) = _
  after_results_simp
  rw [W8_arg14 m ρ c]
  rfl

theorem W9_v87  (c : Dev nD) :
    W9 m ρ c (Proc.devRef .tc main_v87) = (Cert.ReferenceIdeal.Read.val_main_v106 (F := Ideal) (arg m c main_arg16)) := by
  show StableHlo.after hostOps4 _ (Proc.devRef .tc main_v87) = _
  after_results_simp
  rw [W8_arg16 m ρ c]
  rfl

theorem W9_v89  (c : Dev nD) :
    W9 m ρ c (Proc.devRef .tc main_v89) = (shapeCast S10000x1 (Cert.ReferenceIdeal.Read.val_main_v95 (F := Ideal) (arg m c main_arg23)) shapeCasts_S10000_S10000x1) := by
  show StableHlo.after hostOps4 _ (Proc.devRef .tc main_v89) = _
  after_results_simp
  rw [W8_arg23 m ρ c]
  rfl

theorem W9_v88  (c : Dev nD) :
    W9 m ρ c (Proc.devRef .tc main_v88) = (shapeCast S1x16 (arg m c main_arg15) shapeCasts_S16_S1x16) := by
  show StableHlo.after hostOps4 _ (Proc.devRef .tc main_v88) = _
  after_results_simp
  rw [W8_arg15 m ρ c]
  rfl

theorem W9_arg17  (c : Dev nD) :
    W9 m ρ c (Proc.devRef .tc main_arg17) = (arg m c main_arg17) :=
  (W9_keep m ρ c main_arg17 (by decide)).trans (W8_arg17 m ρ c)

theorem W9_arg19  (c : Dev nD) :
    W9 m ρ c (Proc.devRef .tc main_arg19) = (arg m c main_arg19) :=
  (W9_keep m ρ c main_arg19 (by decide)).trans (W8_arg19 m ρ c)

theorem W9_arg18  (c : Dev nD) :
    W9 m ρ c (Proc.devRef .tc main_arg18) = (arg m c main_arg18) :=
  (W9_keep m ρ c main_arg18 (by decide)).trans (W8_arg18 m ρ c)

theorem W9_v85  (c : Dev nD) :
    W9 m ρ c (Proc.devRef .tc main_v85) = (Cert.ReferenceIdeal.Read.val_main_v122 (F := Ideal) (arg m c main_arg22)) := by
  show StableHlo.after hostOps4 _ (Proc.devRef .tc main_v85) = _
  after_results_simp
  rw [W8_arg22 m ρ c]
  rfl

theorem W9_v81 (h0 : Region.Arr0) (h1 : Region.Arr1) (h2 : Region.Arr2) (c : Dev nD) :
    W9 m ρ c (Proc.devRef .tc main_v81) = (Cert.ReferenceIdeal.Read.val_main_v118 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) := by
  show StableHlo.after hostOps4 _ (Proc.devRef .tc main_v81) = _
  after_results_simp
  rw [W8_v52 m ρ h0 h1 h2 c, W8_arg23 m ρ c, W8_arg22 m ρ c]
  rfl

theorem W9_v57 (h0 : Region.Arr0) (h1 : Region.Arr1) (h3 : Region.Arr3) (c : Dev nD) :
    W9 m ρ c (Proc.devRef .tc main_v57) = (Cert.ReferenceIdeal.Read.val_main_v81 (F := Ideal) (arg m c main_arg0) (arg m c main_arg1) (arg m c main_arg2) (arg m c main_arg3) (arg m c main_arg4) (arg m c main_arg5) (arg m c main_arg6) (arg m c main_arg7) (arg m c main_arg11) (arg m c main_arg12) (arg m c main_arg13) (arg m c main_arg20) (arg m c main_arg21) (arg m c main_arg22) (arg m c main_arg23)) :=
  (W9_keep m ρ c main_v57 (by decide)).trans (W8_v57 m ρ h0 h1 h3 c)

theorem W9_arg24  (c : Dev nD) :
    W9 m ρ c (Proc.devRef .tc main_arg24) = (arg m c main_arg24) :=
  (W9_keep m ρ c main_arg24 (by decide)).trans (W8_arg24 m ρ c)

theorem W9_arg25  (c : Dev nD) :
    W9 m ρ c (Proc.devRef .tc main_arg25) = (arg m c main_arg25) :=
  (W9_keep m ρ c main_arg25 (by decide)).trans (W8_arg25 m ρ c)

/-! ## Boundary 10 -/

theorem W10_arg17  (c : Dev nD) :
    W10 m ρ c (Proc.devRef .tc main_arg17) = (arg m c main_arg17) :=
  (W10_of_ne m ρ c main_arg17 (by decide)).trans (W9_arg17 m ρ c)

theorem W10_arg19  (c : Dev nD) :
    W10 m ρ c (Proc.devRef .tc main_arg19) = (arg m c main_arg19) :=
  (W10_of_ne m ρ c main_arg19 (by decide)).trans (W9_arg19 m ρ c)

theorem W10_arg18  (c : Dev nD) :
    W10 m ρ c (Proc.devRef .tc main_arg18) = (arg m c main_arg18) :=
  (W10_of_ne m ρ c main_arg18 (by decide)).trans (W9_arg18 m ρ c)

theorem W10_v85  (c : Dev nD) :
    W10 m ρ c (Proc.devRef .tc main_v85) = (Cert.ReferenceIdeal.Read.val_main_v122 (F := Ideal) (arg m c main_arg22)) :=
  (W10_of_ne m ρ c main_v85 (by decide)).trans (W9_v85 m ρ c)

theorem W10_v81 (h0 : Region.Arr0) (h1 : Region.Arr1) (h2 : Region.Arr2) (c : Dev nD) :
    W10 m ρ c (Proc.devRef .tc main_v81) = (Cert.ReferenceIdeal.Read.val_main_v118 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) :=
  (W10_of_ne m ρ c main_v81 (by decide)).trans (W9_v81 m ρ h0 h1 h2 c)

theorem W10_v57 (h0 : Region.Arr0) (h1 : Region.Arr1) (h3 : Region.Arr3) (c : Dev nD) :
    W10 m ρ c (Proc.devRef .tc main_v57) = (Cert.ReferenceIdeal.Read.val_main_v81 (F := Ideal) (arg m c main_arg0) (arg m c main_arg1) (arg m c main_arg2) (arg m c main_arg3) (arg m c main_arg4) (arg m c main_arg5) (arg m c main_arg6) (arg m c main_arg7) (arg m c main_arg11) (arg m c main_arg12) (arg m c main_arg13) (arg m c main_arg20) (arg m c main_arg21) (arg m c main_arg22) (arg m c main_arg23)) :=
  (W10_of_ne m ρ c main_v57 (by decide)).trans (W9_v57 m ρ h0 h1 h3 c)

theorem W10_arg24  (c : Dev nD) :
    W10 m ρ c (Proc.devRef .tc main_arg24) = (arg m c main_arg24) :=
  (W10_of_ne m ρ c main_arg24 (by decide)).trans (W9_arg24 m ρ c)

theorem W10_arg25  (c : Dev nD) :
    W10 m ρ c (Proc.devRef .tc main_arg25) = (arg m c main_arg25) :=
  (W10_of_ne m ρ c main_arg25 (by decide)).trans (W9_arg25 m ρ c)

theorem W10_v90 (h0 : Region.Arr0) (h1 : Region.Arr1) (h2 : Region.Arr2) (h3 : Region.Arr3) (h4 : Region.Arr4) (c : Dev nD) :
    W10 m ρ c (Proc.devRef .tc main_v90) = (Cert.ReferenceIdeal.Read.val_main_v108 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg20) (arg m c main_arg21) (arg m c main_arg22) (arg m c main_arg23)) := by
  refine (W10_arr m ρ c 6).trans ?_
  refine (h4 (V9 m ρ) c (Cert.ReferenceIdeal.Read.val_main_v95 (F := Ideal) (arg m c main_arg23)) (arg m c main_arg15) (W9_v89 m ρ c) (W9_v88 m ρ c)).trans ?_
  rw [show V9 m ρ c main_v67 = _ from W9_v67 m ρ h0 h1 h3 c,
    show V9 m ρ c main_v52 = _ from W9_v52 m ρ h0 h1 h2 c,
    show V9 m ρ c main_v86 = _ from W9_v86 m ρ c,
    show V9 m ρ c main_v87 = _ from W9_v87 m ρ c]
  rfl

/-! ## Boundary 11 -/

theorem W11_v81 (h0 : Region.Arr0) (h1 : Region.Arr1) (h2 : Region.Arr2) (c : Dev nD) :
    W11 m ρ c (Proc.devRef .tc main_v81) = (Cert.ReferenceIdeal.Read.val_main_v118 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg20) (arg m c main_arg21) (arg m c main_arg22) (arg m c main_arg23)) :=
  (W11_keep m ρ c main_v81 (by decide)).trans (W10_v81 m ρ h0 h1 h2 c)

theorem W11_v57 (h0 : Region.Arr0) (h1 : Region.Arr1) (h3 : Region.Arr3) (c : Dev nD) :
    W11 m ρ c (Proc.devRef .tc main_v57) = (Cert.ReferenceIdeal.Read.val_main_v81 (F := Ideal) (arg m c main_arg0) (arg m c main_arg1) (arg m c main_arg2) (arg m c main_arg3) (arg m c main_arg4) (arg m c main_arg5) (arg m c main_arg6) (arg m c main_arg7) (arg m c main_arg11) (arg m c main_arg12) (arg m c main_arg13) (arg m c main_arg20) (arg m c main_arg21) (arg m c main_arg22) (arg m c main_arg23)) :=
  (W11_keep m ρ c main_v57 (by decide)).trans (W10_v57 m ρ h0 h1 h3 c)

theorem W11_v91  (c : Dev nD) :
    W11 m ρ c (Proc.devRef .tc main_v91) = (Cert.ReferenceIdeal.Read.val_main_v128 (F := Ideal) (arg m c main_arg17)) := by
  show StableHlo.after hostOps5 _ (Proc.devRef .tc main_v91) = _
  after_results_simp
  rw [W10_arg17 m ρ c]
  rfl

theorem W11_v92  (c : Dev nD) :
    W11 m ρ c (Proc.devRef .tc main_v92) = (Cert.ReferenceIdeal.Read.val_main_v133 (F := Ideal) (arg m c main_arg19)) := by
  show StableHlo.after hostOps5 _ (Proc.devRef .tc main_v92) = _
  after_results_simp
  rw [W10_arg19 m ρ c]
  rfl

theorem W11_v94  (c : Dev nD) :
    W11 m ρ c (Proc.devRef .tc main_v94) = (shapeCast S500000x1 (Cert.ReferenceIdeal.Read.val_main_v122 (F := Ideal) (arg m c main_arg22)) shapeCasts_S500000_S500000x1) := by
  show StableHlo.after hostOps5 _ (Proc.devRef .tc main_v94) = _
  after_results_simp
  rw [W10_v85 m ρ c]
  rfl

theorem W11_v93  (c : Dev nD) :
    W11 m ρ c (Proc.devRef .tc main_v93) = (shapeCast S1x16 (arg m c main_arg18) shapeCasts_S16_S1x16) := by
  show StableHlo.after hostOps5 _ (Proc.devRef .tc main_v93) = _
  after_results_simp
  rw [W10_arg18 m ρ c]
  rfl

theorem W11_arg24  (c : Dev nD) :
    W11 m ρ c (Proc.devRef .tc main_arg24) = (arg m c main_arg24) :=
  (W11_keep m ρ c main_arg24 (by decide)).trans (W10_arg24 m ρ c)

theorem W11_arg25  (c : Dev nD) :
    W11 m ρ c (Proc.devRef .tc main_arg25) = (arg m c main_arg25) :=
  (W11_keep m ρ c main_arg25 (by decide)).trans (W10_arg25 m ρ c)

theorem W11_v90 (h0 : Region.Arr0) (h1 : Region.Arr1) (h2 : Region.Arr2) (h3 : Region.Arr3) (h4 : Region.Arr4) (c : Dev nD) :
    W11 m ρ c (Proc.devRef .tc main_v90) = (Cert.ReferenceIdeal.Read.val_main_v108 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg20) (arg m c main_arg21) (arg m c main_arg22) (arg m c main_arg23)) :=
  (W11_keep m ρ c main_v90 (by decide)).trans (W10_v90 m ρ h0 h1 h2 h3 h4 c)

/-! ## Boundary 12 -/

theorem W12_arg24  (c : Dev nD) :
    W12 m ρ c (Proc.devRef .tc main_arg24) = (arg m c main_arg24) :=
  (W12_of_ne m ρ c main_arg24 (by decide)).trans (W11_arg24 m ρ c)

theorem W12_arg25  (c : Dev nD) :
    W12 m ρ c (Proc.devRef .tc main_arg25) = (arg m c main_arg25) :=
  (W12_of_ne m ρ c main_arg25 (by decide)).trans (W11_arg25 m ρ c)

theorem W12_v95 (h0 : Region.Arr0) (h1 : Region.Arr1) (h2 : Region.Arr2) (h3 : Region.Arr3) (h5 : Region.Arr5) (c : Dev nD) :
    W12 m ρ c (Proc.devRef .tc main_v95) = (Cert.ReferenceIdeal.Read.val_main_v135 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg17) (arg m c main_arg18) (arg m c main_arg19) (arg m c main_arg20) (arg m c main_arg21) (arg m c main_arg22) (arg m c main_arg23)) := by
  refine (W12_arr m ρ c 6).trans ?_
  refine (h5 (V11 m ρ) c (Cert.ReferenceIdeal.Read.val_main_v122 (F := Ideal) (arg m c main_arg22)) (arg m c main_arg18) (W11_v94 m ρ c) (W11_v93 m ρ c)).trans ?_
  rw [show V11 m ρ c main_v81 = _ from W11_v81 m ρ h0 h1 h2 c,
    show V11 m ρ c main_v57 = _ from W11_v57 m ρ h0 h1 h3 c,
    show V11 m ρ c main_v91 = _ from W11_v91 m ρ c,
    show V11 m ρ c main_v92 = _ from W11_v92 m ρ c]
  rfl

theorem W12_v90 (h0 : Region.Arr0) (h1 : Region.Arr1) (h2 : Region.Arr2) (h3 : Region.Arr3) (h4 : Region.Arr4) (c : Dev nD) :
    W12 m ρ c (Proc.devRef .tc main_v90) = (Cert.ReferenceIdeal.Read.val_main_v108 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg20) (arg m c main_arg21) (arg m c main_arg22) (arg m c main_arg23)) :=
  (W12_of_ne m ρ c main_v90 (by decide)).trans (W11_v90 m ρ h0 h1 h2 h3 h4 c)

end Cert.KernelIdeal.Chain

end
-- ==== Proof.ChainD.lean ====
/- Boundaries thirteen to fifteen: the decoder's two gathers, the decoder, and the final reshape; then the result of
   @main as the reference program's result at the launch arguments. -/
import proofs.«109484_j27015344292445_2_alg».proof.Proof.ChainC
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## Boundary 13 -/

theorem W13_v102 (h0 : Region.Arr0) (h1 : Region.Arr1) (h2 : Region.Arr2) (h3 : Region.Arr3) (h5 : Region.Arr5) (c : Dev nD) :
    W13 m ρ c (Proc.devRef .tc main_v102) = (Cert.ReferenceIdeal.Read.val_main_v142 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg17) (arg m c main_arg18) (arg m c main_arg19) (arg m c main_arg20) (arg m c main_arg21) (arg m c main_arg22) (arg m c main_arg23) (arg m c main_arg24)) := by
  show StableHlo.after hostOps6 _ (Proc.devRef .tc main_v102) = _
  after_results_simp
  rw [W12_v95 m ρ h0 h1 h2 h3 h5 c, W12_arg24 m ρ c]
  rfl

theorem W13_v109 (h0 : Region.Arr0) (h1 : Region.Arr1) (h2 : Region.Arr2) (h3 : Region.Arr3) (h4 : Region.Arr4) (c : Dev nD) :
    W13 m ρ c (Proc.devRef .tc main_v109) = (Cert.ReferenceIdeal.Read.val_main_v149 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg20) (arg m c main_arg21) (arg m c main_arg22) (arg m c main_arg23) (arg m c main_arg25)) := by
  show StableHlo.after hostOps6 _ (Proc.devRef .tc main_v109) = _
  after_results_simp
  rw [W12_v90 m ρ h0 h1 h2 h3 h4 c, W12_arg25 m ρ c]
  rfl

/-! ## Boundary 14 -/

theorem W14_v110 (h0 : Region.Arr0) (h1 : Region.Arr1) (h2 : Region.Arr2) (h3 : Region.Arr3) (h4 : Region.Arr4) (h5 : Region.Arr5) (h6 : Region.Arr6) (c : Dev nD) :
    W14 m ρ c (Proc.devRef .tc main_v110) = (shapeCast S500000x1 (Cert.ReferenceIdeal.Read.val_main_v151 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)) shapeCasts_S500000_S500000x1) := by
  refine (W14_arr m ρ c 2).trans ?_
  refine (h6 (V13 m ρ) c).trans ?_
  rw [show V13 m ρ c main_v102 = _ from W13_v102 m ρ h0 h1 h2 h3 h5 c,
    show V13 m ρ c main_v109 = _ from W13_v109 m ρ h0 h1 h2 h3 h4 c]
  rfl

/-! ## Boundary 15 -/

theorem W15_v111 (h0 : Region.Arr0) (h1 : Region.Arr1) (h2 : Region.Arr2) (h3 : Region.Arr3) (h4 : Region.Arr4) (h5 : Region.Arr5) (h6 : Region.Arr6) (c : Dev nD) :
    W15 m ρ c (Proc.devRef .tc main_v111) = (Cert.ReferenceIdeal.Read.val_main_v151 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)) := by
  show StableHlo.after hostOps7 _ (Proc.devRef .tc main_v111) = _
  after_results_simp
  rw [W14_v110 m ρ h0 h1 h2 h3 h4 h5 h6 c]
  exact shapeCast_shapeCast _ _ _

/-- The result of @main: the kernel's result buffer at the last boundary is the reference program's result at the launch
    arguments. -/
theorem result (h0 : Region.Arr0) (h1 : Region.Arr1) (h2 : Region.Arr2) (h3 : Region.Arr3) (h4 : Region.Arr4) (h5 : Region.Arr5)
    (h6 : Region.Arr6) (m : (ℓ : Loc nD τ sig) → Buf (Elt Ideal) ℓ) (ρ : Dev nD → PrngReg) (c : Dev nD) :
    W15 (F := Ideal) m ρ c (Proc.devRef .tc main_v111)
      = Cert.ReferenceIdeal.Read.val_main_v151 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
          (m ((c.tc : Thread nD τ).loc main_arg23))
          (m ((c.tc : Thread nD τ).loc main_arg24))
          (m ((c.tc : Thread nD τ).loc main_arg25)) :=
  W15_v111 m ρ h0 h1 h2 h3 h4 h5 h6 c

end Cert.KernelIdeal.Chain

end
-- ==== Proof.lean ====
/-
  Two programs for one two-layer bipartite GraphSAGE forward pass with a dot-product decoder are equal on the extended reals.

  Both compute, from the users' and the courses' features and embeddings,
    xu = [e_u | x_u · Wuᵀ + bu],  xc = [e_c | x_c · Wcᵀ + bc]                                   (feature fusion)
    hc = max(mean_{u → c} xu · Wlᵀ + bl + xc · Wrᵀ, 0),  hu likewise with the roles exchanged    (first layer)
    oc = mean_{u → c} hu · Wl'ᵀ + bl' + hc · Wr'ᵀ,        ou likewise                            (second layer)
    out(e) = ∑_d ou(src e, d) · oc(dst e, d)                                                     (decoder)
  where the mean over a node's in-neighbours is a scatter-added sum divided by max(count, 1). The reference states every
  step with the host's operations. The kernel program runs the seven dense steps as tiled regions (row blocks of 4000 users
  or 2000 courses) and keeps the gathers and scatter-adds on the host, spelt as the reference spells them.

  The proof: each region's output array is the corresponding host composition of the arrays the region reads (`Region.arr0` …
  `Region.arr6`: a block of the output is the same function of the matching row block of the inputs, a matrix product into
  a zero accumulator is the host's product, a change of float format is the identity at the extended reals, and the blocks
  tile the array); between the regions both programs apply the same host operations to equal arrays (`Chain.result`); so
  the kernel program's result is the reference's term of the arguments. No law of arithmetic beyond this re-association of
  the program text is used, and the finiteness of the inputs is not needed.
-/
import proofs.«109484_j27015344292445_2_alg».proof.Defs
import proofs.«109484_j27015344292445_2_alg».proof.Proof.Gen.Kernel
import proofs.«109484_j27015344292445_2_alg».proof.Proof.Gen.Kernel.Frame
import proofs.«109484_j27015344292445_2_alg».proof.Proof.Gen.KernelIdeal
import proofs.«109484_j27015344292445_2_alg».proof.Proof.Gen.KernelIdeal.Frame
import proofs.«109484_j27015344292445_2_alg».proof.Proof.Gen.ReferenceIdeal
import proofs.«109484_j27015344292445_2_alg».proof.Proof.Gen.ReferenceIdeal.Run
import proofs.«109484_j27015344292445_2_alg».proof.Proof.Gen.ReferenceIdeal.Read
import proofs.«109484_j27015344292445_2_alg».proof.Proof.Gen.Pre_finite_inputs
import proofs.«109484_j27015344292445_2_alg».proof.Proof.Interface
import proofs.«109484_j27015344292445_2_alg».proof.Proof.Fuse0
import proofs.«109484_j27015344292445_2_alg».proof.Proof.Fuse1
import proofs.«109484_j27015344292445_2_alg».proof.Proof.Sage2
import proofs.«109484_j27015344292445_2_alg».proof.Proof.Sage3
import proofs.«109484_j27015344292445_2_alg».proof.Proof.Sage4
import proofs.«109484_j27015344292445_2_alg».proof.Proof.Sage5
import proofs.«109484_j27015344292445_2_alg».proof.Proof.Decode
import proofs.«109484_j27015344292445_2_alg».proof.Proof.RunValue
import proofs.«109484_j27015344292445_2_alg».proof.Proof.ChainD
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel program's result is the reference's term of the arguments: the regions are the host compositions, and the
    host operations between them are shared. -/
theorem algebraic : Cert.algebraic_KernelIdeal_ReferenceIdeal := by
  intro m ρ m' ρ' _ hagree
  refine ⟨fun c => Cert.KernelIdeal.Gen.W15 (F := Ideal) m ρ c (Proc.devRef .tc Cert.KernelIdeal.main_v111),
    Cert.KernelIdeal.Chain.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25⟩ :=
    hagree c
  rw [Cert.ReferenceIdeal.Read.val_main_v151_eq, e0, e1, e2, e3, e4, e5, e6, e7, e8, e9, e10, e11, e12, e13, e14, e15, e16, e17,
    e18, e19, e20, e21, e22, e23, e24, e25]
  exact (Cert.KernelIdeal.Chain.result (fun V c b hb => Cert.KernelIdeal.Region.arr0 V c b hb)
    (fun V c b hb => Cert.KernelIdeal.Region.arr1 V c b hb)
    (fun V c cnt b h1 h2 => Cert.KernelIdeal.Region.arr2 V c cnt b h1 h2)
    (fun V c cnt b h1 h2 => Cert.KernelIdeal.Region.arr3 V c cnt b h1 h2)
    (fun V c cnt b h1 h2 => Cert.KernelIdeal.Region.arr4 V c cnt b h1 h2)
    (fun V c cnt b h1 h2 => Cert.KernelIdeal.Region.arr5 V c cnt b h1 h2)
    Cert.KernelIdeal.Region.arr6 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
